-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x256 : Shape := ⟨2, ![128, 256]⟩
abbrev S256 : Shape := ⟨1, ![256]⟩
abbrev S256x160 : Shape := ⟨2, ![256, 160]⟩
abbrev S160 : Shape := ⟨1, ![160]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x160 : S_.BroadcastsInDim S256x160 (![] : Fin 0 → Fin S256x160.rank)
  reducesTo_S256x160_S_d0_1 : S256x160.ReducesTo [0, 1] S_
  bcast_S_S160 : S_.BroadcastsInDim S160 (![] : Fin 0 → Fin S160.rank)
  reducesTo_S160_S_d0 : S160.ReducesTo [0] S_

variable [Facts]

def fn_part2 {F : FTy → Type} [FloatOps F] (main_arg9 : FVec F S256x160 .f32) (main_arg10 : FVec F S160 .f32) (main_v33 : IVec S_ 1) : IVec S_ 1 :=
  let main_v34 : FVec F S256x160 .f32 := Host.absf main_arg9
  let main_cst_12 : FVec F S_ .f32 := constant S_ .f32 0x7F800000#32
  let main_v35 : FVec F S256x160 .f32 := broadcastInDim S256x160 ![] bcast_S_S256x160 main_cst_12
  let main_v36 : IVec S256x160 1 := cmpf .olt main_v34 main_v35
  let main_c_13 : IVec S_ 1 := constantI S_ 1 1#1
  let main_v37 : IVec S_ 1 := (fun x v => Host.reduce IntOp.andi x v reducesTo_S256x160_S_d0_1 h_S_) main_v36 main_c_13
  let main_v38 : IVec S_ 1 := andi main_v33 main_v37
  let main_v39 : FVec F S160 .f32 := Host.absf main_arg10
  let main_cst_14 : FVec F S_ .f32 := constant S_ .f32 0x7F800000#32
  let main_v40 : FVec F S160 .f32 := broadcastInDim S160 ![] bcast_S_S160 main_cst_14
  let main_v41 : IVec S160 1 := cmpf .olt main_v39 main_v40
  let main_c_15 : IVec S_ 1 := constantI S_ 1 1#1
  let main_v42 : IVec S_ 1 := (fun x v => Host.reduce IntOp.andi x v reducesTo_S160_S_d0 h_S_) main_v41 main_c_15
  let main_v43 : IVec S_ 1 := andi main_v38 main_v42
  main_v43

def fn_part1 {F : FTy → Type} [FloatOps F] (main_arg6 : FVec F S256 .f32) (main_arg7 : FVec F S256 .f32) (main_arg8 : FVec F S256 .f32) (main_arg9 : FVec F S256x160 .f32) (main_arg10 : FVec F S160 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S1600000 32) (main_arg2 : IVec S1600000 32) (main_arg3 : FVec F S1600000 .f32) (main_arg4 : FVec F S128x256 .f32) (main_arg5 : FVec F S128x256 .f32) (main_arg6 : FVec F S256 .f32) (main_arg7 : FVec F S256 .f32) (main_arg8 : FVec F S256 .f32) (main_arg9 : FVec F S256x160 .f32) (main_arg10 : FVec F S160 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128x256 .f32 := Host.absf main_arg5
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S1600000 : Shape := ⟨1, ![1600000]⟩
abbrev S128x256 : Shape := ⟨2, ![128, 256]⟩
abbrev S256 : Shape := ⟨1, ![256]⟩
abbrev S256x160 : Shape := ⟨2, ![256, 160]⟩
abbrev S160 : Shape := ⟨1, ![160]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x256 : Shape := ⟨2, ![1, 256]⟩
abbrev S1x160 : Shape := ⟨2, ![1, 160]⟩
abbrev S2000x128 : Shape := ⟨2, ![2000, 128]⟩
abbrev S2000x256 : Shape := ⟨2, ![2000, 256]⟩
abbrev S100000x160 : Shape := ⟨2, ![100000, 160]⟩
abbrev S2000x160 : Shape := ⟨2, ![2000, 160]⟩

abbrev nBuf : Space → Nat
  | .hbm => 54
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x256, .f32⟩
  | .hbm, ⟨5, _⟩ => ⟨S128x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x160, .f32⟩
  | .hbm, ⟨10, _⟩ => ⟨S160, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S1600000x1, .f32⟩
  | .hbm, ⟨21, _⟩ => ⟨S1600000x128, .f32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S1x256, .f32⟩
  | .hbm, ⟨40, _⟩ => ⟨S1x256, .f32⟩
  | .hbm, ⟨41, _⟩ => ⟨S1x256, .f32⟩
  | .hbm, ⟨42, _⟩ => ⟨S1x160, .f32⟩
  | .hbm, ⟨43, _⟩ => ⟨S1x256, .f32⟩
  | .hbm, ⟨44, _⟩ => ⟨S1x256, .f32⟩
  | .hbm, ⟨45, _⟩ => ⟨S_, .f32⟩
  | .hbm, ⟨46, _⟩ => ⟨S1x256, .f32⟩
  | .hbm, ⟨47, _⟩ => ⟨S1x256, .f32⟩
  | .hbm, ⟨48, _⟩ => ⟨S_, .f32⟩
  | .hbm, ⟨49, _⟩ => ⟨S1x256, .f32⟩
  | .hbm, ⟨50, _⟩ => ⟨S1x256, .f32⟩
  | .hbm, ⟨51, _⟩ => ⟨S1x256, .f32⟩
  | .hbm, ⟨52, _⟩ => ⟨S1x256, .f32⟩
  | .hbm, ⟨53, _⟩ => ⟨S100000x160, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S128x256, .f32⟩
  | .local _ .vmem, ⟨16, _⟩ => ⟨S128x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S256x160, .f32⟩
  | .local _ .vmem, ⟨23, _⟩ => ⟨S1x160, .f32⟩
  | .local _ .vmem, ⟨24, _⟩ => ⟨S2000x160, .f32⟩
  | .local _ .vmem, ⟨25, _⟩ => ⟨S2000x160, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26_0 : Ref sig .tc := ⟨.hbm, 43, rfl⟩
abbrev main_v26_1 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg10_0 : Ref sig .tc := ⟨.vmem, 23, rfl⟩
abbrev cc1_stg11_0 : Ref sig .tc := ⟨.vmem, 24, rfl⟩
abbrev cc1_stg11_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21
abbrev cc1_sem11_0 : DmaSem sig := 22
abbrev cc1_sem11_1 : DmaSem sig := 23

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v36 : BitVec 1 := Scalar.cmpi .eq arg0 c49_i32
  let v37 : BitVec 32 := Scalar.extui v36
  let c0_i32_22 : BitVec 32 := 0#32
  let v38 : BitVec 1 := Scalar.cmpi .ne v37 c0_i32_22
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256x160 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x160 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S2000x160 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S256_S1x256 : S256.ShapeCasts S1x256
  shapeCasts_S160_S1x160 : S160.ShapeCasts S1x160
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  broadcasts_S1x256_S2000x256 : S1x256.Broadcasts S2000x256
  reduces_S2000x256_S256 : S2000x256.Reduces [0] S256
  bcast_S_S1x256 : S_.BroadcastsInDim S1x256 (![] : Fin 0 → Fin S1x256.rank)
  inb_S256x160_S256x160_0_0 : ∀ a, (![0, 0] : Fin 2 → Nat) a + S256x160.size a ≤ S256x160.size a
  h_S256x160 : 0 < S256x160.numel
  inb_S1x160_S1x160_0_0 : ∀ a, (![0, 0] : Fin 2 → Nat) a + S1x160.size a ≤ S1x160.size a
  h_S1x160 : 0 < S1x160.numel
  shapeCasts_S1x160_S1x160 : S1x160.ShapeCasts S1x160
  broadcasts_S1x160_S2000x160 : S1x160.Broadcasts S2000x160
  inb_S2000x160_S2000x160_0_0 : ∀ a, (![0, 0] : Fin 2 → Nat) a + S2000x160.size a ≤ S2000x160.size a
  h_S2000x160 : 0 < S2000x160.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S2000x128_S128x256_S2000x256_1_0_0_1_n_n_wf : DotDims.WF S2000x128 S128x256 S2000x256 [1] [0] [0] [1] [] []
  dot_S2000x256_S256x160_S2000x160_1_0_0_1_n_n_wf : DotDims.WF S2000x256 S256x160 S2000x160 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S256x160.size a ≤ S256x160.size a
  hwx1_9 : ∀ i : grid1.Coords, EltTy.bits .f32 = 32 ∨ (Rect.block (s := S256x160) S256x160.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x160.size a ≤ S1x160.size a
  hwx1_10 : ∀ i : grid1.Coords, EltTy.bits .f32 = 32 ∨ (Rect.block (s := S1x160) S1x160.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2000x160.size a ≤ S100000x160.size a
  hwx1_11 : ∀ i : grid1.Coords, EltTy.bits .f32 = 32 ∨ (Rect.block (s := S100000x160) S2000x160.size (cc1_transform_11 i) (hinb1_11 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x160_S2000x160_1_0_0_1_n_n : DotDims S2000x256 S256x160 S2000x160 where
  lhsContracting := [1]
  rhsContracting := [0]
  lhsNonContracting := [0]
  rhsNonContracting := [1]
  lhsBatch := []
  rhsBatch := []
  wf := dot_S2000x256_S256x160_S2000x160_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26_0) S1x256.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26_1) S1x256.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v23) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v24) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg9) S256x160.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v25) S1x160.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v33) S2000x160.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x256 : Shape := ⟨2, ![128, 256]⟩
abbrev S256 : Shape := ⟨1, ![256]⟩
abbrev S256x160 : Shape := ⟨2, ![256, 160]⟩
abbrev S160 : Shape := ⟨1, ![160]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x256 : Shape := ⟨2, ![100000, 256]⟩
abbrev S1x256 : Shape := ⟨2, ![1, 256]⟩
abbrev S100000x160 : Shape := ⟨2, ![100000, 160]⟩
abbrev S1x160 : Shape := ⟨2, ![1, 160]⟩

abbrev nBuf : Space → Nat
  | .hbm => 96
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x256, .f32⟩
  | .hbm, ⟨5, _⟩ => ⟨S128x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x160, .f32⟩
  | .hbm, ⟨10, _⟩ => ⟨S160, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S1600000x1, .f32⟩
  | .hbm, ⟨21, _⟩ => ⟨S1600000x128, .f32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S100000x256, .f32⟩
  | .hbm, ⟨40, _⟩ => ⟨S100000x256, .f32⟩
  | .hbm, ⟨41, _⟩ => ⟨S100000x256, .f32⟩
  | .hbm, ⟨42, _⟩ => ⟨S1x256, .f32⟩
  | .hbm, ⟨43, _⟩ => ⟨S100000x256, .f32⟩
  | .hbm, ⟨44, _⟩ => ⟨S100000x256, .f32⟩
  | .hbm, ⟨45, _⟩ => ⟨S_, .f32⟩
  | .hbm, ⟨46, _⟩ => ⟨S100000x256, .f32⟩
  | .hbm, ⟨47, _⟩ => ⟨S100000x256, .f32⟩
  | .hbm, ⟨48, _⟩ => ⟨S_, .f32⟩
  | .hbm, ⟨49, _⟩ => ⟨S256, .f32⟩
  | .hbm, ⟨50, _⟩ => ⟨S_, .f32⟩
  | .hbm, ⟨51, _⟩ => ⟨S256, .f32⟩
  | .hbm, ⟨52, _⟩ => ⟨S256, .f32⟩
  | .hbm, ⟨53, _⟩ => ⟨S_, .i32⟩
  | .hbm, ⟨54, _⟩ => ⟨S_, .f32⟩
  | .hbm, ⟨55, _⟩ => ⟨S256, .f32⟩
  | .hbm, ⟨56, _⟩ => ⟨S1x256, .f32⟩
  | .hbm, ⟨57, _⟩ => ⟨S_, .f32⟩
  | .hbm, ⟨58, _⟩ => ⟨S1x256, .f32⟩
  | .hbm, ⟨59, _⟩ => ⟨S1x256, .f32⟩
  | .hbm, ⟨60, _⟩ => ⟨S100000x256, .f32⟩
  | .hbm, ⟨61, _⟩ => ⟨S100000x256, .f32⟩
  | .hbm, ⟨62, _⟩ => ⟨S100000x256, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S256, .f32⟩
  | .hbm, ⟨68, _⟩ => ⟨S256, .f32⟩
  | .hbm, ⟨69, _⟩ => ⟨S256, .f32⟩
  | .hbm, ⟨70, _⟩ => ⟨S_, .f32⟩
  | .hbm, ⟨71, _⟩ => ⟨S_, .i1⟩
  | .hbm, ⟨72, _⟩ => ⟨S_, .f32⟩
  | .hbm, ⟨73, _⟩ => ⟨S_, .f32⟩
  | .hbm, ⟨74, _⟩ => ⟨S256, .f32⟩
  | .hbm, ⟨75, _⟩ => ⟨S256, .f32⟩
  | .hbm, ⟨76, _⟩ => ⟨S1x256, .f32⟩
  | .hbm, ⟨77, _⟩ => ⟨S100000x256, .f32⟩
  | .hbm, ⟨78, _⟩ => ⟨S100000x256, .f32⟩
  | .hbm, ⟨79, _⟩ => ⟨S_, .f32⟩
  | .hbm, ⟨80, _⟩ => ⟨S256, .f32⟩
  | .hbm, ⟨81, _⟩ => ⟨S256, .f32⟩
  | .hbm, ⟨82, _⟩ => ⟨S256, .f32⟩
  | .hbm, ⟨83, _⟩ => ⟨S1x256, .f32⟩
  | .hbm, ⟨84, _⟩ => ⟨S100000x256, .f32⟩
  | .hbm, ⟨85, _⟩ => ⟨S100000x256, .f32⟩
  | .hbm, ⟨86, _⟩ => ⟨S1x256, .f32⟩
  | .hbm, ⟨87, _⟩ => ⟨S100000x256, .f32⟩
  | .hbm, ⟨88, _⟩ => ⟨S100000x256, .f32⟩
  | .hbm, ⟨89, _⟩ => ⟨S1x256, .f32⟩
  | .hbm, ⟨90, _⟩ => ⟨S100000x256, .f32⟩
  | .hbm, ⟨91, _⟩ => ⟨S100000x256, .f32⟩
  | .hbm, ⟨92, _⟩ => ⟨S100000x160, .f32⟩
  | .hbm, ⟨93, _⟩ => ⟨S1x160, .f32⟩
  | .hbm, ⟨94, _⟩ => ⟨S100000x160, .f32⟩
  | .hbm, ⟨95, _⟩ => ⟨S100000x160, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call0_cst : Ref sig .tc := ⟨.hbm, 45, rfl⟩
abbrev main_call0_v0 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_call1_cst : Ref sig .tc := ⟨.hbm, 54, rfl⟩
abbrev main_call1_v0 : Ref sig .tc := ⟨.hbm, 55, rfl⟩
abbrev main_call1_v1 : Ref sig .tc := ⟨.hbm, 56, rfl⟩
abbrev main_call1_cst_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_v6 : Ref sig .tc := ⟨.hbm, 62, rfl⟩
abbrev main_call1_v7 : Ref sig .tc := ⟨.hbm, 63, rfl⟩
abbrev main_call1_cst_1 : Ref sig .tc := ⟨.hbm, 64, rfl⟩
abbrev main_call1_v8 : Ref sig .tc := ⟨.hbm, 65, rfl⟩
abbrev main_call1_cst_2 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_cst_3 : Ref sig .tc := ⟨.hbm, 70, rfl⟩
abbrev main_call1_v12 : Ref sig .tc := ⟨.hbm, 71, rfl⟩
abbrev main_call1_cst_4 : Ref sig .tc := ⟨.hbm, 72, rfl⟩
abbrev main_call1_call0_v0 : Ref sig .tc := ⟨.hbm, 73, rfl⟩
abbrev main_call1_call0_v1 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_cst_7 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  reducesTo_S100000x256_S256_d0 : S100000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S160_S1x160_1 : S160.BroadcastsInDim S1x160 (![1] : Fin 1 → Fin S1x160.rank)
  bcast_S1x160_S100000x160_0_1 : S1x160.BroadcastsInDim S100000x160 (![0, 1] : Fin 2 → Fin S100000x160.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x256_S100000x256_1_0_0_1_n_n_wf : DotDims.WF S100000x128 S128x256 S100000x256 [1] [0] [0] [1] [] []
  dot_S100000x256_S256x160_S100000x160_1_0_0_1_n_n_wf : DotDims.WF S100000x256 S256x160 S100000x160 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x160_S100000x160_1_0_0_1_n_n : DotDims S100000x256 S256x160 S100000x160 where
  lhsContracting := [1]
  rhsContracting := [0]
  lhsNonContracting := [0]
  rhsNonContracting := [1]
  lhsBatch := []
  rhsBatch := []
  wf := dot_S100000x256_S256x160_S100000x160_1_0_0_1_n_n_wf

class Facts : Prop extends Facts₀ where

variable [Facts]
-- ==== Proof.KB.Runs0.lean ====
import proofs.«134907_j57415122812990_1_alg».proof.Proof.Gen.Kernel.Launch
import proofs.«134907_j57415122812990_1_alg».proof.Proof.Gen.Kernel.Skeleton
import proofs.«134907_j57415122812990_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The statistics kernel's body, case by case

The body adds one row tile's column sums, and the column sums of its squares, of the activation
`max (x · W_self + n · W_neigh + b) 0` into two 1×256 accumulators carried from one grid point to the next. At the
first point it zeroes the accumulators before adding; at the last point it copies them into the two output rows. -/

/-- The first conditional: the grid coordinate is 0. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)
/-- The second conditional: the grid coordinate is 49, the last. -/
abbrev cond0_1 (i : grid0.Coords) : Prop := k0_cond2 i = 1#1
theorem hcond0_1 : ∀ t : Fin cfg0.N, cond0_1 (grid0.coords t) ↔ t.val = 49 :=
  (by decide +kernel : ∀ t : Fin grid0.N, cond0_1 (grid0.coords t) ↔ t.val = 49)

/-- The accumulators: whole scoped buffers of the kernel's own. -/
abbrev scM0_0 : Memref sig .tc .vmem S1x256 .f32 := Memref.whole cc0_scratch0
abbrev scM0_1 : Memref sig .tc .vmem S1x256 .f32 := Memref.whole cc0_scratch1
abbrev VS0_0 : View sig .tc .vmem S1x256 .f32 := scM0_0.view
abbrev VS0_1 : View sig .tc .vmem S1x256 .f32 := scM0_1.view
/-- One staging buffer of each output row, through which its contents are stated. -/
abbrev VO0_5 : View sig .tc .vmem S1x256 .f32 := (Memref.whole cc0_stg5_0 : Memref sig .tc .vmem S1x256 .f32).view
abbrev VO0_6 : View sig .tc .vmem S1x256 .f32 := (Memref.whole cc0_stg6_0 : Memref sig .tc .vmem S1x256 .f32).view

set_option maxHeartbeats 4000000 in
/-- The first point: both accumulators, at anything, are zeroed and then receive the tile's sums; the output rows are
    handed back untouched. The pieces each accumulator ends with are what the run finds. -/
noncomputable def kernelRun0_A (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : cond0_0 i) (hc1 : ¬cond0_1 i)
    (x0 : Vec F S2000x128 .f32) (x1 : Vec F S2000x128 .f32) (x2 : Vec F S128x256 .f32) (x3 : Vec F S128x256 .f32) (x4 : Vec F S1x256 .f32) :
    Σ' (LS0 : List (View.Piece (Elt F) S1x256 .f32)), { LS1 : List (View.Piece (Elt F) S1x256 .f32) //
      ∀ (xi5 xi6 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6
            ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7 arg8 harg8 arg9 harg9) K } := by
  refine ⟨?_, ?_, fun xi5 xi6 E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

set_option maxHeartbeats 4000000 in
/-- A middle point: both accumulators, at what the point before left, receive the tile's sums; the output rows are
    handed back untouched. -/
noncomputable def kernelRun0_B (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : ¬cond0_1 i)
    (x0 : Vec F S2000x128 .f32) (x1 : Vec F S2000x128 .f32) (x2 : Vec F S128x256 .f32) (x3 : Vec F S128x256 .f32) (x4 : Vec F S1x256 .f32) (xs0 xs1 : Vec F S1x256 .f32) :
    Σ' (LS0 : List (View.Piece (Elt F) S1x256 .f32)), { LS1 : List (View.Piece (Elt F) S1x256 .f32) //
      ∀ (xi5 xi6 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6
            ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7 arg8 harg8 arg9 harg9) K } := by
  refine ⟨?_, ?_, fun xi5 xi6 E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

set_option maxHeartbeats 4000000 in
/-- The last point: the accumulators receive the tile's sums and are then copied into the two output rows. -/
noncomputable def kernelRun0_C (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : cond0_1 i)
    (x0 : Vec F S2000x128 .f32) (x1 : Vec F S2000x128 .f32) (x2 : Vec F S128x256 .f32) (x3 : Vec F S128x256 .f32) (x4 : Vec F S1x256 .f32) (xs0 xs1 : Vec F S1x256 .f32) :
    Σ' (L5 : List (View.Piece (Elt F) S1x256 .f32)) (L6 : List (View.Piece (Elt F) S1x256 .f32)) (LS0 : List (View.Piece (Elt F) S1x256 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [HS0]; · iexists _; iexact HS0
    iexists _; iexact HS1

end Cert.Kernel.Frame

end
-- ==== Proof.KB.Frame0.lean ====
import proofs.«134907_j57415122812990_1_alg».proof.Proof.KB.Runs0

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The statistics region: what the accumulators hold point by point, the proof data, the body obligation -/

/-! ## What each case leaves in the accumulators and the output rows -/

/-- The first point's pieces cover each accumulator. -/
theorem scover0_A_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : cond0_0 i) (hc1 : ¬cond0_1 i)
    (x0 : Vec F S2000x128 .f32) (x1 : Vec F S2000x128 .f32) (x2 : Vec F S128x256 .f32) (x3 : Vec F S128x256 .f32) (x4 : Vec F S1x256 .f32) (y : S1x256.Idx) :
    ∃ pc ∈ (kernelRun0_A c i arg1 harg1 arg2 harg2 arg3 harg3 arg4 harg4 arg5 harg5 arg6 harg6 arg7 harg7 arg8 harg8 arg9 harg9 hc0 hc1 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3 x4).1 S1x256.size (by sl_kernel_rfl) y

theorem scover0_A_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : cond0_0 i) (hc1 : ¬cond0_1 i)
    (x0 : Vec F S2000x128 .f32) (x1 : Vec F S2000x128 .f32) (x2 : Vec F S128x256 .f32) (x3 : Vec F S128x256 .f32) (x4 : Vec F S1x256 .f32) (y : S1x256.Idx) :
    ∃ pc ∈ (kernelRun0_A c i arg1 harg1 arg2 harg2 arg3 harg3 arg4 harg4 arg5 harg5 arg6 harg6 arg7 harg7 arg8 harg8 arg9 harg9 hc0 hc1 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3 x4).2.1 S1x256.size (by sl_kernel_rfl) y

/-- What the first point leaves in each accumulator: its pieces read back. -/
def sout0_A_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : cond0_0 i) (hc1 : ¬cond0_1 i)
    (x0 : Vec F S2000x128 .f32) (x1 : Vec F S2000x128 .f32) (x2 : Vec F S128x256 .f32) (x3 : Vec F S128x256 .f32) (x4 : Vec F S1x256 .f32) : Vec F S1x256 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 hc1 x0 x1 x2 x3 x4).1)

def sout0_A_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : cond0_0 i) (hc1 : ¬cond0_1 i)
    (x0 : Vec F S2000x128 .f32) (x1 : Vec F S2000x128 .f32) (x2 : Vec F S128x256 .f32) (x3 : Vec F S128x256 .f32) (x4 : Vec F S1x256 .f32) : Vec F S1x256 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 hc0 hc1 x0 x1 x2 x3 x4).2.1)

/-- A middle point's pieces cover each accumulator. -/
theorem scover0_B_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : ¬cond0_1 i)
    (x0 : Vec F S2000x128 .f32) (x1 : Vec F S2000x128 .f32) (x2 : Vec F S128x256 .f32) (x3 : Vec F S128x256 .f32) (x4 : Vec F S1x256 .f32) (xs0 xs1 : Vec F S1x256 .f32) (y : S1x256.Idx) :
    ∃ pc ∈ (kernelRun0_B c i arg1 harg1 arg2 harg2 arg3 harg3 arg4 harg4 arg5 harg5 arg6 harg6 arg7 harg7 arg8 harg8 arg9 harg9 hc0 hc1 x0 x1 x2 x3 x4 xs0 xs1).1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 x4 xs0 xs1).1 S1x256.size (by sl_kernel_rfl) y

theorem scover0_B_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : ¬cond0_1 i)
    (x0 : Vec F S2000x128 .f32) (x1 : Vec F S2000x128 .f32) (x2 : Vec F S128x256 .f32) (x3 : Vec F S128x256 .f32) (x4 : Vec F S1x256 .f32) (xs0 xs1 : Vec F S1x256 .f32) (y : S1x256.Idx) :
    ∃ pc ∈ (kernelRun0_B c i arg1 harg1 arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 x4 xs0 xs1).2.1 S1x256.size (by sl_kernel_rfl) y

def sout0_B_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : ¬cond0_1 i)
    (x0 : Vec F S2000x128 .f32) (x1 : Vec F S2000x128 .f32) (x2 : Vec F S128x256 .f32) (x3 : Vec F S128x256 .f32) (x4 : Vec F S1x256 .f32) (xs0 xs1 : Vec F S1x256 .f32) : Vec F S1x256 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 hc0 hc1 x0 x1 x2 x3 x4 xs0 xs1).1)

def sout0_B_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : ¬cond0_1 i)
    (x0 : Vec F S2000x128 .f32) (x1 : Vec F S2000x128 .f32) (x2 : Vec F S128x256 .f32) (x3 : Vec F S128x256 .f32) (x4 : Vec F S1x256 .f32) (xs0 xs1 : Vec F S1x256 .f32) : Vec F S1x256 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 hc0 hc1 x0 x1 x2 x3 x4 xs0 xs1).2.1)

/-- The last point's pieces cover each output row and each accumulator. -/
theorem cover0_C_5 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : cond0_1 i)
    (x0 : Vec F S2000x128 .f32) (x1 : Vec F S2000x128 .f32) (x2 : Vec F S128x256 .f32) (x3 : Vec F S128x256 .f32) (x4 : Vec F S1x256 .f32) (xs0 xs1 : Vec F S1x256 .f32) (y : S1x256.Idx) :
    ∃ pc ∈ (kernelRun0_C c i arg1 harg1 arg2 harg2 arg3 harg3 arg4 harg4 arg5 harg5 arg6 harg6 arg7 harg7 arg8 harg8 arg9 harg9 hc0 hc1 x0 x1 x2 x3 x4 xs0 xs1).1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 xs0 xs1).1 S1x256.size (by sl_kernel_rfl) y

theorem cover0_C_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : cond0_1 i)
    (x0 : Vec F S2000x128 .f32) (x1 : Vec F S2000x128 .f32) (x2 : Vec F S128x256 .f32) (x3 : Vec F S128x256 .f32) (x4 : Vec F S1x256 .f32) (xs0 xs1 : Vec F S1x256 .f32) (y : S1x256.Idx) :
    ∃ pc ∈ (kernelRun0_C c i arg1 harg1 arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 xs0 xs1).2.1 S1x256.size (by sl_kernel_rfl) y

theorem scover0_C_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : cond0_1 i)
    (x0 : Vec F S2000x128 .f32) (x1 : Vec F S2000x128 .f32) (x2 : Vec F S128x256 .f32) (x3 : Vec F S128x256 .f32) (x4 : Vec F S1x256 .f32) (xs0 xs1 : Vec F S1x256 .f32) (y : S1x256.Idx) :
    ∃ pc ∈ (kernelRun0_C c i arg1 harg1 arg2 harg2 arg3 harg3 arg4 harg4 arg5 harg5 arg6 harg6 arg7 harg7 arg8 harg8 arg9 harg9 hc0 hc1 x0 x1 x2 x3 x4 xs0 xs1).2.2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 xs0 xs1).2.2.1 S1x256.size (by sl_kernel_rfl) y

theorem scover0_C_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : cond0_1 i)
    (x0 : Vec F S2000x128 .f32) (x1 : Vec F S2000x128 .f32) (x2 : Vec F S128x256 .f32) (x3 : Vec F S128x256 .f32) (x4 : Vec F S1x256 .f32) (xs0 xs1 : Vec F S1x256 .f32) (y : S1x256.Idx) :
    ∃ pc ∈ (kernelRun0_C c i arg1 harg1 arg2 harg2 arg3 harg3 arg4 harg4 arg5 harg5 arg6 harg6 arg7 harg7 arg8 harg8 arg9 harg9 hc0 hc1 x0 x1 x2 x3 x4 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 xs0 xs1).2.2.2.1 S1x256.size (by sl_kernel_rfl) y

def out0_C_5 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : cond0_1 i)
    (x0 : Vec F S2000x128 .f32) (x1 : Vec F S2000x128 .f32) (x2 : Vec F S128x256 .f32) (x3 : Vec F S128x256 .f32) (x4 : Vec F S1x256 .f32) (xs0 xs1 : Vec F S1x256 .f32) : Vec F S1x256 .f32 :=
  VO0_5.read (Elt F) (VO0_5.writes (Elt F) VO0_5.junk (kernelRun0_C c i arg1 harg1 arg2 harg2 arg3 harg3 arg4 harg4 arg5 harg5 arg6 harg6 arg7 harg7 arg8 harg8 arg9 harg9 hc0 hc1 x0 x1 x2 x3 x4 xs0 xs1).1)

def out0_C_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : cond0_1 i)
    (x0 : Vec F S2000x128 .f32) (x1 : Vec F S2000x128 .f32) (x2 : Vec F S128x256 .f32) (x3 : Vec F S128x256 .f32) (x4 : Vec F S1x256 .f32) (xs0 xs1 : Vec F S1x256 .f32) : Vec F S1x256 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 hc0 hc1 x0 x1 x2 x3 x4 xs0 xs1).2.1)

def sout0_C_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : cond0_1 i)
    (x0 : Vec F S2000x128 .f32) (x1 : Vec F S2000x128 .f32) (x2 : Vec F S128x256 .f32) (x3 : Vec F S128x256 .f32) (x4 : Vec F S1x256 .f32) (xs0 xs1 : Vec F S1x256 .f32) : Vec F S1x256 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 hc0 hc1 x0 x1 x2 x3 x4 xs0 xs1).2.2.1)

def sout0_C_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : cond0_1 i)
    (x0 : Vec F S2000x128 .f32) (x1 : Vec F S2000x128 .f32) (x2 : Vec F S128x256 .f32) (x3 : Vec F S128x256 .f32) (x4 : Vec F S1x256 .f32) (xs0 xs1 : Vec F S1x256 .f32) : Vec F S1x256 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 hc0 hc1 x0 x1 x2 x3 x4 xs0 xs1).2.2.2.1)

/-! ## The staging memrefs at a point, and where the output rows are idle -/

abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5_C : ∀ t : Fin cfg0.N, cond0_1 (grid0.coords t) → cfg0.idle 5 (grid0.coords t) = false := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6_C : ∀ t : Fin cfg0.N, cond0_1 (grid0.coords t) → cfg0.idle 6 (grid0.coords t) = false := by decide +kernel

/-- The scoped buffers of the core that are neither a staging buffer of this region nor one of its accumulators. -/
abbrev rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg11_0), ((c : Thread nD τ).loc cc1_stg11_0) ↦{fullShare} f) ∗ (∃ f : Buf (Elt F) ((c : Thread nD τ).loc cc1_stg11_1), ((c : Thread nD τ).loc cc1_stg11_1) ↦{fullShare} f))

/-- The class invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 c) ∗ (∃ r, prngReg c r)) := by
  unfold Pipeline.ΦA; rw [scopedRest0_eq]; simp only [scM0_0, scM0_1, owns_whole]; try rfl

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The accumulation -/

/-- What the two accumulators hold after the body at position `n`: the first point's sums over zero, then each point's
    sums over what the point before left. -/
def sAt0 (c : Dev nD) : (n : ℕ) → n < cfg0.N → Vec F S1x256 .f32 × Vec F S1x256 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩),
              sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h1 : n + 1 = 49 then
      (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => (fun h => by (try dsimp only at h); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (sAt0 c n (Nat.lt_of_succ_lt hn)).1 (sAt0 c n (Nat.lt_of_succ_lt hn)).2,
       sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => (fun h => by (try dsimp only at h); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (sAt0 c n (Nat.lt_of_succ_lt hn)).1 (sAt0 c n (Nat.lt_of_succ_lt hn)).2)
    else
      (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => (fun h => by (try dsimp only at h); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (sAt0 c n (Nat.lt_of_succ_lt hn)).1 (sAt0 c n (Nat.lt_of_succ_lt hn)).2,
       sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => (fun h => by (try dsimp only at h); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (sAt0 c n (Nat.lt_of_succ_lt hn)).1 (sAt0 c n (Nat.lt_of_succ_lt hn)).2)

theorem sAt0_A (c : Dev nD) (t : Fin cfg0.N) (h0 : t.val = 0) (h1 : ¬t.val = 49) :
    sAt0 V c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t),
      sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact absurd h0 (Nat.succ_ne_zero n)

theorem sAt0_B (c : Dev nD) (t : Fin cfg0.N) (h0 : ¬t.val = 0) (h1 : ¬t.val = 49) :
    sAt0 V c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (sAt0 V c (t.val - 1) (Nat.lt_of_le_of_lt (Nat.sub_le _ _) t.isLt)).1 (sAt0 V c (t.val - 1) (Nat.lt_of_le_of_lt (Nat.sub_le _ _) t.isLt)).2,
      sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (sAt0 V c (t.val - 1) (Nat.lt_of_le_of_lt (Nat.sub_le _ _) t.isLt)).1 (sAt0 V c (t.val - 1) (Nat.lt_of_le_of_lt (Nat.sub_le _ _) t.isLt)).2) := by
  obtain ⟨n, hn⟩ := t
  cases n with
  | zero => exact absurd rfl h0
  | succ n => exact (dif_neg h1).trans rfl

theorem sAt0_C (c : Dev nD) (t : Fin cfg0.N) (h0 : ¬t.val = 0) (h1 : t.val = 49) :
    sAt0 V c t.val t.isLt = (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (sAt0 V c (t.val - 1) (Nat.lt_of_le_of_lt (Nat.sub_le _ _) t.isLt)).1 (sAt0 V c (t.val - 1) (Nat.lt_of_le_of_lt (Nat.sub_le _ _) t.isLt)).2,
      sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (sAt0 V c (t.val - 1) (Nat.lt_of_le_of_lt (Nat.sub_le _ _) t.isLt)).1 (sAt0 V c (t.val - 1) (Nat.lt_of_le_of_lt (Nat.sub_le _ _) t.isLt)).2) := by
  obtain ⟨n, hn⟩ := t
  cases n with
  | zero => exact absurd rfl h0
  | succ n => exact (dif_pos h1).trans rfl

/-- What the two output rows' staging buffers hold after the body at point `t`: at the last point the accumulators'
    final contents as the body copies them; elsewhere the rows are idle and this is not consulted. -/
def oAt0 (c : Dev nD) (t : Fin cfg0.N) : Vec F S1x256 .f32 × Vec F S1x256 .f32 :=
  if h1 : t.val = 49 then
    (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => (fun h => by omega) ((hcond0_0 t).mp h)) ((hcond0_1 t).mpr h1) (iblk0 V c 0 t) (iblk0 V c 1 t) (iblk0 V c 2 t) (iblk0 V c 3 t) (iblk0 V c 4 t) (sAt0 V c (t.val - 1) (Nat.lt_of_le_of_lt (Nat.sub_le _ _) t.isLt)).1 (sAt0 V c (t.val - 1) (Nat.lt_of_le_of_lt (Nat.sub_le _ _) t.isLt)).2,
     out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => (fun h => by omega) ((hcond0_0 t).mp h)) ((hcond0_1 t).mpr h1) (iblk0 V c 0 t) (iblk0 V c 1 t) (iblk0 V c 2 t) (iblk0 V c 3 t) (iblk0 V c 4 t) (sAt0 V c (t.val - 1) (Nat.lt_of_le_of_lt (Nat.sub_le _ _) t.isLt)).1 (sAt0 V c (t.val - 1) (Nat.lt_of_le_of_lt (Nat.sub_le _ _) t.isLt)).2)
  else sAt0 V c t.val t.isLt

theorem oAt0_C (c : Dev nD) (t : Fin cfg0.N) (h0 : ¬t.val = 0) (h1 : t.val = 49) :
    oAt0 V c t = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (sAt0 V c (t.val - 1) (Nat.lt_of_le_of_lt (Nat.sub_le _ _) t.isLt)).1 (sAt0 V c (t.val - 1) (Nat.lt_of_le_of_lt (Nat.sub_le _ _) t.isLt)).2,
     out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (sAt0 V c (t.val - 1) (Nat.lt_of_le_of_lt (Nat.sub_le _ _) t.isLt)).1 (sAt0 V c (t.val - 1) (Nat.lt_of_le_of_lt (Nat.sub_le _ _) t.isLt)).2) :=
  dif_pos h1

/-- The region's invariant before position `n`: before the first point the class's (every scoped buffer at anything);
    afterwards the two accumulators at what the point before left, the other scoped buffers at anything, and the
    generator register at some state. -/
def PhiS (c : Dev nD) : (n : ℕ) → n ≤ cfg0.N → sProp 𝕄
  | 0, _ => Pipeline.ΦA spec0 c
  | n + 1, hn => iprop(iprop(owns (c : Thread nD τ) scM0_0 fullShare ((sAt0 V c n hn).1) ∗ owns (c : Thread nD τ) scM0_1 fullShare ((sAt0 V c n hn).2) ∗ rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((sAt0 V c n hn).1) ∗ owns (c : Thread nD τ) scM0_1 fullShare ((sAt0 V c n hn).2) ∗ rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((sAt0 V c (n - 1) (by omega)).1) ∗ owns (c : Thread nD τ) scM0_1 fullShare ((sAt0 V c (n - 1) (by omega)).2) ∗ rest0 c) ∗ (∃ r, prngReg c r)) := by
  cases n with
  | zero => exact absurd rfl hz
  | succ n => rfl

/-! ## The proof data -/

/-- The proof data of the statistics pipeline on core `c`: the arrays as the region finds them; after the body at
    point `t` each input's buffer at its block and the output rows' at `oAt0`; the invariant `PhiS`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (oAt0 V c t).1
    | ⟨6, _⟩ => (oAt0 V c t).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (oAt0 V c t).1 := by dsimp only [dat0]
theorem after0_6 (c : Dev nD) (t : Fin cfg0.N) : (dat0 V c).after 6 t = (oAt0 V c t).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

end Region

end Cert.Kernel.Frame

end
-- ==== Proof.KB.Body0.lean ====
import proofs.«134907_j57415122812990_1_alg».proof.Proof.KB.Frame0

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The statistics region: the body obligation -/

section Region
variable (V : (c : Dev nD) → (b : Ref sig .tc) → Buf (Elt F) ((c : Thread nD τ).loc b))

set_option maxHeartbeats 16000000 in
/-- The body at any point: the inputs' memrefs hold their blocks; the point is the first, a middle or the last one;
    the invariant hands the body the accumulators at what the point before left (at anything at the first point) and
    takes them back at this point's contents; the output rows are handed back untouched except at the last point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 50 := lt_of_lt_of_eq t.isLt (show cfg0.N = 50 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h1 : t.val = 49
  · have h0 : ¬t.val = 0 := by omega
    rw [show (dat0 V c).leavesExact 5 t = owns (c : Thread nD τ) (ms0_5 t) fullShare ((dat0 V c).after 5 t) from by
      unfold Dat.leavesExact; rw [liveAt0_5_C t ((hcond0_1 t).mpr h1)], after0_5]
    rw [show (dat0 V c).leavesExact 6 t = owns (c : Thread nD τ) (ms0_6 t) fullShare ((dat0 V c).after 6 t) from by
      unfold Dat.leavesExact; rw [liveAt0_6_C t ((hcond0_1 t).mpr h1)], after0_6]
    rw [sAt0_C V c t h0 h1, oAt0_C V c t h0 h1]
    unfold out0_C_5 out0_C_6 sout0_C_0 sout0_C_1; (try dsimp only)
    rw [PhiS_castSucc V c t, PhiS_pos V c _ _ h0]
    iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _ _).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    iintro ⟨H0, H1, H2, H3, H4, ⟨%e5, H5⟩, ⟨%e6, H6⟩, ⟨%es0, HS0⟩, ⟨%es1, HS1⟩⟩
    isplitl [HS0 HS1 Hrest Hg]
    · isplitl [HS0 HS1 Hrest]
      · isplitl [HS0]
        · unfold owns; iexists _; isplitr
          swap; · iexact HS0
          ipureintro; exact View.read_writes_of_cover _ _ _ _ _ (scover0_C_0 c _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_C_1 c _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_C_5 c _ _ _ _ _ _ _ _ _ _ _ _ _ _ _ _ _ _ _ _ _ _ _ _ _ _ _ _)
    unfold owns; iexists _; isplitr
    swap; · iexact H6
    ipureintro; exact View.read_writes_of_cover _ _ _ _ _ (cover0_C_6 c _ _ _ _ _ _ _ _ _ _ _ _ _ _ _ _ _ _ _ _ _ _ _ _ _ _ _ _)
  · have hnl : ¬cond0_1 (grid0.coords t) := fun h => h1 ((hcond0_1 t).mp h)
    rw [Dat.leavesExact_idle (dat0 V c) 5 t (idleAt0_5 t hnl) (noFlush0_5 t hnl)]
    rw [Dat.leavesExact_idle (dat0 V c) 6 t (idleAt0_6 t hnl) (noFlush0_6 t hnl)]
    by_cases h0 : t.val = 0
    · rw [sAt0_A V c t h0 h1]
      unfold sout0_A_0 sout0_A_1; (try dsimp only)
      rw [PhiS_castSucc V c t, PhiS_zero V c _ _ h0, PhiA0_eq]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ ((hcond0_0 t).mpr h0) hnl (iblk0 V c 0 t) (iblk0 V c 1 t) (iblk0 V c 2 t) (iblk0 V c 3 t) (iblk0 V c 4 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
    · rw [sAt0_B V c t h0 h1]
      unfold sout0_B_0 sout0_B_1; (try dsimp only)
      rw [PhiS_castSucc V c t, PhiS_pos V c _ _ h0]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ (fun h => h0 ((hcond0_0 t).mp h)) hnl (iblk0 V c 0 t) (iblk0 V c 1 t) (iblk0 V c 2 t) (iblk0 V c 3 t) (iblk0 V c 4 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the accumulators' named contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 50 := N_0; omega), PhiA0_eq]
  iintro ⟨⟨HS0, HS1, Hrest⟩, Hg⟩
  isplitl [HS0 HS1 Hrest]
  · isplitl [HS0]; · iexists _; iexact HS0
    isplitl [HS1]; · iexists _; iexact HS1
    iexact Hrest
  iexact Hg

end Region

end Cert.Kernel.Frame

end
-- ==== Proof.KB.Run1.lean ====
import proofs.«134907_j57415122812990_1_alg».proof.Proof.Gen.Kernel.Launch
import proofs.«134907_j57415122812990_1_alg».proof.Proof.Gen.Kernel.Skeleton
import proofs.«134907_j57415122812990_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The projection kernel's body on whole staging buffers

The body reads eleven blocks (two row tiles, two weight matrices, the bias row, the mean, variance, scale and shift
rows, the projection matrix and its bias row) and stores one 2000×160 tile: the normalised activations times the
projection matrix plus the bias. -/

/-- One staging buffer of the output tile, through which its contents are stated. -/
abbrev VO1_11 : View sig .tc .vmem S2000x160 .f32 := (Memref.whole cc1_stg11_0 : Memref sig .tc .vmem S2000x160 .f32).view

set_option maxHeartbeats 4000000 in
/-- The body on whole staging memrefs, the inputs at read contents and the output tile at anything, runs to the
    continuation holding the inputs as they were and the output tile with its one store written: the piece is what
    the run finds. -/
noncomputable def kernelRun1 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S256x160 .f32) (harg10 : arg10.IsWhole) (arg11 : Memref sig .tc .vmem S1x160 .f32) (harg11 : arg11.IsWhole) (arg12 : Memref sig .tc .vmem S2000x160 .f32) (harg12 : arg12.IsWhole)
    (x0 : Vec F S2000x128 .f32) (x1 : Vec F S2000x128 .f32) (x2 : Vec F S128x256 .f32) (x3 : Vec F S128x256 .f32) (x4 : Vec F S1x256 .f32) (x5 : Vec F S1x256 .f32) (x6 : Vec F S1x256 .f32) (x7 : Vec F S1x256 .f32) (x8 : Vec F S1x256 .f32) (x9 : Vec F S256x160 .f32) (x10 : Vec F S1x160 .f32) :
    { L11 : List (View.Piece (Elt F) S2000x160 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
                ∗ (∃ f, arg12.view.loc (c : Thread nD τ) ↦[arg12.view.set]{fullShare} arg12.view.writes (Elt F) f L11)) -∗ K ⟨⟩))
          ⊢ wp frame (wpE (defs₀ (F := F)) Variants.none c none) E (cc1__final_kernel i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc1__final_kernel_eq_skeleton]; unfold cc1__final_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    iexists _; iexact H11

end Cert.Kernel.Frame

end
-- ==== Proof.KB.Frame1.lean ====
import proofs.«134907_j57415122812990_1_alg».proof.Proof.KB.Run1

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The projection region: the proof data and the body obligation -/

abbrev ms1_0 (t : Fin cfg1.N) : Memref sig .tc .vmem S2000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x256 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x256 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x256 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S256x160 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x160 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S2000x160 .f32 := win1_11.stage (cfg1.slots t 11)
abbrev hs1_11 (t : Fin cfg1.N) : (ms1_11 t).IsWhole := hstage1_11 ((cfg1.slots t 11).cast nbuf1_11)

/-- The body's one store tiles the output tile, so it covers it. -/
theorem cover1_11 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S256x160 .f32) (harg10 : arg10.IsWhole) (arg11 : Memref sig .tc .vmem S1x160 .f32) (harg11 : arg11.IsWhole) (arg12 : Memref sig .tc .vmem S2000x160 .f32) (harg12 : arg12.IsWhole)
    (x0 : Vec F S2000x128 .f32) (x1 : Vec F S2000x128 .f32) (x2 : Vec F S128x256 .f32) (x3 : Vec F S128x256 .f32) (x4 : Vec F S1x256 .f32) (x5 : Vec F S1x256 .f32) (x6 : Vec F S1x256 .f32) (x7 : Vec F S1x256 .f32) (x8 : Vec F S1x256 .f32) (x9 : Vec F S256x160 .f32) (x10 : Vec F S1x160 .f32) (y : S2000x160.Idx) :
    ∃ pc ∈ (kernelRun1 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10).1, y ∈ pc.1.set :=
  View.cover_of_tiledL (kernelRun1 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10).1 S2000x160.size (by sl_kernel_rfl) y

/-- What the body leaves in the output tile's staging buffer: its piece read back. -/
def out1_11 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S256x160 .f32) (harg10 : arg10.IsWhole) (arg11 : Memref sig .tc .vmem S1x160 .f32) (harg11 : arg11.IsWhole) (arg12 : Memref sig .tc .vmem S2000x160 .f32) (harg12 : arg12.IsWhole)
    (x0 : Vec F S2000x128 .f32) (x1 : Vec F S2000x128 .f32) (x2 : Vec F S128x256 .f32) (x3 : Vec F S128x256 .f32) (x4 : Vec F S1x256 .f32) (x5 : Vec F S1x256 .f32) (x6 : Vec F S1x256 .f32) (x7 : Vec F S1x256 .f32) (x8 : Vec F S1x256 .f32) (x9 : Vec F S256x160 .f32) (x10 : Vec F S1x160 .f32) : Vec F S2000x160 .f32 :=
  VO1_11.read (Elt F) (VO1_11.writes (Elt F) VO1_11.junk (kernelRun1 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10).1)

section Region
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-- The proof data of the projection pipeline on core `c`: the arrays as the region finds them; after the body at
    point `t` each input's buffer at its block and the output tile's at `out1_11` of the input blocks; the class's
    invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => out1_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = out1_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t))

set_option maxHeartbeats 8000000 in
/-- The body at any point: the inputs' memrefs hold their blocks, so the run applies; the invariant and the core's
    `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  unfold out1_11
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun1 c (grid1.coords t) _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, ⟨%e11, H11⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  unfold owns; iexists _; isplitr
  swap; · iexact H11
  ipureintro; exact View.read_writes_of_cover _ _ _ _ _ (cover1_11 c _ _ _ _ _ _ _ _ _ _ _ _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.Kernel.Frame

end
-- ==== Proof.KB.Run.lean ====
import proofs.«134907_j57415122812990_1_alg».proof.Proof.KB.Body0
import proofs.«134907_j57415122812990_1_alg».proof.Proof.KB.Frame1
import proofs.«134907_j57415122812990_1_alg».proof.Proof.Gen.Kernel.Regions

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The run: the host stretches and the two regions in order, from the launch to the return

The buffer contents at every boundary are a fold from the launch memory: a host stretch applies its operations, a
region leaves its arrays at what its write-backs leave and every other buffer as entered. -/

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_writes_sub hostOps1 _ hostOps1_writes (show main_arg0 ∉ hostOps1_W by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (show main_arg0 ∉ hostOps0_W by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (show main_arg1 ∉ hostOps1_W by decide)
    _ = W1 m ρ c (Proc.devRef .tc main_arg1) := W2_of_ne m ρ c main_arg1 (by decide)
    _ = W0 m ρ c (Proc.devRef .tc main_arg1) := StableHlo.after_of_writes_sub hostOps0 _ hostOps0_writes (show main_arg1 ∉ hostOps0_W by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (show main_arg2 ∉ hostOps1_W by decide)
    _ = W1 m ρ c (Proc.devRef .tc main_arg2) := W2_of_ne m ρ c main_arg2 (by decide)
    _ = W0 m ρ c (Proc.devRef .tc main_arg2) := StableHlo.after_of_writes_sub hostOps0 _ hostOps0_writes (show main_arg2 ∉ hostOps0_W by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (show main_arg3 ∉ hostOps1_W by decide)
    _ = W1 m ρ c (Proc.devRef .tc main_arg3) := W2_of_ne m ρ c main_arg3 (by decide)
    _ = W0 m ρ c (Proc.devRef .tc main_arg3) := StableHlo.after_of_writes_sub hostOps0 _ hostOps0_writes (show main_arg3 ∉ hostOps0_W by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := (W4_arr m ρ c 2).trans (((dat1 (V3 m ρ) c).arrAt_in 2 rfl _).trans (A_eq1 (V3 m ρ) c 2))
    _ = W2 m ρ c (Proc.devRef .tc main_arg4) := StableHlo.after_of_writes_sub hostOps1 _ hostOps1_writes (show main_arg4 ∉ hostOps1_W by decide)
    _ = W1 m ρ c (Proc.devRef .tc main_arg4) := (W2_arr m ρ c 2).trans (((dat0 (V1 m ρ) c).arrAt_in 2 rfl _).trans (A_eq0 (V1 m ρ) c 2))
    _ = W0 m ρ c (Proc.devRef .tc main_arg4) := StableHlo.after_of_writes_sub hostOps0 _ hostOps0_writes (show main_arg4 ∉ hostOps0_W by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := (W4_arr m ρ c 3).trans (((dat1 (V3 m ρ) c).arrAt_in 3 rfl _).trans (A_eq1 (V3 m ρ) c 3))
    _ = W2 m ρ c (Proc.devRef .tc main_arg5) := StableHlo.after_of_writes_sub hostOps1 _ hostOps1_writes (show main_arg5 ∉ hostOps1_W by decide)
    _ = W1 m ρ c (Proc.devRef .tc main_arg5) := (W2_arr m ρ c 3).trans (((dat0 (V1 m ρ) c).arrAt_in 3 rfl _).trans (A_eq0 (V1 m ρ) c 3))
    _ = W0 m ρ c (Proc.devRef .tc main_arg5) := StableHlo.after_of_writes_sub hostOps0 _ hostOps0_writes (show main_arg5 ∉ hostOps0_W by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (show main_arg6 ∉ hostOps1_W by decide)
    _ = W1 m ρ c (Proc.devRef .tc main_arg6) := W2_of_ne m ρ c main_arg6 (by decide)
    _ = W0 m ρ c (Proc.devRef .tc main_arg6) := StableHlo.after_of_writes_sub hostOps0 _ hostOps0_writes (show main_arg6 ∉ hostOps0_W by decide)
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ hostOps1_writes (show main_arg7 ∉ hostOps1_W by decide)
    _ = W1 m ρ c (Proc.devRef .tc main_arg7) := W2_of_ne m ρ c main_arg7 (by decide)
    _ = W0 m ρ c (Proc.devRef .tc main_arg7) := StableHlo.after_of_writes_sub hostOps0 _ hostOps0_writes (show main_arg7 ∉ hostOps0_W by decide)
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_writes_sub hostOps1 _ hostOps1_writes (show main_arg8 ∉ hostOps1_W by decide)
    _ = W1 m ρ c (Proc.devRef .tc main_arg8) := W2_of_ne m ρ c main_arg8 (by decide)
    _ = W0 m ρ c (Proc.devRef .tc main_arg8) := StableHlo.after_of_writes_sub hostOps0 _ hostOps0_writes (show main_arg8 ∉ hostOps0_W by decide)
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := (W4_arr m ρ c 9).trans (((dat1 (V3 m ρ) c).arrAt_in 9 rfl _).trans (A_eq1 (V3 m ρ) c 9))
    _ = W2 m ρ c (Proc.devRef .tc main_arg9) := StableHlo.after_of_writes_sub hostOps1 _ hostOps1_writes (show main_arg9 ∉ hostOps1_W by decide)
    _ = W1 m ρ c (Proc.devRef .tc main_arg9) := W2_of_ne m ρ c main_arg9 (by decide)
    _ = W0 m ρ c (Proc.devRef .tc main_arg9) := StableHlo.after_of_writes_sub hostOps0 _ hostOps0_writes (show main_arg9 ∉ hostOps0_W by decide)
    _ = m ((c : Thread nD τ).loc main_arg9) := rfl

theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_writes_sub hostOps1 _ hostOps1_writes (show main_arg10 ∉ hostOps1_W by decide)
    _ = W1 m ρ c (Proc.devRef .tc main_arg10) := W2_of_ne m ρ c main_arg10 (by decide)
    _ = W0 m ρ c (Proc.devRef .tc main_arg10) := StableHlo.after_of_writes_sub hostOps0 _ hostOps0_writes (show main_arg10 ∉ hostOps0_W by decide)
    _ = m ((c : Thread nD τ).loc main_arg10) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]
    unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c)⟩) (run m ρ)

/-- The result: the projection region's output array after its last write-back, beside the unchanged arguments. -/
theorem run_value : θ_run defs (onTc (τ := τ) (main (F := F))) ⟨m, fun _ => 0, ρ⟩ (fun r => ∀ c : Dev nD,
      r.2.mem ((c.tc : Thread nD τ).loc main_v33) = (dat1 (V3 m ρ) c).arrAt 11 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v33 (by decide))).trans (W4_arr m ρ c 11),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c)⟩) (run m ρ)

end Cert.Kernel.Frame

end
-- ==== Proof.KI.Runs0.lean ====
import proofs.«134907_j57415122812990_1_alg».proof.Proof.Gen.KernelIdeal.Launch
import proofs.«134907_j57415122812990_1_alg».proof.Proof.Gen.KernelIdeal.Skeleton
import proofs.«134907_j57415122812990_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The statistics kernel's body, case by case

The body adds one row tile's column sums, and the column sums of its squares, of the activation
`max (x · W_self + n · W_neigh + b) 0` into two 1×256 accumulators carried from one grid point to the next. At the
first point it zeroes the accumulators before adding; at the last point it copies them into the two output rows. -/

/-- The first conditional: the grid coordinate is 0. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)
/-- The second conditional: the grid coordinate is 49, the last. -/
abbrev cond0_1 (i : grid0.Coords) : Prop := k0_cond2 i = 1#1
theorem hcond0_1 : ∀ t : Fin cfg0.N, cond0_1 (grid0.coords t) ↔ t.val = 49 :=
  (by decide +kernel : ∀ t : Fin grid0.N, cond0_1 (grid0.coords t) ↔ t.val = 49)

/-- The accumulators: whole scoped buffers of the kernel's own. -/
abbrev scM0_0 : Memref sig .tc .vmem S1x256 .f32 := Memref.whole cc0_scratch0
abbrev scM0_1 : Memref sig .tc .vmem S1x256 .f32 := Memref.whole cc0_scratch1
abbrev VS0_0 : View sig .tc .vmem S1x256 .f32 := scM0_0.view
abbrev VS0_1 : View sig .tc .vmem S1x256 .f32 := scM0_1.view
/-- One staging buffer of each output row, through which its contents are stated. -/
abbrev VO0_5 : View sig .tc .vmem S1x256 .f32 := (Memref.whole cc0_stg5_0 : Memref sig .tc .vmem S1x256 .f32).view
abbrev VO0_6 : View sig .tc .vmem S1x256 .f32 := (Memref.whole cc0_stg6_0 : Memref sig .tc .vmem S1x256 .f32).view

set_option maxHeartbeats 4000000 in
/-- The first point: both accumulators, at anything, are zeroed and then receive the tile's sums; the output rows are
    handed back untouched. The pieces each accumulator ends with are what the run finds. -/
noncomputable def kernelRun0_A (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : cond0_0 i) (hc1 : ¬cond0_1 i)
    (x0 : Vec F S2000x128 .f32) (x1 : Vec F S2000x128 .f32) (x2 : Vec F S128x256 .f32) (x3 : Vec F S128x256 .f32) (x4 : Vec F S1x256 .f32) :
    Σ' (LS0 : List (View.Piece (Elt F) S1x256 .f32)), { LS1 : List (View.Piece (Elt F) S1x256 .f32) //
      ∀ (xi5 xi6 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6
            ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7 arg8 harg8 arg9 harg9) K } := by
  refine ⟨?_, ?_, fun xi5 xi6 E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

set_option maxHeartbeats 4000000 in
/-- A middle point: both accumulators, at what the point before left, receive the tile's sums; the output rows are
    handed back untouched. -/
noncomputable def kernelRun0_B (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : ¬cond0_1 i)
    (x0 : Vec F S2000x128 .f32) (x1 : Vec F S2000x128 .f32) (x2 : Vec F S128x256 .f32) (x3 : Vec F S128x256 .f32) (x4 : Vec F S1x256 .f32) (xs0 xs1 : Vec F S1x256 .f32) :
    Σ' (LS0 : List (View.Piece (Elt F) S1x256 .f32)), { LS1 : List (View.Piece (Elt F) S1x256 .f32) //
      ∀ (xi5 xi6 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6
            ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7 arg8 harg8 arg9 harg9) K } := by
  refine ⟨?_, ?_, fun xi5 xi6 E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

set_option maxHeartbeats 4000000 in
/-- The last point: the accumulators receive the tile's sums and are then copied into the two output rows. -/
noncomputable def kernelRun0_C (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : cond0_1 i)
    (x0 : Vec F S2000x128 .f32) (x1 : Vec F S2000x128 .f32) (x2 : Vec F S128x256 .f32) (x3 : Vec F S128x256 .f32) (x4 : Vec F S1x256 .f32) (xs0 xs1 : Vec F S1x256 .f32) :
    Σ' (L5 : List (View.Piece (Elt F) S1x256 .f32)) (L6 : List (View.Piece (Elt F) S1x256 .f32)) (LS0 : List (View.Piece (Elt F) S1x256 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [HS0]; · iexists _; iexact HS0
    iexists _; iexact HS1

end Cert.KernelIdeal.Frame

end
-- ==== Proof.KI.Frame0.lean ====
import proofs.«134907_j57415122812990_1_alg».proof.Proof.KI.Runs0

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The statistics region: what the accumulators hold point by point, the proof data, the body obligation -/

/-! ## What each case leaves in the accumulators and the output rows -/

/-- The first point's pieces cover each accumulator. -/
theorem scover0_A_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : cond0_0 i) (hc1 : ¬cond0_1 i)
    (x0 : Vec F S2000x128 .f32) (x1 : Vec F S2000x128 .f32) (x2 : Vec F S128x256 .f32) (x3 : Vec F S128x256 .f32) (x4 : Vec F S1x256 .f32) (y : S1x256.Idx) :
    ∃ pc ∈ (kernelRun0_A c i arg1 harg1 arg2 harg2 arg3 harg3 arg4 harg4 arg5 harg5 arg6 harg6 arg7 harg7 arg8 harg8 arg9 harg9 hc0 hc1 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3 x4).1 S1x256.size (by sl_kernel_rfl) y

theorem scover0_A_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : cond0_0 i) (hc1 : ¬cond0_1 i)
    (x0 : Vec F S2000x128 .f32) (x1 : Vec F S2000x128 .f32) (x2 : Vec F S128x256 .f32) (x3 : Vec F S128x256 .f32) (x4 : Vec F S1x256 .f32) (y : S1x256.Idx) :
    ∃ pc ∈ (kernelRun0_A c i arg1 harg1 arg2 harg2 arg3 harg3 arg4 harg4 arg5 harg5 arg6 harg6 arg7 harg7 arg8 harg8 arg9 harg9 hc0 hc1 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3 x4).2.1 S1x256.size (by sl_kernel_rfl) y

/-- What the first point leaves in each accumulator: its pieces read back. -/
def sout0_A_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : cond0_0 i) (hc1 : ¬cond0_1 i)
    (x0 : Vec F S2000x128 .f32) (x1 : Vec F S2000x128 .f32) (x2 : Vec F S128x256 .f32) (x3 : Vec F S128x256 .f32) (x4 : Vec F S1x256 .f32) : Vec F S1x256 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 hc1 x0 x1 x2 x3 x4).1)

def sout0_A_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : cond0_0 i) (hc1 : ¬cond0_1 i)
    (x0 : Vec F S2000x128 .f32) (x1 : Vec F S2000x128 .f32) (x2 : Vec F S128x256 .f32) (x3 : Vec F S128x256 .f32) (x4 : Vec F S1x256 .f32) : Vec F S1x256 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 hc0 hc1 x0 x1 x2 x3 x4).2.1)

/-- A middle point's pieces cover each accumulator. -/
theorem scover0_B_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : ¬cond0_1 i)
    (x0 : Vec F S2000x128 .f32) (x1 : Vec F S2000x128 .f32) (x2 : Vec F S128x256 .f32) (x3 : Vec F S128x256 .f32) (x4 : Vec F S1x256 .f32) (xs0 xs1 : Vec F S1x256 .f32) (y : S1x256.Idx) :
    ∃ pc ∈ (kernelRun0_B c i arg1 harg1 arg2 harg2 arg3 harg3 arg4 harg4 arg5 harg5 arg6 harg6 arg7 harg7 arg8 harg8 arg9 harg9 hc0 hc1 x0 x1 x2 x3 x4 xs0 xs1).1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 x4 xs0 xs1).1 S1x256.size (by sl_kernel_rfl) y

theorem scover0_B_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : ¬cond0_1 i)
    (x0 : Vec F S2000x128 .f32) (x1 : Vec F S2000x128 .f32) (x2 : Vec F S128x256 .f32) (x3 : Vec F S128x256 .f32) (x4 : Vec F S1x256 .f32) (xs0 xs1 : Vec F S1x256 .f32) (y : S1x256.Idx) :
    ∃ pc ∈ (kernelRun0_B c i arg1 harg1 arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 x4 xs0 xs1).2.1 S1x256.size (by sl_kernel_rfl) y

def sout0_B_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : ¬cond0_1 i)
    (x0 : Vec F S2000x128 .f32) (x1 : Vec F S2000x128 .f32) (x2 : Vec F S128x256 .f32) (x3 : Vec F S128x256 .f32) (x4 : Vec F S1x256 .f32) (xs0 xs1 : Vec F S1x256 .f32) : Vec F S1x256 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 hc0 hc1 x0 x1 x2 x3 x4 xs0 xs1).1)

def sout0_B_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : ¬cond0_1 i)
    (x0 : Vec F S2000x128 .f32) (x1 : Vec F S2000x128 .f32) (x2 : Vec F S128x256 .f32) (x3 : Vec F S128x256 .f32) (x4 : Vec F S1x256 .f32) (xs0 xs1 : Vec F S1x256 .f32) : Vec F S1x256 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 hc0 hc1 x0 x1 x2 x3 x4 xs0 xs1).2.1)

/-- The last point's pieces cover each output row and each accumulator. -/
theorem cover0_C_5 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : cond0_1 i)
    (x0 : Vec F S2000x128 .f32) (x1 : Vec F S2000x128 .f32) (x2 : Vec F S128x256 .f32) (x3 : Vec F S128x256 .f32) (x4 : Vec F S1x256 .f32) (xs0 xs1 : Vec F S1x256 .f32) (y : S1x256.Idx) :
    ∃ pc ∈ (kernelRun0_C c i arg1 harg1 arg2 harg2 arg3 harg3 arg4 harg4 arg5 harg5 arg6 harg6 arg7 harg7 arg8 harg8 arg9 harg9 hc0 hc1 x0 x1 x2 x3 x4 xs0 xs1).1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 xs0 xs1).1 S1x256.size (by sl_kernel_rfl) y

theorem cover0_C_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : cond0_1 i)
    (x0 : Vec F S2000x128 .f32) (x1 : Vec F S2000x128 .f32) (x2 : Vec F S128x256 .f32) (x3 : Vec F S128x256 .f32) (x4 : Vec F S1x256 .f32) (xs0 xs1 : Vec F S1x256 .f32) (y : S1x256.Idx) :
    ∃ pc ∈ (kernelRun0_C c i arg1 harg1 arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 xs0 xs1).2.1 S1x256.size (by sl_kernel_rfl) y

theorem scover0_C_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : cond0_1 i)
    (x0 : Vec F S2000x128 .f32) (x1 : Vec F S2000x128 .f32) (x2 : Vec F S128x256 .f32) (x3 : Vec F S128x256 .f32) (x4 : Vec F S1x256 .f32) (xs0 xs1 : Vec F S1x256 .f32) (y : S1x256.Idx) :
    ∃ pc ∈ (kernelRun0_C c i arg1 harg1 arg2 harg2 arg3 harg3 arg4 harg4 arg5 harg5 arg6 harg6 arg7 harg7 arg8 harg8 arg9 harg9 hc0 hc1 x0 x1 x2 x3 x4 xs0 xs1).2.2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 xs0 xs1).2.2.1 S1x256.size (by sl_kernel_rfl) y

theorem scover0_C_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : cond0_1 i)
    (x0 : Vec F S2000x128 .f32) (x1 : Vec F S2000x128 .f32) (x2 : Vec F S128x256 .f32) (x3 : Vec F S128x256 .f32) (x4 : Vec F S1x256 .f32) (xs0 xs1 : Vec F S1x256 .f32) (y : S1x256.Idx) :
    ∃ pc ∈ (kernelRun0_C c i arg1 harg1 arg2 harg2 arg3 harg3 arg4 harg4 arg5 harg5 arg6 harg6 arg7 harg7 arg8 harg8 arg9 harg9 hc0 hc1 x0 x1 x2 x3 x4 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 xs0 xs1).2.2.2.1 S1x256.size (by sl_kernel_rfl) y

def out0_C_5 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : cond0_1 i)
    (x0 : Vec F S2000x128 .f32) (x1 : Vec F S2000x128 .f32) (x2 : Vec F S128x256 .f32) (x3 : Vec F S128x256 .f32) (x4 : Vec F S1x256 .f32) (xs0 xs1 : Vec F S1x256 .f32) : Vec F S1x256 .f32 :=
  VO0_5.read (Elt F) (VO0_5.writes (Elt F) VO0_5.junk (kernelRun0_C c i arg1 harg1 arg2 harg2 arg3 harg3 arg4 harg4 arg5 harg5 arg6 harg6 arg7 harg7 arg8 harg8 arg9 harg9 hc0 hc1 x0 x1 x2 x3 x4 xs0 xs1).1)

def out0_C_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : cond0_1 i)
    (x0 : Vec F S2000x128 .f32) (x1 : Vec F S2000x128 .f32) (x2 : Vec F S128x256 .f32) (x3 : Vec F S128x256 .f32) (x4 : Vec F S1x256 .f32) (xs0 xs1 : Vec F S1x256 .f32) : Vec F S1x256 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 hc0 hc1 x0 x1 x2 x3 x4 xs0 xs1).2.1)

def sout0_C_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : cond0_1 i)
    (x0 : Vec F S2000x128 .f32) (x1 : Vec F S2000x128 .f32) (x2 : Vec F S128x256 .f32) (x3 : Vec F S128x256 .f32) (x4 : Vec F S1x256 .f32) (xs0 xs1 : Vec F S1x256 .f32) : Vec F S1x256 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 hc0 hc1 x0 x1 x2 x3 x4 xs0 xs1).2.2.1)

def sout0_C_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : cond0_1 i)
    (x0 : Vec F S2000x128 .f32) (x1 : Vec F S2000x128 .f32) (x2 : Vec F S128x256 .f32) (x3 : Vec F S128x256 .f32) (x4 : Vec F S1x256 .f32) (xs0 xs1 : Vec F S1x256 .f32) : Vec F S1x256 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 hc0 hc1 x0 x1 x2 x3 x4 xs0 xs1).2.2.2.1)

/-! ## The staging memrefs at a point, and where the output rows are idle -/

abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5_C : ∀ t : Fin cfg0.N, cond0_1 (grid0.coords t) → cfg0.idle 5 (grid0.coords t) = false := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6_C : ∀ t : Fin cfg0.N, cond0_1 (grid0.coords t) → cfg0.idle 6 (grid0.coords t) = false := by decide +kernel

/-- The scoped buffers of the core that are neither a staging buffer of this region nor one of its accumulators. -/
abbrev rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg11_0), ((c : Thread nD τ).loc cc1_stg11_0) ↦{fullShare} f) ∗ (∃ f : Buf (Elt F) ((c : Thread nD τ).loc cc1_stg11_1), ((c : Thread nD τ).loc cc1_stg11_1) ↦{fullShare} f))

/-- The class invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 c) ∗ (∃ r, prngReg c r)) := by
  unfold Pipeline.ΦA; rw [scopedRest0_eq]; simp only [scM0_0, scM0_1, owns_whole]; try rfl

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The accumulation -/

/-- What the two accumulators hold after the body at position `n`: the first point's sums over zero, then each point's
    sums over what the point before left. -/
def sAt0 (c : Dev nD) : (n : ℕ) → n < cfg0.N → Vec F S1x256 .f32 × Vec F S1x256 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩),
              sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h1 : n + 1 = 49 then
      (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => (fun h => by (try dsimp only at h); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (sAt0 c n (Nat.lt_of_succ_lt hn)).1 (sAt0 c n (Nat.lt_of_succ_lt hn)).2,
       sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => (fun h => by (try dsimp only at h); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (sAt0 c n (Nat.lt_of_succ_lt hn)).1 (sAt0 c n (Nat.lt_of_succ_lt hn)).2)
    else
      (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => (fun h => by (try dsimp only at h); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (sAt0 c n (Nat.lt_of_succ_lt hn)).1 (sAt0 c n (Nat.lt_of_succ_lt hn)).2,
       sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => (fun h => by (try dsimp only at h); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (sAt0 c n (Nat.lt_of_succ_lt hn)).1 (sAt0 c n (Nat.lt_of_succ_lt hn)).2)

theorem sAt0_A (c : Dev nD) (t : Fin cfg0.N) (h0 : t.val = 0) (h1 : ¬t.val = 49) :
    sAt0 V c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t),
      sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact absurd h0 (Nat.succ_ne_zero n)

theorem sAt0_B (c : Dev nD) (t : Fin cfg0.N) (h0 : ¬t.val = 0) (h1 : ¬t.val = 49) :
    sAt0 V c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (sAt0 V c (t.val - 1) (Nat.lt_of_le_of_lt (Nat.sub_le _ _) t.isLt)).1 (sAt0 V c (t.val - 1) (Nat.lt_of_le_of_lt (Nat.sub_le _ _) t.isLt)).2,
      sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (sAt0 V c (t.val - 1) (Nat.lt_of_le_of_lt (Nat.sub_le _ _) t.isLt)).1 (sAt0 V c (t.val - 1) (Nat.lt_of_le_of_lt (Nat.sub_le _ _) t.isLt)).2) := by
  obtain ⟨n, hn⟩ := t
  cases n with
  | zero => exact absurd rfl h0
  | succ n => exact (dif_neg h1).trans rfl

theorem sAt0_C (c : Dev nD) (t : Fin cfg0.N) (h0 : ¬t.val = 0) (h1 : t.val = 49) :
    sAt0 V c t.val t.isLt = (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (sAt0 V c (t.val - 1) (Nat.lt_of_le_of_lt (Nat.sub_le _ _) t.isLt)).1 (sAt0 V c (t.val - 1) (Nat.lt_of_le_of_lt (Nat.sub_le _ _) t.isLt)).2,
      sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (sAt0 V c (t.val - 1) (Nat.lt_of_le_of_lt (Nat.sub_le _ _) t.isLt)).1 (sAt0 V c (t.val - 1) (Nat.lt_of_le_of_lt (Nat.sub_le _ _) t.isLt)).2) := by
  obtain ⟨n, hn⟩ := t
  cases n with
  | zero => exact absurd rfl h0
  | succ n => exact (dif_pos h1).trans rfl

/-- What the two output rows' staging buffers hold after the body at point `t`: at the last point the accumulators'
    final contents as the body copies them; elsewhere the rows are idle and this is not consulted. -/
def oAt0 (c : Dev nD) (t : Fin cfg0.N) : Vec F S1x256 .f32 × Vec F S1x256 .f32 :=
  if h1 : t.val = 49 then
    (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => (fun h => by omega) ((hcond0_0 t).mp h)) ((hcond0_1 t).mpr h1) (iblk0 V c 0 t) (iblk0 V c 1 t) (iblk0 V c 2 t) (iblk0 V c 3 t) (iblk0 V c 4 t) (sAt0 V c (t.val - 1) (Nat.lt_of_le_of_lt (Nat.sub_le _ _) t.isLt)).1 (sAt0 V c (t.val - 1) (Nat.lt_of_le_of_lt (Nat.sub_le _ _) t.isLt)).2,
     out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => (fun h => by omega) ((hcond0_0 t).mp h)) ((hcond0_1 t).mpr h1) (iblk0 V c 0 t) (iblk0 V c 1 t) (iblk0 V c 2 t) (iblk0 V c 3 t) (iblk0 V c 4 t) (sAt0 V c (t.val - 1) (Nat.lt_of_le_of_lt (Nat.sub_le _ _) t.isLt)).1 (sAt0 V c (t.val - 1) (Nat.lt_of_le_of_lt (Nat.sub_le _ _) t.isLt)).2)
  else sAt0 V c t.val t.isLt

theorem oAt0_C (c : Dev nD) (t : Fin cfg0.N) (h0 : ¬t.val = 0) (h1 : t.val = 49) :
    oAt0 V c t = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (sAt0 V c (t.val - 1) (Nat.lt_of_le_of_lt (Nat.sub_le _ _) t.isLt)).1 (sAt0 V c (t.val - 1) (Nat.lt_of_le_of_lt (Nat.sub_le _ _) t.isLt)).2,
     out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (sAt0 V c (t.val - 1) (Nat.lt_of_le_of_lt (Nat.sub_le _ _) t.isLt)).1 (sAt0 V c (t.val - 1) (Nat.lt_of_le_of_lt (Nat.sub_le _ _) t.isLt)).2) :=
  dif_pos h1

/-- The region's invariant before position `n`: before the first point the class's (every scoped buffer at anything);
    afterwards the two accumulators at what the point before left, the other scoped buffers at anything, and the
    generator register at some state. -/
def PhiS (c : Dev nD) : (n : ℕ) → n ≤ cfg0.N → sProp 𝕄
  | 0, _ => Pipeline.ΦA spec0 c
  | n + 1, hn => iprop(iprop(owns (c : Thread nD τ) scM0_0 fullShare ((sAt0 V c n hn).1) ∗ owns (c : Thread nD τ) scM0_1 fullShare ((sAt0 V c n hn).2) ∗ rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((sAt0 V c n hn).1) ∗ owns (c : Thread nD τ) scM0_1 fullShare ((sAt0 V c n hn).2) ∗ rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((sAt0 V c (n - 1) (by omega)).1) ∗ owns (c : Thread nD τ) scM0_1 fullShare ((sAt0 V c (n - 1) (by omega)).2) ∗ rest0 c) ∗ (∃ r, prngReg c r)) := by
  cases n with
  | zero => exact absurd rfl hz
  | succ n => rfl

/-! ## The proof data -/

/-- The proof data of the statistics pipeline on core `c`: the arrays as the region finds them; after the body at
    point `t` each input's buffer at its block and the output rows' at `oAt0`; the invariant `PhiS`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (oAt0 V c t).1
    | ⟨6, _⟩ => (oAt0 V c t).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (oAt0 V c t).1 := by dsimp only [dat0]
theorem after0_6 (c : Dev nD) (t : Fin cfg0.N) : (dat0 V c).after 6 t = (oAt0 V c t).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

end Region

end Cert.KernelIdeal.Frame

end
-- ==== Proof.KI.Run1.lean ====
import proofs.«134907_j57415122812990_1_alg».proof.Proof.Gen.KernelIdeal.Launch
import proofs.«134907_j57415122812990_1_alg».proof.Proof.Gen.KernelIdeal.Skeleton
import proofs.«134907_j57415122812990_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The projection kernel's body on whole staging buffers

The body reads eleven blocks (two row tiles, two weight matrices, the bias row, the mean, variance, scale and shift
rows, the projection matrix and its bias row) and stores one 2000×160 tile: the normalised activations times the
projection matrix plus the bias. -/

/-- One staging buffer of the output tile, through which its contents are stated. -/
abbrev VO1_11 : View sig .tc .vmem S2000x160 .f32 := (Memref.whole cc1_stg11_0 : Memref sig .tc .vmem S2000x160 .f32).view

set_option maxHeartbeats 4000000 in
/-- The body on whole staging memrefs, the inputs at read contents and the output tile at anything, runs to the
    continuation holding the inputs as they were and the output tile with its one store written: the piece is what
    the run finds. -/
noncomputable def kernelRun1 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S256x160 .f32) (harg10 : arg10.IsWhole) (arg11 : Memref sig .tc .vmem S1x160 .f32) (harg11 : arg11.IsWhole) (arg12 : Memref sig .tc .vmem S2000x160 .f32) (harg12 : arg12.IsWhole)
    (x0 : Vec F S2000x128 .f32) (x1 : Vec F S2000x128 .f32) (x2 : Vec F S128x256 .f32) (x3 : Vec F S128x256 .f32) (x4 : Vec F S1x256 .f32) (x5 : Vec F S1x256 .f32) (x6 : Vec F S1x256 .f32) (x7 : Vec F S1x256 .f32) (x8 : Vec F S1x256 .f32) (x9 : Vec F S256x160 .f32) (x10 : Vec F S1x160 .f32) :
    { L11 : List (View.Piece (Elt F) S2000x160 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
                ∗ (∃ f, arg12.view.loc (c : Thread nD τ) ↦[arg12.view.set]{fullShare} arg12.view.writes (Elt F) f L11)) -∗ K ⟨⟩))
          ⊢ wp frame (wpE (defs₀ (F := F)) Variants.none c none) E (cc1__final_kernel i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc1__final_kernel_eq_skeleton]; unfold cc1__final_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    iexists _; iexact H11

end Cert.KernelIdeal.Frame

end
-- ==== Proof.KI.Frame1.lean ====
import proofs.«134907_j57415122812990_1_alg».proof.Proof.KI.Run1

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The projection region: the proof data and the body obligation -/

abbrev ms1_0 (t : Fin cfg1.N) : Memref sig .tc .vmem S2000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x256 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x256 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x256 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S256x160 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x160 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S2000x160 .f32 := win1_11.stage (cfg1.slots t 11)
abbrev hs1_11 (t : Fin cfg1.N) : (ms1_11 t).IsWhole := hstage1_11 ((cfg1.slots t 11).cast nbuf1_11)

/-- The body's one store tiles the output tile, so it covers it. -/
theorem cover1_11 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S256x160 .f32) (harg10 : arg10.IsWhole) (arg11 : Memref sig .tc .vmem S1x160 .f32) (harg11 : arg11.IsWhole) (arg12 : Memref sig .tc .vmem S2000x160 .f32) (harg12 : arg12.IsWhole)
    (x0 : Vec F S2000x128 .f32) (x1 : Vec F S2000x128 .f32) (x2 : Vec F S128x256 .f32) (x3 : Vec F S128x256 .f32) (x4 : Vec F S1x256 .f32) (x5 : Vec F S1x256 .f32) (x6 : Vec F S1x256 .f32) (x7 : Vec F S1x256 .f32) (x8 : Vec F S1x256 .f32) (x9 : Vec F S256x160 .f32) (x10 : Vec F S1x160 .f32) (y : S2000x160.Idx) :
    ∃ pc ∈ (kernelRun1 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10).1, y ∈ pc.1.set :=
  View.cover_of_tiledL (kernelRun1 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10).1 S2000x160.size (by sl_kernel_rfl) y

/-- What the body leaves in the output tile's staging buffer: its piece read back. -/
def out1_11 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S256x160 .f32) (harg10 : arg10.IsWhole) (arg11 : Memref sig .tc .vmem S1x160 .f32) (harg11 : arg11.IsWhole) (arg12 : Memref sig .tc .vmem S2000x160 .f32) (harg12 : arg12.IsWhole)
    (x0 : Vec F S2000x128 .f32) (x1 : Vec F S2000x128 .f32) (x2 : Vec F S128x256 .f32) (x3 : Vec F S128x256 .f32) (x4 : Vec F S1x256 .f32) (x5 : Vec F S1x256 .f32) (x6 : Vec F S1x256 .f32) (x7 : Vec F S1x256 .f32) (x8 : Vec F S1x256 .f32) (x9 : Vec F S256x160 .f32) (x10 : Vec F S1x160 .f32) : Vec F S2000x160 .f32 :=
  VO1_11.read (Elt F) (VO1_11.writes (Elt F) VO1_11.junk (kernelRun1 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10).1)

section Region
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-- The proof data of the projection pipeline on core `c`: the arrays as the region finds them; after the body at
    point `t` each input's buffer at its block and the output tile's at `out1_11` of the input blocks; the class's
    invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => out1_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = out1_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t))

set_option maxHeartbeats 8000000 in
/-- The body at any point: the inputs' memrefs hold their blocks, so the run applies; the invariant and the core's
    `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  unfold out1_11
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun1 c (grid1.coords t) _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, ⟨%e11, H11⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  unfold owns; iexists _; isplitr
  swap; · iexact H11
  ipureintro; exact View.read_writes_of_cover _ _ _ _ _ (cover1_11 c _ _ _ _ _ _ _ _ _ _ _ _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Frame

end
-- ==== Proof.KI.Pieces.lean ====
import proofs.«134907_j57415122812990_1_alg».proof.Proof.KI.Frame0
import proofs.«134907_j57415122812990_1_alg».proof.Proof.KI.Frame1
import Idealize.ShloMosaic.Lib.Pipeline.Value

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # What each case of the bodies leaves, as the payloads of the point's blocks -/

theorem hz2 : (![0, 0] : Fin 2 → Nat) = fun _ => 0 := funext fun a => by fin_cases a <;> rfl

/-- The first point: the sum accumulator ends at the tile's column sums added to zero. -/
theorem soutA0_eq (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : cond0_0 i) (hc1 : ¬cond0_1 i)
    (x0 : Vec F S2000x128 .f32) (x1 : Vec F S2000x128 .f32) (x2 : Vec F S128x256 .f32) (x3 : Vec F S128x256 .f32) (x4 : Vec F S1x256 .f32) :
    sout0_A_0 c i arg1 harg1 arg2 harg2 arg3 harg3 arg4 harg4 arg5 harg5 arg6 harg6 arg7 harg7 arg8 harg8 arg9 harg9 hc0 hc1 x0 x1 x2 x3 x4 = k0_pay5 x0 x1 x2 x3 x4 (k0_pay2 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 x0 x1 x2 x3 x4)]
  unfold kernelRun0_A
  dsimp only
  try sl_unfold_words
  rw [View.canon_cons_unit_zero hz2, View.readCov_unit_zero (S := S1x256) _ hz2]
  simp only [View.readAt_eq_ld, harg1.read_unread, harg2.read_unread, harg3.read_unread, harg4.read_unread, harg5.read_unread, harg8.read_unread, harg9.read_unread, View.ld_unit_zero (S := S2000x128) hz2, View.ld_unit_zero (S := S128x256) hz2, View.ld_unit_zero (S := S1x256) hz2]

/-- The first point: the squares accumulator ends at the column sums of the tile's squares added to zero. -/
theorem soutA1_eq (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : cond0_0 i) (hc1 : ¬cond0_1 i)
    (x0 : Vec F S2000x128 .f32) (x1 : Vec F S2000x128 .f32) (x2 : Vec F S128x256 .f32) (x3 : Vec F S128x256 .f32) (x4 : Vec F S1x256 .f32) :
    sout0_A_1 c i arg1 harg1 arg2 harg2 arg3 harg3 arg4 harg4 arg5 harg5 arg6 harg6 arg7 harg7 arg8 harg8 arg9 harg9 hc0 hc1 x0 x1 x2 x3 x4 = k0_pay1 (k0_pay6 x0 x1 x2 x3 x4 (k0_pay3 (F := F))) := by
  unfold sout0_A_1
  rw [View.read_writes_eq_canon _ _ _ (scover0_A_1 c i arg1 harg1 arg2 harg2 arg3 harg3 arg4 harg4 arg5 harg5 arg6 harg6 arg7 harg7 arg8 harg8 arg9 harg9 hc0 hc1 x0 x1 x2 x3 x4)]
  unfold kernelRun0_A
  dsimp only
  try sl_unfold_words
  rw [View.canon_cons_unit_zero hz2, View.readCov_unit_zero (S := S1x256) _ hz2]
  simp only [View.readAt_eq_ld, harg1.read_unread, harg2.read_unread, harg3.read_unread, harg4.read_unread, harg5.read_unread, harg8.read_unread, harg9.read_unread, View.ld_unit_zero (S := S2000x128) hz2, View.ld_unit_zero (S := S128x256) hz2, View.ld_unit_zero (S := S1x256) hz2]

/-- A middle point adds the tile's sums onto what the accumulators held. -/
theorem soutB0_eq (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : ¬cond0_1 i)
    (x0 : Vec F S2000x128 .f32) (x1 : Vec F S2000x128 .f32) (x2 : Vec F S128x256 .f32) (x3 : Vec F S128x256 .f32) (x4 : Vec F S1x256 .f32) (xs0 xs1 : Vec F S1x256 .f32) :
    sout0_B_0 c i arg1 harg1 arg2 harg2 arg3 harg3 arg4 harg4 arg5 harg5 arg6 harg6 arg7 harg7 arg8 harg8 arg9 harg9 hc0 hc1 x0 x1 x2 x3 x4 xs0 xs1 = k0_pay5 x0 x1 x2 x3 x4 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 hc0 hc1 x0 x1 x2 x3 x4 xs0 xs1)]
  unfold kernelRun0_B
  dsimp only
  try sl_unfold_words
  rw [View.canon_unit_zero hz2]
  simp only [View.readAt_eq_ld, harg1.read_unread, harg2.read_unread, harg3.read_unread, harg4.read_unread, harg5.read_unread, harg8.read_unread, harg9.read_unread, View.ld_unit_zero (S := S2000x128) hz2, View.ld_unit_zero (S := S128x256) hz2, View.ld_unit_zero (S := S1x256) hz2]

theorem soutB1_eq (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : ¬cond0_1 i)
    (x0 : Vec F S2000x128 .f32) (x1 : Vec F S2000x128 .f32) (x2 : Vec F S128x256 .f32) (x3 : Vec F S128x256 .f32) (x4 : Vec F S1x256 .f32) (xs0 xs1 : Vec F S1x256 .f32) :
    sout0_B_1 c i arg1 harg1 arg2 harg2 arg3 harg3 arg4 harg4 arg5 harg5 arg6 harg6 arg7 harg7 arg8 harg8 arg9 harg9 hc0 hc1 x0 x1 x2 x3 x4 xs0 xs1 = k0_pay1 (k0_pay6 x0 x1 x2 x3 x4 xs1) := by
  unfold sout0_B_1
  rw [View.read_writes_eq_canon _ _ _ (scover0_B_1 c i arg1 harg1 arg2 harg2 arg3 harg3 arg4 harg4 arg5 harg5 arg6 harg6 arg7 harg7 arg8 harg8 arg9 harg9 hc0 hc1 x0 x1 x2 x3 x4 xs0 xs1)]
  unfold kernelRun0_B
  dsimp only
  try sl_unfold_words
  rw [View.canon_unit_zero hz2]
  simp only [View.readAt_eq_ld, harg1.read_unread, harg2.read_unread, harg3.read_unread, harg4.read_unread, harg5.read_unread, harg8.read_unread, harg9.read_unread, View.ld_unit_zero (S := S2000x128) hz2, View.ld_unit_zero (S := S128x256) hz2, View.ld_unit_zero (S := S1x256) hz2]

/-- The last point adds likewise, -/
theorem soutC0_eq (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : cond0_1 i)
    (x0 : Vec F S2000x128 .f32) (x1 : Vec F S2000x128 .f32) (x2 : Vec F S128x256 .f32) (x3 : Vec F S128x256 .f32) (x4 : Vec F S1x256 .f32) (xs0 xs1 : Vec F S1x256 .f32) :
    sout0_C_0 c i arg1 harg1 arg2 harg2 arg3 harg3 arg4 harg4 arg5 harg5 arg6 harg6 arg7 harg7 arg8 harg8 arg9 harg9 hc0 hc1 x0 x1 x2 x3 x4 xs0 xs1 = k0_pay5 x0 x1 x2 x3 x4 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 hc0 hc1 x0 x1 x2 x3 x4 xs0 xs1)]
  unfold kernelRun0_C
  dsimp only
  try sl_unfold_words
  rw [View.canon_unit_zero hz2]
  simp only [View.readAt_eq_ld, harg1.read_unread, harg2.read_unread, harg3.read_unread, harg4.read_unread, harg5.read_unread, harg8.read_unread, harg9.read_unread, View.ld_unit_zero (S := S2000x128) hz2, View.ld_unit_zero (S := S128x256) hz2, View.ld_unit_zero (S := S1x256) hz2]

theorem soutC1_eq (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : cond0_1 i)
    (x0 : Vec F S2000x128 .f32) (x1 : Vec F S2000x128 .f32) (x2 : Vec F S128x256 .f32) (x3 : Vec F S128x256 .f32) (x4 : Vec F S1x256 .f32) (xs0 xs1 : Vec F S1x256 .f32) :
    sout0_C_1 c i arg1 harg1 arg2 harg2 arg3 harg3 arg4 harg4 arg5 harg5 arg6 harg6 arg7 harg7 arg8 harg8 arg9 harg9 hc0 hc1 x0 x1 x2 x3 x4 xs0 xs1 = k0_pay1 (k0_pay6 x0 x1 x2 x3 x4 xs1) := by
  unfold sout0_C_1
  rw [View.read_writes_eq_canon _ _ _ (scover0_C_1 c i arg1 harg1 arg2 harg2 arg3 harg3 arg4 harg4 arg5 harg5 arg6 harg6 arg7 harg7 arg8 harg8 arg9 harg9 hc0 hc1 x0 x1 x2 x3 x4 xs0 xs1)]
  unfold kernelRun0_C
  dsimp only
  try sl_unfold_words
  rw [View.canon_unit_zero hz2]
  simp only [View.readAt_eq_ld, harg1.read_unread, harg2.read_unread, harg3.read_unread, harg4.read_unread, harg5.read_unread, harg8.read_unread, harg9.read_unread, View.ld_unit_zero (S := S2000x128) hz2, View.ld_unit_zero (S := S128x256) hz2, View.ld_unit_zero (S := S1x256) hz2]

/-- and copies the accumulators into the output rows. -/
theorem outC5_eq (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : cond0_1 i)
    (x0 : Vec F S2000x128 .f32) (x1 : Vec F S2000x128 .f32) (x2 : Vec F S128x256 .f32) (x3 : Vec F S128x256 .f32) (x4 : Vec F S1x256 .f32) (xs0 xs1 : Vec F S1x256 .f32) :
    out0_C_5 c i arg1 harg1 arg2 harg2 arg3 harg3 arg4 harg4 arg5 harg5 arg6 harg6 arg7 harg7 arg8 harg8 arg9 harg9 hc0 hc1 x0 x1 x2 x3 x4 xs0 xs1 = k0_pay5 x0 x1 x2 x3 x4 xs0 := by
  unfold out0_C_5
  rw [View.read_writes_eq_canon _ _ _ (cover0_C_5 c i arg1 harg1 arg2 harg2 arg3 harg3 arg4 harg4 arg5 harg5 arg6 harg6 arg7 harg7 arg8 harg8 arg9 harg9 hc0 hc1 x0 x1 x2 x3 x4 xs0 xs1)]
  unfold kernelRun0_C
  dsimp only
  try sl_unfold_words
  rw [View.canon_unit_zero hz2, View.readCov_unit_zero (S := S1x256) _ hz2]
  simp only [View.readAt_eq_ld, harg1.read_unread, harg2.read_unread, harg3.read_unread, harg4.read_unread, harg5.read_unread, harg8.read_unread, harg9.read_unread, View.ld_unit_zero (S := S2000x128) hz2, View.ld_unit_zero (S := S128x256) hz2, View.ld_unit_zero (S := S1x256) hz2]

theorem outC6_eq (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : cond0_1 i)
    (x0 : Vec F S2000x128 .f32) (x1 : Vec F S2000x128 .f32) (x2 : Vec F S128x256 .f32) (x3 : Vec F S128x256 .f32) (x4 : Vec F S1x256 .f32) (xs0 xs1 : Vec F S1x256 .f32) :
    out0_C_6 c i arg1 harg1 arg2 harg2 arg3 harg3 arg4 harg4 arg5 harg5 arg6 harg6 arg7 harg7 arg8 harg8 arg9 harg9 hc0 hc1 x0 x1 x2 x3 x4 xs0 xs1 = k0_pay1 (k0_pay6 x0 x1 x2 x3 x4 xs1) := by
  unfold out0_C_6
  rw [View.read_writes_eq_canon _ _ _ (cover0_C_6 c i arg1 harg1 arg2 harg2 arg3 harg3 arg4 harg4 arg5 harg5 arg6 harg6 arg7 harg7 arg8 harg8 arg9 harg9 hc0 hc1 x0 x1 x2 x3 x4 xs0 xs1)]
  unfold kernelRun0_C
  dsimp only
  try sl_unfold_words
  rw [View.canon_unit_zero hz2, View.readCov_unit_zero (S := S1x256) _ hz2]
  simp only [View.readAt_eq_ld, harg1.read_unread, harg2.read_unread, harg3.read_unread, harg4.read_unread, harg5.read_unread, harg8.read_unread, harg9.read_unread, View.ld_unit_zero (S := S2000x128) hz2, View.ld_unit_zero (S := S128x256) hz2, View.ld_unit_zero (S := S1x256) hz2]

/-- The projection body stores the projection of the normalised tile. -/
theorem out1_eq (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S256x160 .f32) (harg10 : arg10.IsWhole) (arg11 : Memref sig .tc .vmem S1x160 .f32) (harg11 : arg11.IsWhole) (arg12 : Memref sig .tc .vmem S2000x160 .f32) (harg12 : arg12.IsWhole)
    (x0 : Vec F S2000x128 .f32) (x1 : Vec F S2000x128 .f32) (x2 : Vec F S128x256 .f32) (x3 : Vec F S128x256 .f32) (x4 : Vec F S1x256 .f32) (x5 : Vec F S1x256 .f32) (x6 : Vec F S1x256 .f32) (x7 : Vec F S1x256 .f32) (x8 : Vec F S1x256 .f32) (x9 : Vec F S256x160 .f32) (x10 : Vec F S1x160 .f32) :
    out1_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 = k1_pay1 (k1_pay2 x0 x1 x2 x3 x4 x6 x5 x7 x8) x9 x10 := by
  unfold out1_11
  rw [View.read_writes_eq_canon _ _ _ (cover1_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10)]
  unfold kernelRun1
  dsimp only
  try sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S2000x128) hz2, View.ld_unit_zero (S := S128x256) hz2, View.ld_unit_zero (S := S1x256) hz2, View.ld_unit_zero (S := S256x160) hz2, View.ld_unit_zero (S := S1x160) hz2]

end Cert.KernelIdeal.Frame

end
-- ==== Proof.KI.Blocks.lean ====
import proofs.«134907_j57415122812990_1_alg».proof.Proof.KI.Frame0
import proofs.«134907_j57415122812990_1_alg».proof.Proof.KI.Frame1
import Idealize.ShloMosaic.Lib.Pipeline.Value

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The windows' blocks as entries of their arrays

A row tile at point `t` is rows `2000 t … 2000 t + 1999` of its array; a window whose block is its whole array
reads the array. -/

section Region
variable (V : (c : Dev nD) → (b : Ref sig .tc) → Buf (Elt F) ((c : Thread nD τ).loc b))

theorem iblk0_rows_0 (c : Dev nD) (t : Fin cfg0.N) (x : S2000x128.Idx) (k : S100000x128.Idx)
    (hk0 : (k 0).val = 2000 * t.val + (x 0).val) (hk1 : (k 1).val = (x 1).val) :
    (iblk0 V c 0 t : Vec F S2000x128 .f32) x = (V c main_arg0 : S100000x128.Idx → Elt F .f32) k := by
  have hi : win0_0.index t 0 = t.val ∧ win0_0.index t 1 = 0 :=
    (by decide +kernel : ∀ t : Fin grid0.N, win0_0.index t 0 = t.val ∧ win0_0.index t 1 = 0) t
  unfold iblk0
  rw [View.read_apply]
  show V c main_arg0 _ = V c main_arg0 _
  congr 1
  funext a
  apply Fin.ext
  match a with
  | ⟨0, _⟩ => show win0_0.index t 0 * 2000 + 1 * (x 0).val = (k 0).val; rw [hi.1, hk0]; omega
  | ⟨1, _⟩ => show win0_0.index t 1 * 128 + 1 * (x 1).val = (k 1).val; rw [hi.2, hk1]; omega

theorem iblk0_rows_1 (c : Dev nD) (t : Fin cfg0.N) (x : S2000x128.Idx) (k : S100000x128.Idx)
    (hk0 : (k 0).val = 2000 * t.val + (x 0).val) (hk1 : (k 1).val = (x 1).val) :
    (iblk0 V c 1 t : Vec F S2000x128 .f32) x = (V c main_v21 : S100000x128.Idx → Elt F .f32) k := by
  have hi : win0_1.index t 0 = t.val ∧ win0_1.index t 1 = 0 :=
    (by decide +kernel : ∀ t : Fin grid0.N, win0_1.index t 0 = t.val ∧ win0_1.index t 1 = 0) t
  unfold iblk0
  rw [View.read_apply]
  show V c main_v21 _ = V c main_v21 _
  congr 1
  funext a
  apply Fin.ext
  match a with
  | ⟨0, _⟩ => show win0_1.index t 0 * 2000 + 1 * (x 0).val = (k 0).val; rw [hi.1, hk0]; omega
  | ⟨1, _⟩ => show win0_1.index t 1 * 128 + 1 * (x 1).val = (k 1).val; rw [hi.2, hk1]; omega

theorem iblk0_whole_2 (c : Dev nD) (t : Fin cfg0.N) :
    (iblk0 V c 2 t : Vec F S128x256 .f32) = (V c main_arg4 : S128x256.Idx → Elt F .f32) := by
  have hi : win0_2.index t 0 = 0 ∧ win0_2.index t 1 = 0 :=
    (by decide +kernel : ∀ t : Fin grid0.N, win0_2.index t 0 = 0 ∧ win0_2.index t 1 = 0) t
  funext x
  unfold iblk0
  rw [View.read_apply]
  show V c main_arg4 _ = V c main_arg4 x
  congr 1
  funext a
  apply Fin.ext
  match a with
  | ⟨0, _⟩ => show win0_2.index t 0 * 128 + 1 * (x 0).val = (x 0).val; rw [hi.1]; omega
  | ⟨1, _⟩ => show win0_2.index t 1 * 256 + 1 * (x 1).val = (x 1).val; rw [hi.2]; omega

theorem iblk0_whole_3 (c : Dev nD) (t : Fin cfg0.N) :
    (iblk0 V c 3 t : Vec F S128x256 .f32) = (V c main_arg5 : S128x256.Idx → Elt F .f32) := by
  have hi : win0_3.index t 0 = 0 ∧ win0_3.index t 1 = 0 :=
    (by decide +kernel : ∀ t : Fin grid0.N, win0_3.index t 0 = 0 ∧ win0_3.index t 1 = 0) t
  funext x
  unfold iblk0
  rw [View.read_apply]
  show V c main_arg5 _ = V c main_arg5 x
  congr 1
  funext a
  apply Fin.ext
  match a with
  | ⟨0, _⟩ => show win0_3.index t 0 * 128 + 1 * (x 0).val = (x 0).val; rw [hi.1]; omega
  | ⟨1, _⟩ => show win0_3.index t 1 * 256 + 1 * (x 1).val = (x 1).val; rw [hi.2]; omega

theorem iblk0_whole_4 (c : Dev nD) (t : Fin cfg0.N) :
    (iblk0 V c 4 t : Vec F S1x256 .f32) = (V c main_v22 : S1x256.Idx → Elt F .f32) := by
  have hi : win0_4.index t 0 = 0 ∧ win0_4.index t 1 = 0 :=
    (by decide +kernel : ∀ t : Fin grid0.N, win0_4.index t 0 = 0 ∧ win0_4.index t 1 = 0) t
  funext x
  unfold iblk0
  rw [View.read_apply]
  show V c main_v22 _ = V c main_v22 x
  congr 1
  funext a
  apply Fin.ext
  match a with
  | ⟨0, _⟩ => show win0_4.index t 0 * 1 + 1 * (x 0).val = (x 0).val; rw [hi.1]; omega
  | ⟨1, _⟩ => show win0_4.index t 1 * 256 + 1 * (x 1).val = (x 1).val; rw [hi.2]; omega

theorem iblk1_rows_0 (c : Dev nD) (t : Fin cfg1.N) (x : S2000x128.Idx) (k : S100000x128.Idx)
    (hk0 : (k 0).val = 2000 * t.val + (x 0).val) (hk1 : (k 1).val = (x 1).val) :
    (iblk1 V c 0 t : Vec F S2000x128 .f32) x = (V c main_arg0 : S100000x128.Idx → Elt F .f32) k := by
  have hi : win1_0.index t 0 = t.val ∧ win1_0.index t 1 = 0 :=
    (by decide +kernel : ∀ t : Fin grid1.N, win1_0.index t 0 = t.val ∧ win1_0.index t 1 = 0) t
  unfold iblk1
  rw [View.read_apply]
  show V c main_arg0 _ = V c main_arg0 _
  congr 1
  funext a
  apply Fin.ext
  match a with
  | ⟨0, _⟩ => show win1_0.index t 0 * 2000 + 1 * (x 0).val = (k 0).val; rw [hi.1, hk0]; omega
  | ⟨1, _⟩ => show win1_0.index t 1 * 128 + 1 * (x 1).val = (k 1).val; rw [hi.2, hk1]; omega

theorem iblk1_rows_1 (c : Dev nD) (t : Fin cfg1.N) (x : S2000x128.Idx) (k : S100000x128.Idx)
    (hk0 : (k 0).val = 2000 * t.val + (x 0).val) (hk1 : (k 1).val = (x 1).val) :
    (iblk1 V c 1 t : Vec F S2000x128 .f32) x = (V c main_v21 : S100000x128.Idx → Elt F .f32) k := by
  have hi : win1_1.index t 0 = t.val ∧ win1_1.index t 1 = 0 :=
    (by decide +kernel : ∀ t : Fin grid1.N, win1_1.index t 0 = t.val ∧ win1_1.index t 1 = 0) t
  unfold iblk1
  rw [View.read_apply]
  show V c main_v21 _ = V c main_v21 _
  congr 1
  funext a
  apply Fin.ext
  match a with
  | ⟨0, _⟩ => show win1_1.index t 0 * 2000 + 1 * (x 0).val = (k 0).val; rw [hi.1, hk0]; omega
  | ⟨1, _⟩ => show win1_1.index t 1 * 128 + 1 * (x 1).val = (k 1).val; rw [hi.2, hk1]; omega

theorem iblk1_whole_2 (c : Dev nD) (t : Fin cfg1.N) :
    (iblk1 V c 2 t : Vec F S128x256 .f32) = (V c main_arg4 : S128x256.Idx → Elt F .f32) := by
  have hi : win1_2.index t 0 = 0 ∧ win1_2.index t 1 = 0 :=
    (by decide +kernel : ∀ t : Fin grid1.N, win1_2.index t 0 = 0 ∧ win1_2.index t 1 = 0) t
  funext x
  unfold iblk1
  rw [View.read_apply]
  show V c main_arg4 _ = V c main_arg4 x
  congr 1
  funext a
  apply Fin.ext
  match a with
  | ⟨0, _⟩ => show win1_2.index t 0 * 128 + 1 * (x 0).val = (x 0).val; rw [hi.1]; omega
  | ⟨1, _⟩ => show win1_2.index t 1 * 256 + 1 * (x 1).val = (x 1).val; rw [hi.2]; omega

theorem iblk1_whole_3 (c : Dev nD) (t : Fin cfg1.N) :
    (iblk1 V c 3 t : Vec F S128x256 .f32) = (V c main_arg5 : S128x256.Idx → Elt F .f32) := by
  have hi : win1_3.index t 0 = 0 ∧ win1_3.index t 1 = 0 :=
    (by decide +kernel : ∀ t : Fin grid1.N, win1_3.index t 0 = 0 ∧ win1_3.index t 1 = 0) t
  funext x
  unfold iblk1
  rw [View.read_apply]
  show V c main_arg5 _ = V c main_arg5 x
  congr 1
  funext a
  apply Fin.ext
  match a with
  | ⟨0, _⟩ => show win1_3.index t 0 * 128 + 1 * (x 0).val = (x 0).val; rw [hi.1]; omega
  | ⟨1, _⟩ => show win1_3.index t 1 * 256 + 1 * (x 1).val = (x 1).val; rw [hi.2]; omega

theorem iblk1_whole_4 (c : Dev nD) (t : Fin cfg1.N) :
    (iblk1 V c 4 t : Vec F S1x256 .f32) = (V c main_v22 : S1x256.Idx → Elt F .f32) := by
  have hi : win1_4.index t 0 = 0 ∧ win1_4.index t 1 = 0 :=
    (by decide +kernel : ∀ t : Fin grid1.N, win1_4.index t 0 = 0 ∧ win1_4.index t 1 = 0) t
  funext x
  unfold iblk1
  rw [View.read_apply]
  show V c main_v22 _ = V c main_v22 x
  congr 1
  funext a
  apply Fin.ext
  match a with
  | ⟨0, _⟩ => show win1_4.index t 0 * 1 + 1 * (x 0).val = (x 0).val; rw [hi.1]; omega
  | ⟨1, _⟩ => show win1_4.index t 1 * 256 + 1 * (x 1).val = (x 1).val; rw [hi.2]; omega

theorem iblk1_whole_5 (c : Dev nD) (t : Fin cfg1.N) :
    (iblk1 V c 5 t : Vec F S1x256 .f32) = (V c main_v28 : S1x256.Idx → Elt F .f32) := by
  have hi : win1_5.index t 0 = 0 ∧ win1_5.index t 1 = 0 :=
    (by decide +kernel : ∀ t : Fin grid1.N, win1_5.index t 0 = 0 ∧ win1_5.index t 1 = 0) t
  funext x
  unfold iblk1
  rw [View.read_apply]
  show V c main_v28 _ = V c main_v28 x
  congr 1
  funext a
  apply Fin.ext
  match a with
  | ⟨0, _⟩ => show win1_5.index t 0 * 1 + 1 * (x 0).val = (x 0).val; rw [hi.1]; omega
  | ⟨1, _⟩ => show win1_5.index t 1 * 256 + 1 * (x 1).val = (x 1).val; rw [hi.2]; omega

theorem iblk1_whole_6 (c : Dev nD) (t : Fin cfg1.N) :
    (iblk1 V c 6 t : Vec F S1x256 .f32) = (V c main_v32 : S1x256.Idx → Elt F .f32) := by
  have hi : win1_6.index t 0 = 0 ∧ win1_6.index t 1 = 0 :=
    (by decide +kernel : ∀ t : Fin grid1.N, win1_6.index t 0 = 0 ∧ win1_6.index t 1 = 0) t
  funext x
  unfold iblk1
  rw [View.read_apply]
  show V c main_v32 _ = V c main_v32 x
  congr 1
  funext a
  apply Fin.ext
  match a with
  | ⟨0, _⟩ => show win1_6.index t 0 * 1 + 1 * (x 0).val = (x 0).val; rw [hi.1]; omega
  | ⟨1, _⟩ => show win1_6.index t 1 * 256 + 1 * (x 1).val = (x 1).val; rw [hi.2]; omega

theorem iblk1_whole_7 (c : Dev nD) (t : Fin cfg1.N) :
    (iblk1 V c 7 t : Vec F S1x256 .f32) = (V c main_v23 : S1x256.Idx → Elt F .f32) := by
  have hi : win1_7.index t 0 = 0 ∧ win1_7.index t 1 = 0 :=
    (by decide +kernel : ∀ t : Fin grid1.N, win1_7.index t 0 = 0 ∧ win1_7.index t 1 = 0) t
  funext x
  unfold iblk1
  rw [View.read_apply]
  show V c main_v23 _ = V c main_v23 x
  congr 1
  funext a
  apply Fin.ext
  match a with
  | ⟨0, _⟩ => show win1_7.index t 0 * 1 + 1 * (x 0).val = (x 0).val; rw [hi.1]; omega
  | ⟨1, _⟩ => show win1_7.index t 1 * 256 + 1 * (x 1).val = (x 1).val; rw [hi.2]; omega

theorem iblk1_whole_8 (c : Dev nD) (t : Fin cfg1.N) :
    (iblk1 V c 8 t : Vec F S1x256 .f32) = (V c main_v24 : S1x256.Idx → Elt F .f32) := by
  have hi : win1_8.index t 0 = 0 ∧ win1_8.index t 1 = 0 :=
    (by decide +kernel : ∀ t : Fin grid1.N, win1_8.index t 0 = 0 ∧ win1_8.index t 1 = 0) t
  funext x
  unfold iblk1
  rw [View.read_apply]
  show V c main_v24 _ = V c main_v24 x
  congr 1
  funext a
  apply Fin.ext
  match a with
  | ⟨0, _⟩ => show win1_8.index t 0 * 1 + 1 * (x 0).val = (x 0).val; rw [hi.1]; omega
  | ⟨1, _⟩ => show win1_8.index t 1 * 256 + 1 * (x 1).val = (x 1).val; rw [hi.2]; omega

theorem iblk1_whole_9 (c : Dev nD) (t : Fin cfg1.N) :
    (iblk1 V c 9 t : Vec F S256x160 .f32) = (V c main_arg9 : S256x160.Idx → Elt F .f32) := by
  have hi : win1_9.index t 0 = 0 ∧ win1_9.index t 1 = 0 :=
    (by decide +kernel : ∀ t : Fin grid1.N, win1_9.index t 0 = 0 ∧ win1_9.index t 1 = 0) t
  funext x
  unfold iblk1
  rw [View.read_apply]
  show V c main_arg9 _ = V c main_arg9 x
  congr 1
  funext a
  apply Fin.ext
  match a with
  | ⟨0, _⟩ => show win1_9.index t 0 * 256 + 1 * (x 0).val = (x 0).val; rw [hi.1]; omega
  | ⟨1, _⟩ => show win1_9.index t 1 * 160 + 1 * (x 1).val = (x 1).val; rw [hi.2]; omega

theorem iblk1_whole_10 (c : Dev nD) (t : Fin cfg1.N) :
    (iblk1 V c 10 t : Vec F S1x160 .f32) = (V c main_v25 : S1x160.Idx → Elt F .f32) := by
  have hi : win1_10.index t 0 = 0 ∧ win1_10.index t 1 = 0 :=
    (by decide +kernel : ∀ t : Fin grid1.N, win1_10.index t 0 = 0 ∧ win1_10.index t 1 = 0) t
  funext x
  unfold iblk1
  rw [View.read_apply]
  show V c main_v25 _ = V c main_v25 x
  congr 1
  funext a
  apply Fin.ext
  match a with
  | ⟨0, _⟩ => show win1_10.index t 0 * 1 + 1 * (x 0).val = (x 0).val; rw [hi.1]; omega
  | ⟨1, _⟩ => show win1_10.index t 1 * 160 + 1 * (x 1).val = (x 1).val; rw [hi.2]; omega

end Region

end Cert.KernelIdeal.Frame

end
-- ==== Proof.KI.Final0.lean ====
import proofs.«134907_j57415122812990_1_alg».proof.Proof.KI.Frame0
import Idealize.ShloMosaic.Lib.Pipeline.Value

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The statistics region's output rows after the run

The one write-back of each output row, at the last point, writes the whole row: block (0, 0) of a 1×256 array read
through zero offsets is the array. -/

section Region
variable (V : (c : Dev nD) → (b : Ref sig .tc) → Buf (Elt F) ((c : Thread nD τ).loc b))

/-- The last grid point. -/
abbrev t49 : Fin cfg0.N := ⟨49, by rw [show cfg0.N = 50 from N_0]; decide⟩

theorem flushed5_eq (c : Dev nD) (t : Fin cfg0.N) (hf : (cfg0.win 5).flush t = true) :
    (dat0 V c).flushed 5 t = ((cfg0.win 5).blk t).view.read (Elt F) ((oAt0 V c t49).1) := by
  have hN : cfg0.N = 50 := N_0
  have h1 : t.val = 49 := by have := (flush0_5 t).mp hf; have := t.isLt; omega
  obtain rfl : t = t49 := Fin.ext h1
  show (cfg0.win 5).cut (grid0.coords t49) ((dat0 V c).after 5 t49) = _
  rw [after0_5]
  have hz' : (fun a => win0_5.index t49 a * main_v26_0.ty.shape.size a) = fun _ => 0 := funext fun a => by fin_cases a <;> decide +kernel
  exact (Memref.read_access_unit_zero (Elt F) main_v26_0 hz' (fun a => by rw [congrFun hz' a]; simp) ((oAt0 V c t49).1)).symm

/-- So the output row ends holding what the last point copied into it. -/
theorem final5 (c : Dev nD) : (dat0 V c).arrAt 5 cfg0.N = (oAt0 V c t49).1 :=
  (dat0 V c).arrAt_eq_of_cover 5 ((oAt0 V c t49).1) (flushed5_eq V c) fun i =>
    ⟨t49, (flush0_5 t49).mpr rfl, by
      show i ∈ ((View.whole main_v26_0).slice (win0_5.rect t49)).set
      rw [View.set_slice_whole, Rect.mem_set_unit]
      intro a
      have h0 : (i 0 : Nat) < 1 := (i 0).isLt
      have h1 : (i 1 : Nat) < 256 := (i 1).isLt
      match a with
      | ⟨0, _⟩ => show win0_5.index t49 0 * win0_5.size 0 ≤ (i 0 : Nat) ∧ (i 0 : Nat) < win0_5.index t49 0 * win0_5.size 0 + win0_5.xsize (grid0.coords t49) 0
                  rw [show win0_5.index t49 0 * win0_5.size 0 = 0 from by decide +kernel, show win0_5.xsize (grid0.coords t49) 0 = 1 from by decide +kernel]; omega
      | ⟨1, _⟩ => show win0_5.index t49 1 * win0_5.size 1 ≤ (i 1 : Nat) ∧ (i 1 : Nat) < win0_5.index t49 1 * win0_5.size 1 + win0_5.xsize (grid0.coords t49) 1
                  rw [show win0_5.index t49 1 * win0_5.size 1 = 0 from by decide +kernel, show win0_5.xsize (grid0.coords t49) 1 = 256 from by decide +kernel]; omega⟩

theorem flushed6_eq (c : Dev nD) (t : Fin cfg0.N) (hf : (cfg0.win 6).flush t = true) :
    (dat0 V c).flushed 6 t = ((cfg0.win 6).blk t).view.read (Elt F) ((oAt0 V c t49).2) := by
  have hN : cfg0.N = 50 := N_0
  have h1 : t.val = 49 := by have := (flush0_6 t).mp hf; have := t.isLt; omega
  obtain rfl : t = t49 := Fin.ext h1
  show (cfg0.win 6).cut (grid0.coords t49) ((dat0 V c).after 6 t49) = _
  rw [after0_6]
  have hz' : (fun a => win0_6.index t49 a * main_v26_1.ty.shape.size a) = fun _ => 0 := funext fun a => by fin_cases a <;> decide +kernel
  exact (Memref.read_access_unit_zero (Elt F) main_v26_1 hz' (fun a => by rw [congrFun hz' a]; simp) ((oAt0 V c t49).2)).symm

/-- So the output row ends holding what the last point copied into it. -/
theorem final6 (c : Dev nD) : (dat0 V c).arrAt 6 cfg0.N = (oAt0 V c t49).2 :=
  (dat0 V c).arrAt_eq_of_cover 6 ((oAt0 V c t49).2) (flushed6_eq V c) fun i =>
    ⟨t49, (flush0_6 t49).mpr rfl, by
      show i ∈ ((View.whole main_v26_1).slice (win0_6.rect t49)).set
      rw [View.set_slice_whole, Rect.mem_set_unit]
      intro a
      have h0 : (i 0 : Nat) < 1 := (i 0).isLt
      have h1 : (i 1 : Nat) < 256 := (i 1).isLt
      match a with
      | ⟨0, _⟩ => show win0_6.index t49 0 * win0_6.size 0 ≤ (i 0 : Nat) ∧ (i 0 : Nat) < win0_6.index t49 0 * win0_6.size 0 + win0_6.xsize (grid0.coords t49) 0
                  rw [show win0_6.index t49 0 * win0_6.size 0 = 0 from by decide +kernel, show win0_6.xsize (grid0.coords t49) 0 = 1 from by decide +kernel]; omega
      | ⟨1, _⟩ => show win0_6.index t49 1 * win0_6.size 1 ≤ (i 1 : Nat) ∧ (i 1 : Nat) < win0_6.index t49 1 * win0_6.size 1 + win0_6.xsize (grid0.coords t49) 1
                  rw [show win0_6.index t49 1 * win0_6.size 1 = 0 from by decide +kernel, show win0_6.xsize (grid0.coords t49) 1 = 256 from by decide +kernel]; omega⟩

end Region

end Cert.KernelIdeal.Frame

end
-- ==== Proof.Spec.lean ====
import Idealize.ShloMosaic.PureOps.Ideal
import Idealize.ShloMosaic.Lib.ValueIdx

/-! # The layer as one function of its arguments, entry by entry, over the extended reals

`rst` is the activation `max (x · W_self + n · W_neigh + b) 0` of a row; `mean` its column mean over the 100000 rows;
`varK` the column variance as the mean of squares minus the squared mean, `varR` as the mean squared deviation;
`out` the normalised, scaled and shifted activation times the projection matrix plus its bias. -/

noncomputable section

namespace Cert.Spec

open Idealize.ShloMosaic

/-- The row count 100000 and the variance offset, as the programs' literal words. -/
abbrev Nw : EReal := Ideal.ofBits .f32 0x47C35000#32
abbrev epsw : EReal := Ideal.ofBits .f32 0x3727C5AC#32

def rst (x nb : Fin 100000 → Fin 128 → EReal) (ws wn : Fin 128 → Fin 256 → EReal) (b : Fin 256 → EReal)
    (i : Fin 100000) (k : Fin 256) : EReal :=
  max ((∑ a : Fin 128, x i a * ws a k) + (∑ a : Fin 128, nb i a * wn a k) + b k) 0

def mean (r : Fin 100000 → Fin 256 → EReal) (k : Fin 256) : EReal := Ideal.div (∑ i : Fin 100000, r i k) Nw

def varK (r : Fin 100000 → Fin 256 → EReal) (k : Fin 256) : EReal :=
  Ideal.div (∑ i : Fin 100000, r i k * r i k) Nw - mean r k * mean r k

def varR (r : Fin 100000 → Fin 256 → EReal) (k : Fin 256) : EReal :=
  Ideal.div (∑ i : Fin 100000, (r i k - mean r k) * (r i k - mean r k)) Nw

def out (r : Fin 100000 → Fin 256 → EReal) (mu vr g be : Fin 256 → EReal) (fw : Fin 256 → Fin 160 → EReal)
    (fb : Fin 160 → EReal) (i : Fin 100000) (j : Fin 160) : EReal :=
  (∑ k : Fin 256, ((r i k - mu k) * Ideal.rsqrt (vr k + epsw) * g k + be k) * fw k j) + fb j

end Cert.Spec

end
-- ==== Proof.KI.Pay.lean ====
/-
  The arithmetic of the two kernels' bodies, read at one entry over the extended reals: the activation of a tile's
  row, the column sums of a tile's activations and of their squares added to the running sums, and the normalised,
  scaled and shifted activation times the projection matrix plus its bias.
-/
import proofs.«134907_j57415122812990_1_alg».proof.Proof.Gen.KernelIdeal.Skeleton
import proofs.«134907_j57415122812990_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx
open Cert.KernelIdeal Cert.KernelIdeal.Gen

/-- The one-row index. -/
abbrev o : Fin 1 := 0

/-! ## The matrix products at an entry -/

/-- A tile's rows times a 128 × 256 matrix, into a zero accumulator: at `(q, k)` the sum over the 128 shared
    coordinates of the products of the entries. -/
theorem matmul_tile_apply (A : FVec Ideal S2000x128 .bf16) (B : FVec Ideal S128x256 .bf16) (q : Fin 2000) (k : Fin 256) :
    FloatOps.matmul dot_S2000x128_S128x256_S2000x256_1_0_0_1_n_n none A B (constant (F := Ideal) S2000x256 .f32 0x00000000#32)
        (ix2 q k)
      = ∑ a : Fin 128, A (ix2 q a) * B (ix2 a k) := by
  rw [Ideal.matmul_constant_zero_apply,
    ← Equiv.sum_comp (contrEquiv1 dot_S2000x128_S128x256_S2000x256_1_0_0_1_n_n 128 rfl rfl).symm]
  refine Finset.sum_congr rfl fun c _ => ?_
  have c2 := contrEquiv1_symm_val dot_S2000x128_S128x256_S2000x256_1_0_0_1_n_n 128 rfl rfl c
  have l2 : dot_S2000x128_S128x256_S2000x256_1_0_0_1_n_n.lhsIdx (ix2 q k) ((contrEquiv1 _ 128 rfl rfl).symm c) = ix2 q c := by
    funext ax; apply Fin.ext
    match ax with
    | ⟨0, _⟩ => simp [DotDims.lhsIdx, dot_S2000x128_S128x256_S2000x256_1_0_0_1_n_n]; rfl
    | ⟨1, _⟩ => simp [DotDims.lhsIdx, dot_S2000x128_S128x256_S2000x256_1_0_0_1_n_n]; exact c2
  have r2 : dot_S2000x128_S128x256_S2000x256_1_0_0_1_n_n.rhsIdx (ix2 q k) ((contrEquiv1 _ 128 rfl rfl).symm c) = ix2 c k := by
    funext ax; apply Fin.ext
    match ax with
    | ⟨0, _⟩ => simp [DotDims.rhsIdx, dot_S2000x128_S128x256_S2000x256_1_0_0_1_n_n]; exact c2
    | ⟨1, _⟩ => simp [DotDims.rhsIdx, dot_S2000x128_S128x256_S2000x256_1_0_0_1_n_n]; rfl
  rw [l2, r2]

/-- The activations times the 256 × 160 projection matrix, into a zero accumulator: at `(q, j)` the sum over the 256
    shared coordinates of the products of the entries. -/
theorem matmul_proj_apply (A : FVec Ideal S2000x256 .bf16) (B : FVec Ideal S256x160 .bf16) (q : Fin 2000) (j : Fin 160) :
    FloatOps.matmul dot_S2000x256_S256x160_S2000x160_1_0_0_1_n_n none A B (constant (F := Ideal) S2000x160 .f32 0x00000000#32)
        (ix2 q j)
      = ∑ k : Fin 256, A (ix2 q k) * B (ix2 k j) := by
  rw [Ideal.matmul_constant_zero_apply,
    ← Equiv.sum_comp (contrEquiv1 dot_S2000x256_S256x160_S2000x160_1_0_0_1_n_n 256 rfl rfl).symm]
  refine Finset.sum_congr rfl fun c _ => ?_
  have c2 := contrEquiv1_symm_val dot_S2000x256_S256x160_S2000x160_1_0_0_1_n_n 256 rfl rfl c
  have l2 : dot_S2000x256_S256x160_S2000x160_1_0_0_1_n_n.lhsIdx (ix2 q j) ((contrEquiv1 _ 256 rfl rfl).symm c) = ix2 q c := by
    funext ax; apply Fin.ext
    match ax with
    | ⟨0, _⟩ => simp [DotDims.lhsIdx, dot_S2000x256_S256x160_S2000x160_1_0_0_1_n_n]; rfl
    | ⟨1, _⟩ => simp [DotDims.lhsIdx, dot_S2000x256_S256x160_S2000x160_1_0_0_1_n_n]; exact c2
  have r2 : dot_S2000x256_S256x160_S2000x160_1_0_0_1_n_n.rhsIdx (ix2 q j) ((contrEquiv1 _ 256 rfl rfl).symm c) = ix2 c j := by
    funext ax; apply Fin.ext
    match ax with
    | ⟨0, _⟩ => simp [DotDims.rhsIdx, dot_S2000x256_S256x160_S2000x160_1_0_0_1_n_n]; exact c2
    | ⟨1, _⟩ => simp [DotDims.rhsIdx, dot_S2000x256_S256x160_S2000x160_1_0_0_1_n_n]; rfl
  rw [l2, r2]

/-! ## The activation of a tile's row -/

/-- The activation at row `q` of a tile and column `k`: the row of the features times the first matrix, plus the row of
    the neighbour means times the second, plus the bias, cut off below at zero. -/
def tileRst (x0 x1 : Vec Ideal S2000x128 .f32) (x2 x3 : Vec Ideal S128x256 .f32) (x4 : Vec Ideal S1x256 .f32)
    (q : Fin 2000) (k : Fin 256) : EReal :=
  max ((∑ a : Fin 128, x0 (ix2 q a) * x2 (ix2 a k)) + (∑ a : Fin 128, x1 (ix2 q a) * x3 (ix2 a k)) + x4 (ix2 o k)) 0

theorem pay4_apply (x0 x1 : Vec Ideal S2000x128 .f32) (x2 x3 : Vec Ideal S128x256 .f32) (x4 : Vec Ideal S1x256 .f32)
    (q : Fin 2000) (k : Fin 256) :
    k0_pay4 (F := Ideal) x0 x1 x2 x3 x4 (ix2 q k) = tileRst x0 x1 x2 x3 x4 q k := by
  unfold k0_pay4 tileRst
  simp only [maximumf_apply, addf_apply, broadcast_apply, matmul, matmul_tile_apply, truncf_apply, shapeCast_self,
    broadcastTo_1b_ab_apply, Ideal.ofBits_def, Ideal.ofBits_zero_f32]

/-! ## The running column sums -/

/-- The lane sum of a tile over its 2000 rows, at a column. -/
theorem colsum_apply (v : FVec Ideal S2000x256 .f32) (hφ : FKind.Formats .f32)
    (hacc : (0x00000000#32 : BitVec 32) = 0x00000000#32) (k : Fin 256) :
    multiReduction .add [0] S256 v 0x00000000#32 reduces_S2000x256_S256 hφ hacc (ix1 k) = ∑ q : Fin 2000, v (ix2 q k) := by
  refine (Ideal.multiReduction_add_single v _ reduces_S2000x256_S256 hφ hacc (ix1 k)).trans ?_
  refine Finset.sum_congr rfl fun q _ => congrArg v (funext fun ax => Fin.ext ?_)
  match ax with
  | ⟨0, _⟩ => rfl
  | ⟨1, _⟩ => rfl

/-- The first kernel's new column sum: the running sum plus the tile's column sum of the activations. -/
theorem pay5_apply (x0 x1 : Vec Ideal S2000x128 .f32) (x2 x3 : Vec Ideal S128x256 .f32) (x4 s : Vec Ideal S1x256 .f32)
    (k : Fin 256) :
    k0_pay5 (F := Ideal) x0 x1 x2 x3 x4 s (ix2 o k) = s (ix2 o k) + ∑ q : Fin 2000, tileRst x0 x1 x2 x3 x4 q k := by
  unfold k0_pay5
  simp only [shapeCast_self, addf_apply, shapeCast_a_1a_apply]
  rw [colsum_apply]
  simp only [pay4_apply]

/-- The first kernel's new column sum of squares: the running sum plus the tile's column sum of the squared
    activations. -/
theorem pay16_apply (x0 x1 : Vec Ideal S2000x128 .f32) (x2 x3 : Vec Ideal S128x256 .f32) (x4 s : Vec Ideal S1x256 .f32)
    (k : Fin 256) :
    k0_pay1 (k0_pay6 (F := Ideal) x0 x1 x2 x3 x4 s) (ix2 o k)
      = s (ix2 o k) + ∑ q : Fin 2000, tileRst x0 x1 x2 x3 x4 q k * tileRst x0 x1 x2 x3 x4 q k := by
  unfold k0_pay1 k0_pay6
  simp only [shapeCast_self, addf_apply, shapeCast_a_1a_apply]
  rw [colsum_apply]
  simp only [mulf_apply, pay4_apply]

/-- The two running sums start from zero. -/
theorem pay2_apply (k : Fin 256) : k0_pay2 (F := Ideal) (ix2 o k) = 0 := by
  unfold k0_pay2
  simp only [shapeCast_self, broadcast_apply, Ideal.ofBits_def, Ideal.ofBits_zero_f32]

theorem pay3_apply (k : Fin 256) : k0_pay3 (F := Ideal) (ix2 o k) = 0 := by
  unfold k0_pay3
  simp only [shapeCast_self, broadcast_apply, Ideal.ofBits_def, Ideal.ofBits_zero_f32]

/-! ## The second kernel's result -/

/-- A vector reciprocal square root at an entry is the extended reals' of the entry. -/
theorem rsqrt_apply {s : Shape} {φ : FTy} (a : FVec Ideal s φ) (i : s.Idx) : rsqrt a i = Ideal.rsqrt (a i) := rfl

/-- The activation, centred at the column's mean, scaled by the reciprocal square root of the column's variance plus
    the offset and by the column's gain, and shifted. -/
def tileNorm (x0 x1 : Vec Ideal S2000x128 .f32) (x2 x3 : Vec Ideal S128x256 .f32) (x4 xv xm xg xb : Vec Ideal S1x256 .f32)
    (q : Fin 2000) (k : Fin 256) : EReal :=
  (tileRst x0 x1 x2 x3 x4 q k - xm (ix2 o k)) * Ideal.rsqrt (xv (ix2 o k) + Cert.Spec.epsw) * xg (ix2 o k) + xb (ix2 o k)

theorem k1pay2_apply (x0 x1 : Vec Ideal S2000x128 .f32) (x2 x3 : Vec Ideal S128x256 .f32)
    (x4 xv xm xg xb : Vec Ideal S1x256 .f32) (q : Fin 2000) (k : Fin 256) :
    k1_pay2 (F := Ideal) x0 x1 x2 x3 x4 xv xm xg xb (ix2 q k) = tileNorm x0 x1 x2 x3 x4 xv xm xg xb q k := by
  unfold k1_pay2 tileNorm tileRst
  simp only [maximumf_apply, addf_apply, subf_apply, mulf_apply, broadcast_apply, matmul, matmul_tile_apply, truncf_apply,
    shapeCast_self, broadcastTo_1b_ab_apply, rsqrt_apply, Ideal.ofBits_def, Ideal.ofBits_zero_f32]

/-- The second kernel's result at `(q, j)`: the normalised row times the projection matrix's column, plus the
    projection's bias. -/
theorem pay12_apply (x0 x1 : Vec Ideal S2000x128 .f32) (x2 x3 : Vec Ideal S128x256 .f32)
    (x4 xv xm xg xb : Vec Ideal S1x256 .f32) (x9 : Vec Ideal S256x160 .f32) (x10 : Vec Ideal S1x160 .f32)
    (q : Fin 2000) (j : Fin 160) :
    k1_pay1 (k1_pay2 (F := Ideal) x0 x1 x2 x3 x4 xv xm xg xb) x9 x10 (ix2 q j)
      = (∑ k : Fin 256, ((tileRst x0 x1 x2 x3 x4 q k - xm (ix2 o k)) * Ideal.rsqrt (xv (ix2 o k) + Cert.Spec.epsw)
            * xg (ix2 o k) + xb (ix2 o k)) * x9 (ix2 k j)) + x10 (ix2 o j) := by
  unfold k1_pay1
  simp only [addf_apply, matmul, matmul_proj_apply, truncf_apply, shapeCast_self, broadcastTo_1b_ab_apply, k1pay2_apply,
    tileNorm]

end Cert.KernelIdeal.Pay

end
-- ==== Proof.Alg.lean ====
/-
  Pure mathematics over the extended reals used by the value proof: which extended reals are real
  numbers and which operations keep them so; the regrouping of a sum over a product range into
  tiles; and the identity between the two usual formulas of a variance,
  mean of squares minus squared mean  =  mean of squared deviations,
  which holds on real entries (on the extended reals subtraction and distributivity fail at the
  infinities, so the finiteness hypothesis is needed).
-/
import Idealize.ShloMosaic.PureOps.Ideal
import Idealize.ShloMosaic.PureOps.Ideal.Laws
import Mathlib.Tactic.Ring
import Mathlib.Tactic.FieldSimp
import Mathlib.Tactic.Linarith
import Mathlib.Algebra.BigOperators.Fin
import Mathlib.Logic.Equiv.Fin.Basic

noncomputable section

namespace Cert.Alg

open Idealize.ShloMosaic

/-! ## Real elements of the extended reals -/

/-- `x` is a real number: neither of the two infinities. -/
def IsReal (x : EReal) : Prop := ∃ r : ℝ, x = (r : EReal)

theorem IsReal.coe (r : ℝ) : IsReal (r : EReal) := ⟨r, rfl⟩

theorem IsReal.zero : IsReal 0 := ⟨0, EReal.coe_zero.symm⟩

theorem IsReal.one : IsReal 1 := ⟨1, EReal.coe_one.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.neg {x : EReal} (hx : IsReal x) : IsReal (-x) := by
  obtain ⟨a, rfl⟩ := hx
  exact ⟨-a, (EReal.coe_neg a).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The coercion of the reals commutes with `max` (it is monotone). -/
theorem coe_max (a b : ℝ) : ((max a b : ℝ) : EReal) = max (a : EReal) (b : EReal) := by
  rcases le_total a b with h | h
  · rw [max_eq_right h, max_eq_right (EReal.coe_le_coe_iff.2 h)]
  · rw [max_eq_left h, max_eq_left (EReal.coe_le_coe_iff.2 h)]

theorem isReal_max {x y : EReal} (hx : IsReal x) (hy : IsReal y) : IsReal (max x y) := by
  obtain ⟨a, rfl⟩ := hx
  obtain ⟨b, rfl⟩ := hy
  exact ⟨max a b, (coe_max a b).symm⟩

/-- A finite sum of real numbers is a real number (any index type, any finite set of indices). -/
theorem IsReal.sum {ι : Type*} (s : Finset ι) (f : ι → EReal) (h : ∀ i ∈ s, IsReal (f i)) :
    IsReal (∑ i ∈ s, f i) :=
  Finset.sum_induction f IsReal (fun _ _ ha hb => ha.add hb) IsReal.zero h

theorem IsReal.sum_univ {ι : Type*} [Fintype ι] (f : ι → EReal) (h : ∀ i, IsReal (f i)) :
    IsReal (∑ i, f i) :=
  IsReal.sum _ f fun i _ => h i

/-- The coercion of the reals commutes with finite sums. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A real number is its own real part. -/
theorem IsReal.coe_toReal {x : EReal} (hx : IsReal x) : (x.toReal : EReal) = x := by
  obtain ⟨a, rfl⟩ := hx
  rw [EReal.toReal_coe]

theorem isReal_iff {x : EReal} : IsReal x ↔ x ≠ ⊤ ∧ x ≠ ⊥ :=
  ⟨fun ⟨r, h⟩ => h ▸ ⟨EReal.coe_ne_top r, EReal.coe_ne_bot r⟩,
   fun ⟨h1, h2⟩ => ⟨x.toReal, (EReal.coe_toReal h1 h2).symm⟩⟩

/-! ## Division by a nonzero real -/

/-- The quotient of two reals, the divisor nonzero, is the real quotient. -/
theorem div_coe_coe (a c : ℝ) (hc : c ≠ 0) : Ideal.div (a : EReal) (c : EReal) = ((a / c : ℝ) : EReal) := by
  rw [Ideal.div_coe hc, ← EReal.coe_mul, mul_one_div]

theorem IsReal.div_coe {x : EReal} (hx : IsReal x) {c : ℝ} (hc : c ≠ 0) : IsReal (Ideal.div x (c : EReal)) := by
  obtain ⟨a, rfl⟩ := hx
  exact ⟨a / c, div_coe_coe a c hc⟩

theorem IsReal.div_of_eq_coe {x y : EReal} (hx : IsReal x) {c : ℝ} (hc : c ≠ 0) (hy : y = (c : EReal)) :
    IsReal (Ideal.div x y) := hy ▸ hx.div_coe hc

/-- `max d 1` of a real `d` is a real number, at least `1`. -/
theorem max_one_eq_coe {d : EReal} (hd : IsReal d) : ∃ c : ℝ, 1 ≤ c ∧ max d 1 = (c : EReal) := by
  obtain ⟨b, rfl⟩ := hd
  exact ⟨max b 1, le_max_right b 1, by rw [coe_max, EReal.coe_one]⟩

/-- Division of a real by `max d 1`, `d` real: the divisor is a real number at least `1`, so not zero. -/
theorem IsReal.div_max_one {x d : EReal} (hx : IsReal x) (hd : IsReal d) : IsReal (Ideal.div x (max d 1)) := by
  obtain ⟨c, hc1, hc⟩ := max_one_eq_coe hd
  exact hx.div_of_eq_coe (by linarith : c ≠ 0) hc

/-! ## A sum over `a · b` indices, regrouped into `a` tiles of `b` -/

theorem tile_lt {a b : ℕ} (t : Fin a) (q : Fin b) : b * t.val + q.val < a * b := by
  have h1 : b * t.val + q.val < b * (t.val + 1) := by rw [Nat.mul_add, Nat.mul_one]; exact Nat.add_lt_add_left q.isLt _
  have h2 : b * (t.val + 1) ≤ b * a := Nat.mul_le_mul_left b t.isLt
  rw [Nat.mul_comm a b]; exact lt_of_lt_of_le h1 h2

/-- The sum over `Fin n`, `n = a · b`, is the sum over the `a` tiles of the sums over the `b` positions in each
    tile; position `q` of tile `t` is index `b · t + q`. Any commutative additive monoid. -/
theorem sum_tiles_of_eq {M : Type*} [AddCommMonoid M] {n a b : ℕ} (h : n = a * b) (f : Fin n → M) :
    ∑ i, f i = ∑ t : Fin a, ∑ q : Fin b, f ⟨b * t.val + q.val, h ▸ tile_lt t q⟩ := by
  subst h
  rw [← Fintype.sum_prod_type' (f := fun t q => f ⟨b * t.val + q.val, tile_lt t q⟩)]
  rw [← Equiv.sum_comp finProdFinEquiv f]
  refine Finset.sum_congr rfl fun p _ => congrArg f (Fin.ext ?_)
  show p.2.val + b * p.1.val = b * p.1.val + p.2.val
  exact Nat.add_comm _ _

/-- 100000 rows are 50 tiles of 2000. -/
theorem sum_tiles (f : Fin 100000 → EReal) :
    ∑ i, f i = ∑ t : Fin 50, ∑ q : Fin 2000, f ⟨2000 * t.val + q.val, by omega⟩ :=
  sum_tiles_of_eq (a := 50) (b := 2000) (by norm_num) f

/-! ## The two formulas of a variance -/

/-- Over the reals: with `m` the mean `(∑ g) / c`, `c` the number of terms,
    `∑ (g - m)² = ∑ g² - 2 m ∑ g + c m²`, so that `(∑ g²) / c - m² = (∑ (g - m)²) / c`. -/
theorem real_var {ι : Type*} [Fintype ι] (g : ι → ℝ) (c : ℝ) (hcard : (Fintype.card ι : ℝ) = c) (hc : c ≠ 0) :
    (∑ i, g i * g i) / c - (∑ i, g i) / c * ((∑ i, g i) / c)
      = (∑ i, (g i - (∑ i, g i) / c) * (g i - (∑ i, g i) / c)) / c := by
  have h1 : ∀ m : ℝ, ∑ i, (g i - m) * (g i - m) = (∑ i, g i * g i) - 2 * m * (∑ i, g i) + c * (m * m) := by
    intro m
    have e : ∀ i, (g i - m) * (g i - m) = g i * g i - 2 * m * g i + m * m := fun i => by ring
    simp only [e, Finset.sum_add_distrib, Finset.sum_sub_distrib, ← Finset.mul_sum, Finset.sum_const, Finset.card_univ,
      nsmul_eq_mul, hcard]
    ring
  rw [h1]
  field_simp
  ring

/-- On real entries the mean of the squares minus the squared mean is the mean of the squared deviations
    from the mean; `c` is the number of entries, as a real. Every sum, product and difference below is one
    of real numbers, so the identity over the reals transfers. -/
theorem var_identity_gen {ι : Type*} [Fintype ι] (c : ℝ) (hcard : (Fintype.card ι : ℝ) = c) (hc : c ≠ 0)
    (x : ι → EReal) (hx : ∀ i, IsReal (x i)) :
    Ideal.div (∑ i, x i * x i) (c : EReal)
        - Ideal.div (∑ i, x i) (c : EReal) * Ideal.div (∑ i, x i) (c : EReal)
      = Ideal.div (∑ i, (x i - Ideal.div (∑ i, x i) (c : EReal)) * (x i - Ideal.div (∑ i, x i) (c : EReal)))
          (c : EReal) := by
  choose g hg using hx
  obtain rfl : x = fun i => (g i : EReal) := funext hg
  have hmu : Ideal.div (∑ i, (g i : EReal)) (c : EReal) = (((∑ i, g i) / c : ℝ) : EReal) := by
    rw [← coe_sum, div_coe_coe _ _ hc]
  simp only [hmu]
  have hQ : ∑ i, (g i : EReal) * (g i : EReal) = ((∑ i, g i * g i : ℝ) : EReal) := by
    rw [coe_sum]; exact Finset.sum_congr rfl fun i _ => (EReal.coe_mul _ _).symm
  have hD : ∀ m : ℝ, ∑ i, ((g i : EReal) - (m : EReal)) * ((g i : EReal) - (m : EReal))
      = ((∑ i, (g i - m) * (g i - m) : ℝ) : EReal) := by
    intro m
    rw [coe_sum]
    exact Finset.sum_congr rfl fun i _ => by rw [← EReal.coe_sub, ← EReal.coe_mul]
  rw [hQ, hD, div_coe_coe _ _ hc, div_coe_coe _ _ hc, ← EReal.coe_mul, ← EReal.coe_sub, real_var g c hcard hc]

/-- The same over `Fin n`, `n ≠ 0`, the divisor the real `n`. -/
theorem var_identity_fin {n : ℕ} (hn : n ≠ 0) (x : Fin n → EReal) (hx : ∀ i, IsReal (x i)) :
    Ideal.div (∑ i, x i * x i) ((n : ℝ) : EReal)
        - Ideal.div (∑ i, x i) ((n : ℝ) : EReal) * Ideal.div (∑ i, x i) ((n : ℝ) : EReal)
      = Ideal.div (∑ i, (x i - Ideal.div (∑ i, x i) ((n : ℝ) : EReal)) * (x i - Ideal.div (∑ i, x i) ((n : ℝ) : EReal)))
          ((n : ℝ) : EReal) :=
  var_identity_gen (n : ℝ) (by rw [Fintype.card_fin]) (Nat.cast_ne_zero.2 hn) x hx

/-- The instance used: 100000 entries, the divisor the real 100000. -/
theorem var_identity (x : Fin 100000 → EReal) (hx : ∀ i, IsReal (x i)) :
    Ideal.div (∑ i, x i * x i) ((100000 : ℝ) : EReal)
        - Ideal.div (∑ i, x i) ((100000 : ℝ) : EReal) * Ideal.div (∑ i, x i) ((100000 : ℝ) : EReal)
      = Ideal.div (∑ i, (x i - Ideal.div (∑ i, x i) ((100000 : ℝ) : EReal))
            * (x i - Ideal.div (∑ i, x i) ((100000 : ℝ) : EReal))) ((100000 : ℝ) : EReal) :=
  var_identity_gen (100000 : ℝ) (by rw [Fintype.card_fin]; norm_num) (by norm_num) x hx

/-! ## Real entries through the host's gather and accumulating scatter -/

/-- A gather only selects entries of its operand. -/
theorem gather_isReal {s si t : Shape} {w : Nat} (d : GatherDims s si t) (x : s.Idx → EReal) (idx : IVec si w)
    (hx : ∀ i, IsReal (x i)) (j : t.Idx) : IsReal (Host.gather d x idx j) :=
  hx _

/-- An accumulating scatter's entry is the operand's entry plus a finite sum of update entries. -/
theorem hostScatterAdd_isReal {s si su : Shape} {w : Nat} (d : ScatterDims s si su) (x : s.Idx → EReal) (idx : IVec si w)
    (upd : su.Idx → EReal) (hx : ∀ i, IsReal (x i)) (hu : ∀ j, IsReal (upd j)) (i : s.Idx) :
    IsReal (Ideal.hostScatterAdd d x idx upd i) :=
  (hx i).add (IsReal.sum _ _ fun j _ => hu j)

/-- The same through the operation as a host program spells it, read at the extended reals. -/
theorem scatterAdd_isReal {s si su : Shape} {w : Nat} {φ : FTy} (d : ScatterDims s si su) (x : FVec Ideal s φ)
    (idx : IVec si w) (upd : FVec Ideal su φ) (hx : ∀ i, IsReal (x i)) (hu : ∀ j, IsReal (upd j)) (i : s.Idx) :
    IsReal (Host.scatterAdd (F := Ideal) d x idx upd i) :=
  hostScatterAdd_isReal d x idx upd hx hu i

/-- The accumulating scatter at the extended reals, read at an index. -/
theorem scatterAdd_apply {s si su : Shape} {w : Nat} {φ : FTy} (d : ScatterDims s si su) (x : FVec Ideal s φ)
    (idx : IVec si w) (upd : FVec Ideal su φ) (i : s.Idx) :
    Host.scatterAdd (F := Ideal) d x idx upd i
      = x i + ∑ j ∈ Finset.univ.filter (fun j => d.resultIdx? j idx = some i), upd j :=
  rfl

/-! ## The float words of the programs as reals -/

/-- The word of `+0.0` denotes `0`. -/
theorem ofBits_zero : Ideal.ofBits .f32 0x00000000#32 = 0 := Ideal.ofBits_zero_f32

/-- The word of `1.0` denotes `1`. -/
theorem ofBits_one : Ideal.ofBits .f32 0x3F800000#32 = 1 := by
  simp [Ideal.ofBits, Ideal.ieee, -EReal.coe_mul]; norm_num

/-- The word of `100000.0` (`1.52587890625 · 2¹⁶`) denotes the real `100000`. -/
theorem ofBits_100000 : Ideal.ofBits .f32 0x47C35000#32 = ((100000 : ℝ) : EReal) := by
  simp [Ideal.ofBits, Ideal.ieee, -EReal.coe_mul]; norm_num

/-- The same statement under the name of the row count. -/
theorem Nw_eq : Ideal.ofBits .f32 0x47C35000#32 = ((100000 : ℝ) : EReal) := ofBits_100000

theorem isReal_ofBits_zero : IsReal (Ideal.ofBits .f32 0x00000000#32) := ofBits_zero ▸ IsReal.zero
theorem isReal_ofBits_one : IsReal (Ideal.ofBits .f32 0x3F800000#32) := ofBits_one ▸ IsReal.one
theorem isReal_ofBits_100000 : IsReal (Ideal.ofBits .f32 0x47C35000#32) := ofBits_100000 ▸ IsReal.coe _

/-! ## The layer's entry -/

/-- `max (u + v + w) 0` of reals is real. -/
theorem isReal_relu3 {u v w : EReal} (hu : IsReal u) (hv : IsReal v) (hw : IsReal w) : IsReal (max (u + v + w) 0) :=
  isReal_max ((hu.add hv).add hw) IsReal.zero

/-- A row-by-column product `∑ k, a k * b k` of reals is real. -/
theorem isReal_dot {ι : Type*} [Fintype ι] (a b : ι → EReal) (ha : ∀ k, IsReal (a k)) (hb : ∀ k, IsReal (b k)) :
    IsReal (∑ k, a k * b k) :=
  IsReal.sum_univ _ fun k => (ha k).mul (hb k)

/-! ## Real entries through contractions and host sums -/

/-- The host's product at an index is a finite sum of products of entries. -/
theorem dotGeneral_isReal {sl sr so : Shape} {φ₁ φ₂ : FTy} (d : DotDims sl sr so) (prec : Option ContractPrecision)
    (lhs : FVec Ideal sl φ₁) (rhs : FVec Ideal sr φ₂) (hl : ∀ i, IsReal (lhs i)) (hr : ∀ i, IsReal (rhs i)) (j : so.Idx) :
    IsReal (Host.dotGeneral (F := Ideal) d prec lhs rhs j) := by
  show IsReal (FloatOps.dotGeneral d prec .single lhs rhs j)
  rw [Ideal.dotGeneral_apply]
  exact isReal_dot _ _ (fun _ => hl _) (fun _ => hr _)

/-- A kernel's matrix product at an index: the accumulator's entry plus such a sum. -/
theorem matmul_isReal {sl sr so : Shape} {φ₁ φ₂ : FTy} (d : DotDims sl sr so) (prec : Option ContractPrecision)
    (lhs : FVec Ideal sl φ₁) (rhs : FVec Ideal sr φ₂) (acc : FVec Ideal so .f32) (hl : ∀ i, IsReal (lhs i))
    (hr : ∀ i, IsReal (rhs i)) (ha : ∀ j, IsReal (acc j)) (j : so.Idx) :
    IsReal (FloatOps.matmul d prec lhs rhs acc j) := by
  rw [Ideal.matmul_apply]
  exact (ha j).add (isReal_dot _ _ (fun _ => hl _) (fun _ => hr _))

/-- The host's sum along axes: the initial value plus a finite sum of entries. -/
theorem hostReduceAdd_isReal {s t : Shape} {axes : List (Fin s.rank)} (h : s.ReducesTo axes t) (x : s.Idx → EReal)
    (init : EReal) (hx : ∀ i, IsReal (x i)) (hi : IsReal init) (j : t.Idx) : IsReal (Ideal.hostReduceAdd h x init j) :=
  hi.add (IsReal.sum _ _ fun i _ => hx i)

/-- A kernel's sum along axes: a finite sum of entries. -/
theorem reduceAdd_isReal {s t : Shape} {axes : List (Fin s.rank)} (h : s.Reduces axes t) (x : s.Idx → EReal)
    (hx : ∀ i, IsReal (x i)) (j : t.Idx) : IsReal (Ideal.reduceAdd h x j) :=
  IsReal.sum _ _ fun i _ => hx i

/-- The variance identity with the sums started from `0`, as a host sum spells them. -/
theorem var_identity_zero_add (x : Fin 100000 → EReal) (hx : ∀ i, IsReal (x i)) :
    Ideal.div (∑ i, x i * x i) ((100000 : ℝ) : EReal)
        - Ideal.div (∑ i, x i) ((100000 : ℝ) : EReal) * Ideal.div (∑ i, x i) ((100000 : ℝ) : EReal)
      = Ideal.div (0 + ∑ i, (x i - Ideal.div (0 + ∑ i, x i) ((100000 : ℝ) : EReal))
            * (x i - Ideal.div (0 + ∑ i, x i) ((100000 : ℝ) : EReal))) ((100000 : ℝ) : EReal) := by
  simp only [zero_add]
  exact var_identity x hx

end Cert.Alg

end
-- ==== Proof.KI.Value0.lean ====
import proofs.«134907_j57415122812990_1_alg».proof.Proof.KI.Pieces
import proofs.«134907_j57415122812990_1_alg».proof.Proof.KI.Blocks
import proofs.«134907_j57415122812990_1_alg».proof.Proof.KI.Final0
import proofs.«134907_j57415122812990_1_alg».proof.Proof.KI.Pay
import proofs.«134907_j57415122812990_1_alg».proof.Proof.Alg
import proofs.«134907_j57415122812990_1_alg».proof.Proof.Spec

set_option maxRecDepth 16384
set_option maxHeartbeats 1600000

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-! # The statistics region's values at the ideal instance

After the last point the two output rows hold, column by column, the sum over all 100000 rows of the activation and
of its square: each point adds its tile's column sums onto what the point before left, the first onto zero, and the
50 tiles of 2000 rows are the rows of the array. -/

open Cert.KernelIdeal.Pay Cert.Alg Idealize.ShloMosaic.ValueIdx

section Region
variable (V : (c : Dev nD) → (b : Ref sig .tc) → Buf (Elt Ideal) ((c : Thread nD τ).loc b))

/-- The arrays the region reads, entry by entry. -/
abbrev Xf (c : Dev nD) (i : Fin 100000) (a : Fin 128) : EReal := (V c main_arg0 : S100000x128.Idx → EReal) (ix2 i a)
abbrev NBf (c : Dev nD) (i : Fin 100000) (a : Fin 128) : EReal := (V c main_v21 : S100000x128.Idx → EReal) (ix2 i a)
abbrev WSf (c : Dev nD) (a : Fin 128) (k : Fin 256) : EReal := (V c main_arg4 : S128x256.Idx → EReal) (ix2 a k)
abbrev WNf (c : Dev nD) (a : Fin 128) (k : Fin 256) : EReal := (V c main_arg5 : S128x256.Idx → EReal) (ix2 a k)
abbrev Bf (c : Dev nD) (k : Fin 256) : EReal := (V c main_v22 : S1x256.Idx → EReal) (ix2 (0 : Fin 1) k)
/-- The activation of row `i`, column `k`. -/
abbrev Rf (c : Dev nD) (i : Fin 100000) (k : Fin 256) : EReal := Cert.Spec.rst (Xf V c) (NBf V c) (WSf V c) (WNf V c) (Bf V c) i k

/-- Tile `t`'s activation is the activation of rows `2000 t + q`. -/
theorem tile0_eq (c : Dev nD) (t : Fin cfg0.N) (q : Fin 2000) (k : Fin 256) :
    tileRst (iblk0 V c 0 t) (iblk0 V c 1 t) (iblk0 V c 2 t) (iblk0 V c 3 t) (iblk0 V c 4 t) q k
      = Rf V c ⟨2000 * t.val + q.val, by have := t.isLt; have : cfg0.N = 50 := N_0; omega⟩ k := by
  unfold tileRst
  show _ = Cert.Spec.rst _ _ _ _ _ _ _
  unfold Cert.Spec.rst
  rw [iblk0_whole_2, iblk0_whole_3, iblk0_whole_4]
  congr 2
  congr 1
  · refine Finset.sum_congr rfl fun a _ => ?_
    rw [iblk0_rows_0 V c t (ix2 q a) (ix2 ⟨2000 * t.val + q.val, by have := t.isLt; have : cfg0.N = 50 := N_0; omega⟩ a) rfl rfl]
  · refine Finset.sum_congr rfl fun a _ => ?_
    rw [iblk0_rows_1 V c t (ix2 q a) (ix2 ⟨2000 * t.val + q.val, by have := t.isLt; have : cfg0.N = 50 := N_0; omega⟩ a) rfl rfl]

/-- Tile `t`'s activation, from the point's blocks. -/
abbrev Tt (c : Dev nD) (t : Fin cfg0.N) (q : Fin 2000) (k : Fin 256) : EReal := tileRst (iblk0 V c 0 t) (iblk0 V c 1 t) (iblk0 V c 2 t) (iblk0 V c 3 t) (iblk0 V c 4 t) q k

/-- Each point leaves in the sum accumulator its tile's column sums added to what the point before left. -/
theorem sAt0_step_fst (c : Dev nD) (n : ℕ) (hn : n + 1 < cfg0.N) :
    (sAt0 V c (n + 1) hn).1 = k0_pay5 (F := Ideal) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (sAt0 V c n (Nat.lt_of_succ_lt hn)).1 := by
  by_cases h1 : n + 1 = 49
  · rw [show sAt0 V c (n + 1) hn = _ from sAt0_C V c ⟨n + 1, hn⟩ (Nat.succ_ne_zero n) h1]
    dsimp only
    rw [soutC0_eq]
    rfl
  · rw [show sAt0 V c (n + 1) hn = _ from sAt0_B V c ⟨n + 1, hn⟩ (Nat.succ_ne_zero n) h1]
    dsimp only
    rw [soutB0_eq]
    rfl

theorem sAt0_step_snd (c : Dev nD) (n : ℕ) (hn : n + 1 < cfg0.N) :
    (sAt0 V c (n + 1) hn).2 = k0_pay1 (k0_pay6 (F := Ideal) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (sAt0 V c n (Nat.lt_of_succ_lt hn)).2) := by
  by_cases h1 : n + 1 = 49
  · rw [show sAt0 V c (n + 1) hn = _ from sAt0_C V c ⟨n + 1, hn⟩ (Nat.succ_ne_zero n) h1]
    dsimp only
    rw [soutC1_eq]
    rfl
  · rw [show sAt0 V c (n + 1) hn = _ from sAt0_B V c ⟨n + 1, hn⟩ (Nat.succ_ne_zero n) h1]
    dsimp only
    rw [soutB1_eq]
    rfl

/-- After point `n` the sum accumulator holds the column sums of tiles `0 … n`. -/
theorem sAt0_fst (c : Dev nD) (k : Fin 256) : ∀ (n : ℕ) (hn : n < cfg0.N),
    (sAt0 V c n hn).1 (ix2 (0 : Fin 1) k) = ∑ s : Fin (n + 1), ∑ q : Fin 2000, Tt V c ⟨s.val, lt_of_lt_of_le s.isLt hn⟩ q k := by
  intro n
  induction n with
  | zero =>
    intro hn
    rw [show sAt0 V c 0 hn = _ from sAt0_A V c ⟨0, hn⟩ rfl (by show ¬(0 : ℕ) = 49; decide)]
    dsimp only
    rw [soutA0_eq, pay5_apply, pay2_apply, zero_add, Fin.sum_univ_one]
    rfl
  | succ n ih =>
    intro hn
    conv_rhs => rw [Fin.sum_univ_castSucc]
    rw [sAt0_step_fst V c n hn, pay5_apply, ih (Nat.lt_of_succ_lt hn)]
    rfl

/-- After point `n` the squares accumulator holds the column sums of the squares of tiles `0 … n`. -/
theorem sAt0_snd (c : Dev nD) (k : Fin 256) : ∀ (n : ℕ) (hn : n < cfg0.N),
    (sAt0 V c n hn).2 (ix2 (0 : Fin 1) k) = ∑ s : Fin (n + 1), ∑ q : Fin 2000, Tt V c ⟨s.val, lt_of_lt_of_le s.isLt hn⟩ q k * Tt V c ⟨s.val, lt_of_lt_of_le s.isLt hn⟩ q k := by
  intro n
  induction n with
  | zero =>
    intro hn
    rw [show sAt0 V c 0 hn = _ from sAt0_A V c ⟨0, hn⟩ rfl (by show ¬(0 : ℕ) = 49; decide)]
    dsimp only
    rw [soutA1_eq, pay16_apply, pay3_apply, zero_add, Fin.sum_univ_one]
    rfl
  | succ n ih =>
    intro hn
    conv_rhs => rw [Fin.sum_univ_castSucc]
    rw [sAt0_step_snd V c n hn, pay16_apply, ih (Nat.lt_of_succ_lt hn)]
    rfl

end Region

end Cert.KernelIdeal.Frame

end
-- ==== Proof.KI.Arr0.lean ====
import proofs.«134907_j57415122812990_1_alg».proof.Proof.KI.Value0

set_option maxRecDepth 16384
set_option maxHeartbeats 400000

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.KernelIdeal.Pay Cert.Alg Idealize.ShloMosaic.ValueIdx

section Region
variable (V : (c : Dev nD) → (b : Ref sig .tc) → Buf (Elt Ideal) ((c : Thread nD τ).loc b))

/-- What the last point copies into the sums row: the sum of the activation over all rows. -/
theorem o5_apply (c : Dev nD) (k : Fin 256) :
    ((oAt0 V c t49).1 : S1x256.Idx → EReal) (ix2 (0 : Fin 1) k) = ∑ i : Fin 100000, Rf V c i k := by
  have hN : cfg0.N = 50 := N_0
  have h0 : ¬t49.val = 0 := by show ¬(49 : ℕ) = 0; decide
  have e := oAt0_C V c t49 h0 rfl
  rw [e]
  dsimp only
  rw [outC5_eq, pay5_apply]
  have step : ∀ (n : ℕ) (hn : n < cfg0.N) (b : EReal), n = 48 →
      (sAt0 V c n hn).1 (ix2 (0 : Fin 1) k) + b
        = (∑ s : Fin 49, ∑ q : Fin 2000, Tt V c ⟨s.val, by have := s.isLt; omega⟩ q k) + b := by
    intro n hn b h; subst h; rw [sAt0_fst V c k 48 hn]
  refine (step _ _ _ ?_).trans ?_
  · rfl
  rw [sum_tiles (fun i => Rf V c i k)]
  conv_rhs => rw [Fin.sum_univ_castSucc (n := 49)]
  refine congrArg₂ (· + ·) ?_ ?_
  · refine Finset.sum_congr rfl fun s _ => Finset.sum_congr rfl fun q _ => ?_
    exact tile0_eq V c ⟨s.val, by have := s.isLt; omega⟩ q k
  · refine Finset.sum_congr rfl fun q _ => ?_
    exact tile0_eq V c t49 q k

/-- What the last point copies into the squares row: the sum of the squared activation over all rows. -/
theorem o6_apply (c : Dev nD) (k : Fin 256) :
    ((oAt0 V c t49).2 : S1x256.Idx → EReal) (ix2 (0 : Fin 1) k) = ∑ i : Fin 100000, Rf V c i k * Rf V c i k := by
  have hN : cfg0.N = 50 := N_0
  have h0 : ¬t49.val = 0 := by show ¬(49 : ℕ) = 0; decide
  have e := oAt0_C V c t49 h0 rfl
  rw [e]
  dsimp only
  rw [outC6_eq, pay16_apply]
  have step : ∀ (n : ℕ) (hn : n < cfg0.N) (b : EReal), n = 48 →
      (sAt0 V c n hn).2 (ix2 (0 : Fin 1) k) + b
        = (∑ s : Fin 49, ∑ q : Fin 2000, Tt V c ⟨s.val, by have := s.isLt; omega⟩ q k * Tt V c ⟨s.val, by have := s.isLt; omega⟩ q k) + b := by
    intro n hn b h; subst h; rw [sAt0_snd V c k 48 hn]
  refine (step _ _ _ ?_).trans ?_
  · rfl
  rw [sum_tiles (fun i => Rf V c i k * Rf V c i k)]
  conv_rhs => rw [Fin.sum_univ_castSucc (n := 49)]
  refine congrArg₂ (· + ·) ?_ ?_
  · refine Finset.sum_congr rfl fun s _ => Finset.sum_congr rfl fun q _ => ?_
    have h := tile0_eq V c ⟨s.val, by have := s.isLt; omega⟩ q k
    exact congrArg₂ (· * ·) h h
  · refine Finset.sum_congr rfl fun q _ => ?_
    have h := tile0_eq V c t49 q k
    exact congrArg₂ (· * ·) h h

/-- The sums row and the squares row after the run. -/
theorem arr5_apply (c : Dev nD) (k : Fin 256) :
    (dat0 V c).arrAt 5 cfg0.N (ix2 (0 : Fin 1) k) = ∑ i : Fin 100000, Rf V c i k := by
  rw [final5]; exact o5_apply V c k
theorem arr6_apply (c : Dev nD) (k : Fin 256) :
    (dat0 V c).arrAt 6 cfg0.N (ix2 (0 : Fin 1) k) = ∑ i : Fin 100000, Rf V c i k * Rf V c i k := by
  rw [final6]; exact o6_apply V c k

end Region

end Cert.KernelIdeal.Frame

end
-- ==== Proof.KI.Body0.lean ====
import proofs.«134907_j57415122812990_1_alg».proof.Proof.KI.Frame0

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The statistics region: the body obligation -/

section Region
variable (V : (c : Dev nD) → (b : Ref sig .tc) → Buf (Elt F) ((c : Thread nD τ).loc b))

set_option maxHeartbeats 16000000 in
/-- The body at any point: the inputs' memrefs hold their blocks; the point is the first, a middle or the last one;
    the invariant hands the body the accumulators at what the point before left (at anything at the first point) and
    takes them back at this point's contents; the output rows are handed back untouched except at the last point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 50 := lt_of_lt_of_eq t.isLt (show cfg0.N = 50 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h1 : t.val = 49
  · have h0 : ¬t.val = 0 := by omega
    rw [show (dat0 V c).leavesExact 5 t = owns (c : Thread nD τ) (ms0_5 t) fullShare ((dat0 V c).after 5 t) from by
      unfold Dat.leavesExact; rw [liveAt0_5_C t ((hcond0_1 t).mpr h1)], after0_5]
    rw [show (dat0 V c).leavesExact 6 t = owns (c : Thread nD τ) (ms0_6 t) fullShare ((dat0 V c).after 6 t) from by
      unfold Dat.leavesExact; rw [liveAt0_6_C t ((hcond0_1 t).mpr h1)], after0_6]
    rw [sAt0_C V c t h0 h1, oAt0_C V c t h0 h1]
    unfold out0_C_5 out0_C_6 sout0_C_0 sout0_C_1; (try dsimp only)
    rw [PhiS_castSucc V c t, PhiS_pos V c _ _ h0]
    iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _ _).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    iintro ⟨H0, H1, H2, H3, H4, ⟨%e5, H5⟩, ⟨%e6, H6⟩, ⟨%es0, HS0⟩, ⟨%es1, HS1⟩⟩
    isplitl [HS0 HS1 Hrest Hg]
    · isplitl [HS0 HS1 Hrest]
      · isplitl [HS0]
        · unfold owns; iexists _; isplitr
          swap; · iexact HS0
          ipureintro; exact View.read_writes_of_cover _ _ _ _ _ (scover0_C_0 c _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_C_1 c _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_C_5 c _ _ _ _ _ _ _ _ _ _ _ _ _ _ _ _ _ _ _ _ _ _ _ _ _ _ _ _)
    unfold owns; iexists _; isplitr
    swap; · iexact H6
    ipureintro; exact View.read_writes_of_cover _ _ _ _ _ (cover0_C_6 c _ _ _ _ _ _ _ _ _ _ _ _ _ _ _ _ _ _ _ _ _ _ _ _ _ _ _ _)
  · have hnl : ¬cond0_1 (grid0.coords t) := fun h => h1 ((hcond0_1 t).mp h)
    rw [Dat.leavesExact_idle (dat0 V c) 5 t (idleAt0_5 t hnl) (noFlush0_5 t hnl)]
    rw [Dat.leavesExact_idle (dat0 V c) 6 t (idleAt0_6 t hnl) (noFlush0_6 t hnl)]
    by_cases h0 : t.val = 0
    · rw [sAt0_A V c t h0 h1]
      unfold sout0_A_0 sout0_A_1; (try dsimp only)
      rw [PhiS_castSucc V c t, PhiS_zero V c _ _ h0, PhiA0_eq]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ ((hcond0_0 t).mpr h0) hnl (iblk0 V c 0 t) (iblk0 V c 1 t) (iblk0 V c 2 t) (iblk0 V c 3 t) (iblk0 V c 4 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
    · rw [sAt0_B V c t h0 h1]
      unfold sout0_B_0 sout0_B_1; (try dsimp only)
      rw [PhiS_castSucc V c t, PhiS_pos V c _ _ h0]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ (fun h => h0 ((hcond0_0 t).mp h)) hnl (iblk0 V c 0 t) (iblk0 V c 1 t) (iblk0 V c 2 t) (iblk0 V c 3 t) (iblk0 V c 4 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the accumulators' named contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 50 := N_0; omega), PhiA0_eq]
  iintro ⟨⟨HS0, HS1, Hrest⟩, Hg⟩
  isplitl [HS0 HS1 Hrest]
  · isplitl [HS0]; · iexists _; iexact HS0
    isplitl [HS1]; · iexists _; iexact HS1
    iexact Hrest
  iexact Hg

end Region

end Cert.KernelIdeal.Frame

end
-- ==== Proof.KI.Run.lean ====
import proofs.«134907_j57415122812990_1_alg».proof.Proof.KI.Body0
import proofs.«134907_j57415122812990_1_alg».proof.Proof.KI.Frame1
import proofs.«134907_j57415122812990_1_alg».proof.Proof.Gen.KernelIdeal.Regions

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The run: the host stretches and the two regions in order, from the launch to the return

The buffer contents at every boundary are a fold from the launch memory: a host stretch applies its operations, a
region leaves its arrays at what its write-backs leave and every other buffer as entered. -/

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_writes_sub hostOps1 _ hostOps1_writes (show main_arg0 ∉ hostOps1_W by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (show main_arg0 ∉ hostOps0_W by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (show main_arg1 ∉ hostOps1_W by decide)
    _ = W1 m ρ c (Proc.devRef .tc main_arg1) := W2_of_ne m ρ c main_arg1 (by decide)
    _ = W0 m ρ c (Proc.devRef .tc main_arg1) := StableHlo.after_of_writes_sub hostOps0 _ hostOps0_writes (show main_arg1 ∉ hostOps0_W by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (show main_arg2 ∉ hostOps1_W by decide)
    _ = W1 m ρ c (Proc.devRef .tc main_arg2) := W2_of_ne m ρ c main_arg2 (by decide)
    _ = W0 m ρ c (Proc.devRef .tc main_arg2) := StableHlo.after_of_writes_sub hostOps0 _ hostOps0_writes (show main_arg2 ∉ hostOps0_W by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (show main_arg3 ∉ hostOps1_W by decide)
    _ = W1 m ρ c (Proc.devRef .tc main_arg3) := W2_of_ne m ρ c main_arg3 (by decide)
    _ = W0 m ρ c (Proc.devRef .tc main_arg3) := StableHlo.after_of_writes_sub hostOps0 _ hostOps0_writes (show main_arg3 ∉ hostOps0_W by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := (W4_arr m ρ c 2).trans (((dat1 (V3 m ρ) c).arrAt_in 2 rfl _).trans (A_eq1 (V3 m ρ) c 2))
    _ = W2 m ρ c (Proc.devRef .tc main_arg4) := StableHlo.after_of_writes_sub hostOps1 _ hostOps1_writes (show main_arg4 ∉ hostOps1_W by decide)
    _ = W1 m ρ c (Proc.devRef .tc main_arg4) := (W2_arr m ρ c 2).trans (((dat0 (V1 m ρ) c).arrAt_in 2 rfl _).trans (A_eq0 (V1 m ρ) c 2))
    _ = W0 m ρ c (Proc.devRef .tc main_arg4) := StableHlo.after_of_writes_sub hostOps0 _ hostOps0_writes (show main_arg4 ∉ hostOps0_W by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := (W4_arr m ρ c 3).trans (((dat1 (V3 m ρ) c).arrAt_in 3 rfl _).trans (A_eq1 (V3 m ρ) c 3))
    _ = W2 m ρ c (Proc.devRef .tc main_arg5) := StableHlo.after_of_writes_sub hostOps1 _ hostOps1_writes (show main_arg5 ∉ hostOps1_W by decide)
    _ = W1 m ρ c (Proc.devRef .tc main_arg5) := (W2_arr m ρ c 3).trans (((dat0 (V1 m ρ) c).arrAt_in 3 rfl _).trans (A_eq0 (V1 m ρ) c 3))
    _ = W0 m ρ c (Proc.devRef .tc main_arg5) := StableHlo.after_of_writes_sub hostOps0 _ hostOps0_writes (show main_arg5 ∉ hostOps0_W by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (show main_arg6 ∉ hostOps1_W by decide)
    _ = W1 m ρ c (Proc.devRef .tc main_arg6) := W2_of_ne m ρ c main_arg6 (by decide)
    _ = W0 m ρ c (Proc.devRef .tc main_arg6) := StableHlo.after_of_writes_sub hostOps0 _ hostOps0_writes (show main_arg6 ∉ hostOps0_W by decide)
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ hostOps1_writes (show main_arg7 ∉ hostOps1_W by decide)
    _ = W1 m ρ c (Proc.devRef .tc main_arg7) := W2_of_ne m ρ c main_arg7 (by decide)
    _ = W0 m ρ c (Proc.devRef .tc main_arg7) := StableHlo.after_of_writes_sub hostOps0 _ hostOps0_writes (show main_arg7 ∉ hostOps0_W by decide)
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_writes_sub hostOps1 _ hostOps1_writes (show main_arg8 ∉ hostOps1_W by decide)
    _ = W1 m ρ c (Proc.devRef .tc main_arg8) := W2_of_ne m ρ c main_arg8 (by decide)
    _ = W0 m ρ c (Proc.devRef .tc main_arg8) := StableHlo.after_of_writes_sub hostOps0 _ hostOps0_writes (show main_arg8 ∉ hostOps0_W by decide)
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := (W4_arr m ρ c 9).trans (((dat1 (V3 m ρ) c).arrAt_in 9 rfl _).trans (A_eq1 (V3 m ρ) c 9))
    _ = W2 m ρ c (Proc.devRef .tc main_arg9) := StableHlo.after_of_writes_sub hostOps1 _ hostOps1_writes (show main_arg9 ∉ hostOps1_W by decide)
    _ = W1 m ρ c (Proc.devRef .tc main_arg9) := W2_of_ne m ρ c main_arg9 (by decide)
    _ = W0 m ρ c (Proc.devRef .tc main_arg9) := StableHlo.after_of_writes_sub hostOps0 _ hostOps0_writes (show main_arg9 ∉ hostOps0_W by decide)
    _ = m ((c : Thread nD τ).loc main_arg9) := rfl

theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_writes_sub hostOps1 _ hostOps1_writes (show main_arg10 ∉ hostOps1_W by decide)
    _ = W1 m ρ c (Proc.devRef .tc main_arg10) := W2_of_ne m ρ c main_arg10 (by decide)
    _ = W0 m ρ c (Proc.devRef .tc main_arg10) := StableHlo.after_of_writes_sub hostOps0 _ hostOps0_writes (show main_arg10 ∉ hostOps0_W by decide)
    _ = m ((c : Thread nD τ).loc main_arg10) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]
    unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c)⟩) (run m ρ)

/-- The result: the projection region's output array after its last write-back, beside the unchanged arguments. -/
theorem run_value : θ_run defs (onTc (τ := τ) (main (F := F))) ⟨m, fun _ => 0, ρ⟩ (fun r => ∀ c : Dev nD,
      r.2.mem ((c.tc : Thread nD τ).loc main_v33) = (dat1 (V3 m ρ) c).arrAt 11 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v33 (by decide))).trans (W4_arr m ρ c 11),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c)⟩) (run m ρ)

end Cert.KernelIdeal.Frame

end
-- ==== Proof.KI.Chain.lean ====
import proofs.«134907_j57415122812990_1_alg».proof.Proof.KI.Run
import Idealize.ShloMosaic.Lib.StableHlo.Run
import Idealize.ShloMosaic.PureOps.Ideal
import Idealize.ShloMosaic.PureOps.Ideal.Laws

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-! # The buffers the regions read, as terms of the launch memory (at the ideal instance) -/

variable (m : (ℓ : Loc nD τ sig) → Buf (Elt Ideal) ℓ) (ρ : Dev nD → PrngReg)

/-- A buffer no operation of the second host stretch writes is as the statistics region left it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-- An input array of the statistics region is as the region found it. -/
theorem W2_in (c : Dev nD) (w : Fin cfg0.W) (hin : (cfg0.win w).isOut = false) :
    W2 m ρ c (Proc.devRef .tc (Pipeline.arrRef spec0 w)) = V1 m ρ c (Pipeline.arrRef spec0 w) :=
  (W2_arr m ρ c w).trans (((dat0 (V1 m ρ) c).arrAt_in w hin _).trans (A_eq0 (V1 m ρ) c w))

theorem W1_of (c : Dev nD) (r : Ref sig .tc) (h : r ∉ hostOps0_W) : W1 m ρ c (Proc.devRef .tc r) = m ((c : Thread nD τ).loc r) :=
  (StableHlo.after_of_writes_sub hostOps0 _ hostOps0_writes h).trans rfl

/-! ## What the statistics region reads -/
theorem V1_arg0 (c : Dev nD) : V1 m ρ c main_arg0 = m ((c : Thread nD τ).loc main_arg0) := W1_of m ρ c main_arg0 (by decide)
theorem V1_arg4 (c : Dev nD) : V1 m ρ c main_arg4 = m ((c : Thread nD τ).loc main_arg4) := W1_of m ρ c main_arg4 (by decide)
theorem V1_arg5 (c : Dev nD) : V1 m ρ c main_arg5 = m ((c : Thread nD τ).loc main_arg5) := W1_of m ρ c main_arg5 (by decide)

/-! ## What the projection region reads -/
theorem V3_arg0 (c : Dev nD) : V3 m ρ c main_arg0 = m ((c : Thread nD τ).loc main_arg0) :=
  (W3_of m ρ c main_arg0 (by decide)).trans ((W2_in m ρ c 0 rfl).trans (V1_arg0 m ρ c))
theorem V3_v21 (c : Dev nD) : V3 m ρ c main_v21 = V1 m ρ c main_v21 :=
  (W3_of m ρ c main_v21 (by decide)).trans (W2_in m ρ c 1 rfl)
theorem V3_arg4 (c : Dev nD) : V3 m ρ c main_arg4 = m ((c : Thread nD τ).loc main_arg4) :=
  (W3_of m ρ c main_arg4 (by decide)).trans ((W2_in m ρ c 2 rfl).trans (V1_arg4 m ρ c))
theorem V3_arg5 (c : Dev nD) : V3 m ρ c main_arg5 = m ((c : Thread nD τ).loc main_arg5) :=
  (W3_of m ρ c main_arg5 (by decide)).trans ((W2_in m ρ c 3 rfl).trans (V1_arg5 m ρ c))
theorem V3_v22 (c : Dev nD) : V3 m ρ c main_v22 = V1 m ρ c main_v22 :=
  (W3_of m ρ c main_v22 (by decide)).trans (W2_in m ρ c 4 rfl)
theorem V3_v23 (c : Dev nD) : V3 m ρ c main_v23 = V1 m ρ c main_v23 :=
  (W3_of m ρ c main_v23 (by decide)).trans (W2_of_ne m ρ c main_v23 (by decide))
theorem V3_v24 (c : Dev nD) : V3 m ρ c main_v24 = V1 m ρ c main_v24 :=
  (W3_of m ρ c main_v24 (by decide)).trans (W2_of_ne m ρ c main_v24 (by decide))
theorem V3_v25 (c : Dev nD) : V3 m ρ c main_v25 = V1 m ρ c main_v25 :=
  (W3_of m ρ c main_v25 (by decide)).trans (W2_of_ne m ρ c main_v25 (by decide))
theorem V3_arg9 (c : Dev nD) : V3 m ρ c main_arg9 = m ((c : Thread nD τ).loc main_arg9) :=
  (W3_of m ρ c main_arg9 (by decide)).trans ((W2_of_ne m ρ c main_arg9 (by decide)).trans (W1_of m ρ c main_arg9 (by decide)))

/-- The mean row is the sums row divided by the row count. -/
theorem V3_v28 (c : Dev nD) : (V3 m ρ c main_v28 : S1x256.Idx → EReal)
    = Host.divf (F := Ideal) (W2 m ρ c (Proc.devRef .tc main_v26_0)) (broadcastInDim S1x256 ![] bcast_S_S1x256 (constant (F := Ideal) S_ .f32 0x47C35000#32)) := by
  show StableHlo.after hostOps1 (W2 m ρ c) (Proc.devRef .tc main_v28) = _
  after_results

/-- The variance row is the squares row divided by the row count, minus the squared mean row. -/
theorem V3_v32 (c : Dev nD) : (V3 m ρ c main_v32 : S1x256.Idx → EReal)
    = subf (F := Ideal) (Host.divf (F := Ideal) (W2 m ρ c (Proc.devRef .tc main_v26_1)) (broadcastInDim S1x256 ![] bcast_S_S1x256 (constant (F := Ideal) S_ .f32 0x47C35000#32)))
        (mulf (F := Ideal) (Host.divf (F := Ideal) (W2 m ρ c (Proc.devRef .tc main_v26_0)) (broadcastInDim S1x256 ![] bcast_S_S1x256 (constant (F := Ideal) S_ .f32 0x47C35000#32)))
          (Host.divf (F := Ideal) (W2 m ρ c (Proc.devRef .tc main_v26_0)) (broadcastInDim S1x256 ![] bcast_S_S1x256 (constant (F := Ideal) S_ .f32 0x47C35000#32)))) := by
  show StableHlo.after hostOps1 (W2 m ρ c) (Proc.devRef .tc main_v32) = _
  after_results

/-- The bias, scale, shift and projection-bias rows are the arguments recast to one row. -/
theorem V1_v22 (c : Dev nD) : (V1 m ρ c main_v22 : S1x256.Idx → EReal) = shapeCast S1x256 (m ((c : Thread nD τ).loc main_arg6) : S256.Idx → EReal) shapeCasts_S256_S1x256 := by
  show StableHlo.after hostOps0 (W0 m ρ c) (Proc.devRef .tc main_v22) = _
  after_results
  rfl
theorem V1_v23 (c : Dev nD) : (V1 m ρ c main_v23 : S1x256.Idx → EReal) = shapeCast S1x256 (m ((c : Thread nD τ).loc main_arg7) : S256.Idx → EReal) shapeCasts_S256_S1x256 := by
  show StableHlo.after hostOps0 (W0 m ρ c) (Proc.devRef .tc main_v23) = _
  after_results
  rfl
theorem V1_v24 (c : Dev nD) : (V1 m ρ c main_v24 : S1x256.Idx → EReal) = shapeCast S1x256 (m ((c : Thread nD τ).loc main_arg8) : S256.Idx → EReal) shapeCasts_S256_S1x256 := by
  show StableHlo.after hostOps0 (W0 m ρ c) (Proc.devRef .tc main_v24) = _
  after_results
  rfl
theorem V1_v25 (c : Dev nD) : (V1 m ρ c main_v25 : S1x160.Idx → EReal) = shapeCast S1x160 (m ((c : Thread nD τ).loc main_arg10) : S160.Idx → EReal) shapeCasts_S160_S1x160 := by
  show StableHlo.after hostOps0 (W0 m ρ c) (Proc.devRef .tc main_v25) = _
  after_results
  rfl

end Cert.KernelIdeal.Frame

end
-- ==== Proof.KI.Value1.lean ====
import proofs.«134907_j57415122812990_1_alg».proof.Proof.KI.Arr0
import proofs.«134907_j57415122812990_1_alg».proof.Proof.KI.Chain
import Idealize.ShloMosaic.Lib.IdealHost

set_option maxRecDepth 16384
set_option maxHeartbeats 400000

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-! # The kernel's result at the ideal instance, entry by entry

Every entry of the result array is the specification's `out` of the activation, its column mean and its column
variance in the mean-of-squares form, over the launch memory's arrays. -/

open Cert.KernelIdeal.Pay Cert.Alg Idealize.ShloMosaic.ValueIdx

variable (m : (ℓ : Loc nD τ sig) → Buf (Elt Ideal) ℓ) (ρ : Dev nD → PrngReg)

/-- The launch memory's arrays, entry by entry; the neighbourhood means are the first host stretch's result. -/
abbrev Xm (c : Dev nD) (i : Fin 100000) (a : Fin 128) : EReal := (m ((c : Thread nD τ).loc main_arg0) : S100000x128.Idx → EReal) (ix2 i a)
abbrev NBm (c : Dev nD) (i : Fin 100000) (a : Fin 128) : EReal := (V1 m ρ c main_v21 : S100000x128.Idx → EReal) (ix2 i a)
abbrev WSm (c : Dev nD) (a : Fin 128) (k : Fin 256) : EReal := (m ((c : Thread nD τ).loc main_arg4) : S128x256.Idx → EReal) (ix2 a k)
abbrev WNm (c : Dev nD) (a : Fin 128) (k : Fin 256) : EReal := (m ((c : Thread nD τ).loc main_arg5) : S128x256.Idx → EReal) (ix2 a k)
abbrev Bm (c : Dev nD) (k : Fin 256) : EReal := (m ((c : Thread nD τ).loc main_arg6) : S256.Idx → EReal) (ix1 k)
abbrev Gm (c : Dev nD) (k : Fin 256) : EReal := (m ((c : Thread nD τ).loc main_arg7) : S256.Idx → EReal) (ix1 k)
abbrev BEm (c : Dev nD) (k : Fin 256) : EReal := (m ((c : Thread nD τ).loc main_arg8) : S256.Idx → EReal) (ix1 k)
abbrev FWm (c : Dev nD) (k : Fin 256) (j : Fin 160) : EReal := (m ((c : Thread nD τ).loc main_arg9) : S256x160.Idx → EReal) (ix2 k j)
abbrev FBm (c : Dev nD) (j : Fin 160) : EReal := (m ((c : Thread nD τ).loc main_arg10) : S160.Idx → EReal) (ix1 j)
abbrev Rm (c : Dev nD) (i : Fin 100000) (k : Fin 256) : EReal := Cert.Spec.rst (Xm m c) (NBm m ρ c) (WSm m c) (WNm m c) (Bm m c) i k

/-- A vector recast to one row reads the vector. -/
theorem row256_apply (x : S256.Idx → EReal) (h : S256.ShapeCasts S1x256) (k : Fin 256) :
    shapeCast S1x256 x h (ix2 (0 : Fin 1) k) = x (ix1 k) :=
  (shapeCast_addUnit_apply (n := 1) ![256] x h (ix2 (0 : Fin 1) k)).trans
    (congrArg x (funext fun a => by match a with | ⟨0, _⟩ => rfl))
theorem row160_apply (x : S160.Idx → EReal) (h : S160.ShapeCasts S1x160) (j : Fin 160) :
    shapeCast S1x160 x h (ix2 (0 : Fin 1) j) = x (ix1 j) :=
  (shapeCast_addUnit_apply (n := 1) ![160] x h (ix2 (0 : Fin 1) j)).trans
    (congrArg x (funext fun a => by match a with | ⟨0, _⟩ => rfl))

/-- The activation the statistics region sums is the launch memory's. -/
theorem Rf_V1 (c : Dev nD) (i : Fin 100000) (k : Fin 256) : Rf (V1 m ρ) c i k = Rm m ρ c i k := by
  have hX : Xf (V1 m ρ) c = Xm m c := funext fun i => funext fun a => by
    show (V1 m ρ c main_arg0 : S100000x128.Idx → EReal) (ix2 i a) = _; rw [V1_arg0]
  have hWS : WSf (V1 m ρ) c = WSm m c := funext fun a => funext fun k => by
    show (V1 m ρ c main_arg4 : S128x256.Idx → EReal) (ix2 a k) = _; rw [V1_arg4]
  have hWN : WNf (V1 m ρ) c = WNm m c := funext fun a => funext fun k => by
    show (V1 m ρ c main_arg5 : S128x256.Idx → EReal) (ix2 a k) = _; rw [V1_arg5]
  have hB : Bf (V1 m ρ) c = Bm m c := funext fun k => by
    show (V1 m ρ c main_v22 : S1x256.Idx → EReal) (ix2 (0 : Fin 1) k) = _; rw [V1_v22, row256_apply]
  show Cert.Spec.rst (Xf (V1 m ρ) c) (NBf (V1 m ρ) c) (WSf (V1 m ρ) c) (WNf (V1 m ρ) c) (Bf (V1 m ρ) c) i k = _
  rw [hX, hWS, hWN, hB]

theorem Rf_V1' (c : Dev nD) : Rf (V1 m ρ) c = Rm m ρ c := funext fun i => funext fun k => Rf_V1 m ρ c i k

/-- The mean row the projection region reads. -/
theorem mean_row (c : Dev nD) (k : Fin 256) :
    (V3 m ρ c main_v28 : S1x256.Idx → EReal) (ix2 (0 : Fin 1) k) = Cert.Spec.mean (Rm m ρ c) k := by
  have e5 : W2 m ρ c (Proc.devRef .tc main_v26_0) = (dat0 (V1 m ρ) c).arrAt 5 cfg0.N := W2_arr m ρ c 5
  rw [V3_v28, hostDivf_apply, broadcastInDim_scalar_apply, constant_apply, e5, arr5_apply, Rf_V1']
  rfl

/-- The variance row the projection region reads. -/
theorem var_row (c : Dev nD) (k : Fin 256) :
    (V3 m ρ c main_v32 : S1x256.Idx → EReal) (ix2 (0 : Fin 1) k) = Cert.Spec.varK (Rm m ρ c) k := by
  have e5 : W2 m ρ c (Proc.devRef .tc main_v26_0) = (dat0 (V1 m ρ) c).arrAt 5 cfg0.N := W2_arr m ρ c 5
  have e6 : W2 m ρ c (Proc.devRef .tc main_v26_1) = (dat0 (V1 m ρ) c).arrAt 6 cfg0.N := W2_arr m ρ c 6
  rw [V3_v32, subf_apply, mulf_apply, hostDivf_apply, hostDivf_apply, broadcastInDim_scalar_apply, constant_apply, e5, e6, arr5_apply, arr6_apply, Rf_V1']
  rfl

/-- Tile `t` of the projection region: its activation is the launch memory's at rows `2000 t + q`. -/
theorem tile1_eq (c : Dev nD) (t : Fin cfg1.N) (q : Fin 2000) (r : Fin 100000) (hr : r.val = 2000 * t.val + q.val) (k : Fin 256) :
    tileRst (iblk1 (V3 m ρ) c 0 t) (iblk1 (V3 m ρ) c 1 t) (iblk1 (V3 m ρ) c 2 t) (iblk1 (V3 m ρ) c 3 t) (iblk1 (V3 m ρ) c 4 t) q k
      = Rm m ρ c r k := by
  unfold tileRst
  show _ = Cert.Spec.rst _ _ _ _ _ _ _
  unfold Cert.Spec.rst
  rw [iblk1_whole_2, iblk1_whole_3, iblk1_whole_4, V3_arg4, V3_arg5, V3_v22, V1_v22, row256_apply]
  refine congrArg (max · 0) (congrArg₂ (· + ·) (congrArg₂ (· + ·) ?_ ?_) rfl)
  · refine Finset.sum_congr rfl fun a _ => ?_
    rw [iblk1_rows_0 (V3 m ρ) c t (ix2 q a) (ix2 r a) hr rfl, V3_arg0]
  · refine Finset.sum_congr rfl fun a _ => ?_
    rw [iblk1_rows_1 (V3 m ρ) c t (ix2 q a) (ix2 r a) hr rfl, V3_v21]

/-- What point `t` writes back, entry by entry: row `q` of the tile is row `r = 2000 t + q` of the result. -/
theorem flushed11_apply (c : Dev nD) (t : Fin cfg1.N) (q : Fin 2000) (j : Fin 160) (r : Fin 100000) (hr : r.val = 2000 * t.val + q.val) :
    ((dat1 (V3 m ρ) c).after 11 t : S2000x160.Idx → EReal) (ix2 q j)
      = Cert.Spec.out (Rm m ρ c) (Cert.Spec.mean (Rm m ρ c)) (Cert.Spec.varK (Rm m ρ c)) (Gm m c) (BEm m c) (FWm m c) (FBm m c) r j := by
  rw [after1_11, out1_eq, pay12_apply]
  unfold Cert.Spec.out
  rw [iblk1_whole_10, V3_v25, V1_v25, row160_apply]
  refine congrArg₂ (· + ·) ?_ rfl
  refine Finset.sum_congr rfl fun k _ => ?_
  rw [tile1_eq m ρ c t q r hr k, iblk1_whole_5, iblk1_whole_6, iblk1_whole_7, iblk1_whole_8, iblk1_whole_9, mean_row, var_row,
    V3_v23, V1_v23, row256_apply, V3_v24, V1_v24, row256_apply, V3_arg9]

end Cert.KernelIdeal.Frame

end
-- ==== Proof.KI.Final1.lean ====
import proofs.«134907_j57415122812990_1_alg».proof.Proof.KI.Frame1
import Idealize.ShloMosaic.Lib.Pipeline.Value
import Idealize.ShloMosaic.Lib.ValueIdx

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The projection region's result array after the run

The output window's block at point `t` is rows `2000 t … 2000 t + 1999` of the 100000 × 160 result, all 160 columns,
and every point writes its block back: the fifty blocks tile the array, so the entry at row `r` is the entry at row
`r % 2000` of what point `r / 2000` left in its tile. -/

section Region
variable (V : (c : Dev nD) → (b : Ref sig .tc) → Buf (Elt F) ((c : Thread nD τ).loc b))

/-- The output window over the grid: the block index is the point along the rows and zero along the columns, and no
    block is cut. -/
theorem win1_11_facts : ∀ t : Fin cfg1.N, win1_11.index t 0 = t.val ∧ win1_11.index t 1 = 0
    ∧ win1_11.xsize (grid1.coords t) 0 = 2000 ∧ win1_11.xsize (grid1.coords t) 1 = 160 :=
  (by decide +kernel : ∀ t : Fin grid1.N, win1_11.index t 0 = t.val ∧ win1_11.index t 1 = 0
    ∧ win1_11.xsize (grid1.coords t) 0 = 2000 ∧ win1_11.xsize (grid1.coords t) 1 = 160)

/-- The tile a row lies in is one of the fifty points. -/
theorem tile_lt (i : S100000x160.Idx) : (i 0).val / 2000 < cfg1.N := by
  have h0 : (i 0).val < 100000 := (i 0).isLt
  rw [show cfg1.N = 50 from N_1]; omega

theorem row_lt (i : S100000x160.Idx) : (i 0).val % 2000 < 2000 := Nat.mod_lt _ (by decide)

theorem col_lt (i : S100000x160.Idx) : (i 1).val < 160 := (i 1).isLt

/-- What a point left in its tile, at equal points and equal positions. -/
theorem after11_congr (c : Dev nD) {t t' : Fin cfg1.N} (ht : t = t') (x x' : S2000x160.Idx) (hx : x = x') :
    ((dat1 V c).after 11 t : S2000x160.Idx → Elt F .f32) x = ((dat1 V c).after 11 t' : S2000x160.Idx → Elt F .f32) x' := by
  subst ht; subst hx; rfl

/-- An element the write-back at point `t` writes, at its place `k` in the array: row `2000 t + y₀`, column `y₁`. -/
theorem flushed11_at (c : Dev nD) (t : Fin cfg1.N) (y : ((cfg1.win 11).xblock (cfg1.grid.coords t)).Idx) (k : S100000x160.Idx)
    (hk : k = ((cfg1.win 11).blk t).view.emb y) :
    (_root_.cast (congrArg (Elt F) ((cfg1.win 11).blk t).view.elt_eq.symm) ((dat1 V c).flushed 11 t y) : Elt F .f32)
      = ((dat1 V c).after 11 ⟨(k 0).val / 2000, tile_lt k⟩ : S2000x160.Idx → Elt F .f32)
          (ValueIdx.ix2 ⟨(k 0).val % 2000, row_lt k⟩ ⟨(k 1).val, col_lt k⟩) := by
  obtain ⟨hi0, hi1, hx0, hx1⟩ := win1_11_facts t
  have hy0 : (y 0).val < 2000 := Nat.lt_of_lt_of_eq (y 0).isLt hx0
  have hy1 : (y 1).val < 160 := Nat.lt_of_lt_of_eq (y 1).isLt hx1
  have e0 : (k 0).val = t.val * 2000 + (y 0).val := by
    rw [hk]; show win1_11.index t 0 * 2000 + 1 * (y 0).val = _; rw [hi0]; omega
  have e1 : (k 1).val = (y 1).val := by
    rw [hk]; show win1_11.index t 1 * 160 + 1 * (y 1).val = _; rw [hi1]; omega
  show ((dat1 V c).after 11 t : S2000x160.Idx → Elt F .f32) ((cfg1.win 11).xinj (cfg1.grid.coords t) y) = _
  refine after11_congr V c (Fin.ext ?_) _ _ (funext fun a => Fin.ext ?_)
  · show t.val = (k 0).val / 2000
    rw [e0]; omega
  · match a with
    | ⟨0, _⟩ => show (y 0).val = (k 0).val % 2000; rw [e0]; omega
    | ⟨1, _⟩ => show (y 1).val = (k 1).val; rw [e1]

/-- The result array after the run, entry by entry. -/
theorem final1_apply (c : Dev nD) (i : S100000x160.Idx) :
    (dat1 V c).arrAt 11 cfg1.N i
      = ((dat1 V c).after 11 ⟨(i 0).val / 2000, tile_lt i⟩ : S2000x160.Idx → Elt F .f32)
          (ValueIdx.ix2 ⟨(i 0).val % 2000, row_lt i⟩ ⟨(i 1).val, col_lt i⟩) := by
  refine (dat1 V c).arrAt_forall_of_cover 11
    (fun (k : S100000x160.Idx) (v : Elt F .f32) =>
      v = ((dat1 V c).after 11 ⟨(k 0).val / 2000, tile_lt k⟩ : S2000x160.Idx → Elt F .f32)
            (ValueIdx.ix2 ⟨(k 0).val % 2000, row_lt k⟩ ⟨(k 1).val, col_lt k⟩))
    (fun t _ y => flushed11_at V c t y _ rfl) (fun k => ?_) i
  have h0 : (k 0 : Nat) < 100000 := (k 0).isLt
  have h1 : (k 1 : Nat) < 160 := (k 1).isLt
  refine ⟨⟨(k 0 : Nat) / 2000, tile_lt k⟩, flush1_11 _, ?_⟩
  obtain ⟨hi0, hi1, hx0, hx1⟩ := win1_11_facts ⟨(k 0 : Nat) / 2000, tile_lt k⟩
  show k ∈ ((View.whole main_v33).slice (win1_11.rect ⟨(k 0 : Nat) / 2000, tile_lt k⟩)).set
  rw [View.set_slice_whole, Rect.mem_set_unit]
  intro a
  match a with
  | ⟨0, _⟩ =>
    show win1_11.index ⟨(k 0 : Nat) / 2000, tile_lt k⟩ 0 * win1_11.size 0 ≤ (k 0 : Nat)
      ∧ (k 0 : Nat) < win1_11.index ⟨(k 0 : Nat) / 2000, tile_lt k⟩ 0 * win1_11.size 0 + win1_11.xsize (grid1.coords ⟨(k 0 : Nat) / 2000, tile_lt k⟩) 0
    rw [hi0, hx0, show win1_11.size 0 = 2000 from rfl]
    show (k 0 : Nat) / 2000 * 2000 ≤ (k 0 : Nat) ∧ (k 0 : Nat) < (k 0 : Nat) / 2000 * 2000 + 2000
    omega
  | ⟨1, _⟩ =>
    show win1_11.index ⟨(k 0 : Nat) / 2000, tile_lt k⟩ 1 * win1_11.size 1 ≤ (k 1 : Nat)
      ∧ (k 1 : Nat) < win1_11.index ⟨(k 0 : Nat) / 2000, tile_lt k⟩ 1 * win1_11.size 1 + win1_11.xsize (grid1.coords ⟨(k 0 : Nat) / 2000, tile_lt k⟩) 1
    rw [hi1, hx1]
    omega

end Region

end Cert.KernelIdeal.Frame

end
-- ==== Proof.KI.Result.lean ====
import proofs.«134907_j57415122812990_1_alg».proof.Proof.KI.Value1
import proofs.«134907_j57415122812990_1_alg».proof.Proof.KI.Final1

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-! # The kernel's result array, entry by entry -/

open Cert.KernelIdeal.Pay Cert.Alg Idealize.ShloMosaic.ValueIdx

variable (m : (ℓ : Loc nD τ sig) → Buf (Elt Ideal) ℓ) (ρ : Dev nD → PrngReg)

/-- Entry `(i, j)` of the result is the specification's `out` at `(i, j)`: row `i` lies in tile `i / 2000` at
    position `i % 2000`. -/
theorem K_value (c : Dev nD) (i : Fin 100000) (j : Fin 160) :
    ((dat1 (V3 m ρ) c).arrAt 11 cfg1.N : S100000x160.Idx → EReal) (ix2 i j)
      = Cert.Spec.out (Rm m ρ c) (Cert.Spec.mean (Rm m ρ c)) (Cert.Spec.varK (Rm m ρ c)) (Gm m c) (BEm m c) (FWm m c) (FBm m c) i j := by
  rw [final1_apply (V3 m ρ) c (ix2 i j)]
  exact flushed11_apply m ρ c _ _ _ i (Nat.div_add_mod i.val 2000).symm

end Cert.KernelIdeal.Frame

end
-- ==== Proof.RefRun.lean ====
/- The run of the reference program, written out: its operations in order with the three calls of module-local
   functions inlined at their call sites, the result as a composition of named stages, and the statement that every
   weakly fair execution ends with the result buffer at that composition of the arguments, the arguments unchanged. -/
import proofs.«134907_j57415122812990_1_alg».proof.ReferenceIdeal
import proofs.«134907_j57415122812990_1_alg».proof.Proof.Gen.ReferenceIdeal
import Idealize.ShloMosaic.Lib.StableHlo
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 85 operations, in order. Counting from one, operations 35-37 are the body of the rectifier call (zero, its broadcast, the
    maximum) over that call's buffers; operations 44-65 are the body of the variance call over its buffers (the column
    sums, their division by the row count, the centred squares, their column sums divided by the row count minus the
    correction, the comparison of that divisor with zero), ending in the three operations of the selection it calls. -/
abbrev ops : List (HloOp τ sig (Elt F)) :=
  [
    StableHlo.nullary main_c (constantI S_ 32 0#32),
    StableHlo.unary main_c main_v0 (broadcastInDim S1600000 ![] bcast_S_S1600000 : (⟨S_, .i32⟩ : BufTy).Contents (Elt F) → (⟨S1600000, .i32⟩ : BufTy).Contents (Elt F)),
    StableHlo.binary main_arg1 main_v0 main_v1 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v2 (broadcastInDim S1600000 ![] bcast_S_S1600000 : (⟨S_, .i32⟩ : BufTy).Contents (Elt F) → (⟨S1600000, .i32⟩ : BufTy).Contents (Elt F)),
    StableHlo.binary main_arg1 main_v2 main_v3 (addi : (⟨S1600000, .i32⟩ : BufTy).Contents (Elt F) → (⟨S1600000, .i32⟩ : BufTy).Contents (Elt F) → (⟨S1600000, .i32⟩ : BufTy).Contents (Elt F)),
    StableHlo.ternary main_v1 main_v3 main_arg1 main_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v4 main_v5 (broadcastInDim S1600000x1 ![0] bcast_S1600000_S1600000x1_0 : (⟨S1600000, .i32⟩ : BufTy).Contents (Elt F) → (⟨S1600000x1, .i32⟩ : BufTy).Contents (Elt F)),
    StableHlo.binary main_arg0 main_v5 main_v6 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_arg3 main_v7 (broadcastInDim S1600000x1 ![0] bcast_S1600000_S1600000x1_0 : (⟨S1600000, .f32⟩ : BufTy).Contents (Elt F) → (⟨S1600000x1, .f32⟩ : BufTy).Contents (Elt F)),
    StableHlo.unary main_v7 main_v8 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v6 main_v8 main_v9 (mulf : (⟨S1600000x128, .f32⟩ : BufTy).Contents (Elt F) → (⟨S1600000x128, .f32⟩ : BufTy).Contents (Elt F) → (⟨S1600000x128, .f32⟩ : BufTy).Contents (Elt F)),
    StableHlo.nullary main_cst (constant S_ .f32 0x00000000#32),
    StableHlo.unary main_cst main_v10 (broadcastInDim S100000x128 ![] bcast_S_S100000x128 : (⟨S_, .f32⟩ : BufTy).Contents (Elt F) → (⟨S100000x128, .f32⟩ : BufTy).Contents (Elt F)),
    StableHlo.unary main_arg2 main_v11 (broadcastInDim S1600000x1 ![0] bcast_S1600000_S1600000x1_0 : (⟨S1600000, .i32⟩ : BufTy).Contents (Elt F) → (⟨S1600000x1, .i32⟩ : BufTy).Contents (Elt F)),
    StableHlo.ternary main_v10 main_v11 main_v9 main_v12 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_1 (constant S_ .f32 0x3F800000#32),
    StableHlo.unary main_cst_1 main_v13 (broadcastInDim S1600000 ![] bcast_S_S1600000 : (⟨S_, .f32⟩ : BufTy).Contents (Elt F) → (⟨S1600000, .f32⟩ : BufTy).Contents (Elt F)),
    StableHlo.nullary main_cst_2 (constant S_ .f32 0x00000000#32),
    StableHlo.unary main_cst_2 main_v14 (broadcastInDim S100000 ![] bcast_S_S100000 : (⟨S_, .f32⟩ : BufTy).Contents (Elt F) → (⟨S100000, .f32⟩ : BufTy).Contents (Elt F)),
    StableHlo.unary main_arg2 main_v15 (broadcastInDim S1600000x1 ![0] bcast_S1600000_S1600000x1_0 : (⟨S1600000, .i32⟩ : BufTy).Contents (Elt F) → (⟨S1600000x1, .i32⟩ : BufTy).Contents (Elt F)),
    StableHlo.ternary main_v14 main_v15 main_v13 main_v16 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_3 (constant S_ .f32 0x3F800000#32),
    StableHlo.unary main_cst_3 main_v17 (broadcastInDim S100000 ![] bcast_S_S100000 : (⟨S_, .f32⟩ : BufTy).Contents (Elt F) → (⟨S100000, .f32⟩ : BufTy).Contents (Elt F)),
    StableHlo.binary main_v16 main_v17 main_v18 (maximumf : (⟨S100000, .f32⟩ : BufTy).Contents (Elt F) → (⟨S100000, .f32⟩ : BufTy).Contents (Elt F) → (⟨S100000, .f32⟩ : BufTy).Contents (Elt F)),
    StableHlo.unary main_v18 main_v19 (broadcastInDim S100000x1 ![0] bcast_S100000_S100000x1_0 : (⟨S100000, .f32⟩ : BufTy).Contents (Elt F) → (⟨S100000x1, .f32⟩ : BufTy).Contents (Elt F)),
    StableHlo.unary main_v19 main_v20 (broadcastInDim S100000x128 ![0, 1] bcast_S100000x1_S100000x128_0_1 : (⟨S100000x1, .f32⟩ : BufTy).Contents (Elt F) → (⟨S100000x128, .f32⟩ : BufTy).Contents (Elt F)),
    StableHlo.binary main_v12 main_v20 main_v21 (Host.divf : (⟨S100000x128, .f32⟩ : BufTy).Contents (Elt F) → (⟨S100000x128, .f32⟩ : BufTy).Contents (Elt F) → (⟨S100000x128, .f32⟩ : BufTy).Contents (Elt F)),
    StableHlo.binary main_arg0 main_arg4 main_v22 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    StableHlo.binary main_v21 main_arg5 main_v23 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    StableHlo.binary main_v22 main_v23 main_v24 (addf : (⟨S100000x256, .f32⟩ : BufTy).Contents (Elt F) → (⟨S100000x256, .f32⟩ : BufTy).Contents (Elt F) → (⟨S100000x256, .f32⟩ : BufTy).Contents (Elt F)),
    StableHlo.unary main_arg6 main_v25 (broadcastInDim S1x256 ![1] bcast_S256_S1x256_1 : (⟨S256, .f32⟩ : BufTy).Contents (Elt F) → (⟨S1x256, .f32⟩ : BufTy).Contents (Elt F)),
    StableHlo.unary main_v25 main_v26 (broadcastInDim S100000x256 ![0, 1] bcast_S1x256_S100000x256_0_1 : (⟨S1x256, .f32⟩ : BufTy).Contents (Elt F) → (⟨S100000x256, .f32⟩ : BufTy).Contents (Elt F)),
    StableHlo.binary main_v24 main_v26 main_v27 (addf : (⟨S100000x256, .f32⟩ : BufTy).Contents (Elt F) → (⟨S100000x256, .f32⟩ : BufTy).Contents (Elt F) → (⟨S100000x256, .f32⟩ : BufTy).Contents (Elt F)),
    StableHlo.TRef.nullary main_call0.cst (constant S_ .f32 0x00000000#32),
    StableHlo.TRef.unary main_call0.cst main_call0.v0 (broadcastInDim S100000x256 ![] bcast_S_S100000x256),
    StableHlo.TRef.binary (.of main_v27 : TRef sig ⟨S100000x256, .f32⟩) main_call0.v0 main_call0.v1 maximumf,
    StableHlo.nullary main_cst_4 (constant S_ .f32 0x00000000#32),
    StableHlo.binary main_v28 main_cst_4 main_v29 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    StableHlo.nullary main_cst_5 (constant S_ .f32 0x47C35000#32),
    StableHlo.unary main_cst_5 main_v30 (broadcastInDim S256 ![] bcast_S_S256 : (⟨S_, .f32⟩ : BufTy).Contents (Elt F) → (⟨S256, .f32⟩ : BufTy).Contents (Elt F)),
    StableHlo.binary main_v29 main_v30 main_v31 (Host.divf : (⟨S256, .f32⟩ : BufTy).Contents (Elt F) → (⟨S256, .f32⟩ : BufTy).Contents (Elt F) → (⟨S256, .f32⟩ : BufTy).Contents (Elt F)),
    StableHlo.nullary main_c_6 (constantI S_ 32 0#32),
    StableHlo.TRef.nullary main_call1.cst (constant S_ .f32 0x00000000#32),
    StableHlo.TRef.binary (.of main_v28 : TRef sig ⟨S100000x256, .f32⟩) main_call1.cst main_call1.v0 (fun x v => Host.reduceAdd x v reducesTo_S100000x256_S256_d0 h_S_),
    StableHlo.TRef.unary main_call1.v0 main_call1.v1 (broadcastInDim S1x256 ![1] bcast_S256_S1x256_1),
    StableHlo.TRef.nullary main_call1.cst_0 (constant S_ .f32 0x47C35000#32),
    StableHlo.TRef.unary main_call1.cst_0 main_call1.v2 (broadcastInDim S1x256 ![] bcast_S_S1x256),
    StableHlo.TRef.binary main_call1.v1 main_call1.v2 main_call1.v3 Host.divf,
    StableHlo.TRef.unary main_call1.v3 main_call1.v4 (broadcastInDim S100000x256 ![0, 1] bcast_S1x256_S100000x256_0_1),
    StableHlo.TRef.binary (.of main_v28 : TRef sig ⟨S100000x256, .f32⟩) main_call1.v4 main_call1.v5 subf,
    StableHlo.TRef.binary main_call1.v5 main_call1.v5 main_call1.v6 mulf,
    StableHlo.TRef.unary (.of main_c_6 : TRef sig ⟨S_, .i32⟩) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x256_S256_d0 h_S_),
    StableHlo.TRef.unary main_call1.v8 main_call1.v10 (broadcastInDim S256 ![] bcast_S_S256),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S256 ![] bcast_S_S256),
    StableHlo.TRef.ternary main_call1.v12 main_call1.v11 main_call1.call0.v1 main_call1.call0.v2 (fun p a b => select (broadcastInDim S256 ![] bcast_S_S256 p) a b),
    StableHlo.unary main_v31 main_v33 (broadcastInDim S1x256 ![1] bcast_S256_S1x256_1 : (⟨S256, .f32⟩ : BufTy).Contents (Elt F) → (⟨S1x256, .f32⟩ : BufTy).Contents (Elt F)),
    StableHlo.unary main_v33 main_v34 (broadcastInDim S100000x256 ![0, 1] bcast_S1x256_S100000x256_0_1 : (⟨S1x256, .f32⟩ : BufTy).Contents (Elt F) → (⟨S100000x256, .f32⟩ : BufTy).Contents (Elt F)),
    StableHlo.binary main_v28 main_v34 main_v35 (subf : (⟨S100000x256, .f32⟩ : BufTy).Contents (Elt F) → (⟨S100000x256, .f32⟩ : BufTy).Contents (Elt F) → (⟨S100000x256, .f32⟩ : BufTy).Contents (Elt F)),
    StableHlo.nullary main_cst_7 (constant S_ .f32 0x3727C5AC#32),
    StableHlo.unary main_cst_7 main_v36 (broadcastInDim S256 ![] bcast_S_S256 : (⟨S_, .f32⟩ : BufTy).Contents (Elt F) → (⟨S256, .f32⟩ : BufTy).Contents (Elt F)),
    StableHlo.binary main_v32 main_v36 main_v37 (addf : (⟨S256, .f32⟩ : BufTy).Contents (Elt F) → (⟨S256, .f32⟩ : BufTy).Contents (Elt F) → (⟨S256, .f32⟩ : BufTy).Contents (Elt F)),
    StableHlo.unary main_v37 main_v38 (Host.rsqrt : (⟨S256, .f32⟩ : BufTy).Contents (Elt F) → (⟨S256, .f32⟩ : BufTy).Contents (Elt F)),
    StableHlo.unary main_v38 main_v39 (broadcastInDim S1x256 ![1] bcast_S256_S1x256_1 : (⟨S256, .f32⟩ : BufTy).Contents (Elt F) → (⟨S1x256, .f32⟩ : BufTy).Contents (Elt F)),
    StableHlo.unary main_v39 main_v40 (broadcastInDim S100000x256 ![0, 1] bcast_S1x256_S100000x256_0_1 : (⟨S1x256, .f32⟩ : BufTy).Contents (Elt F) → (⟨S100000x256, .f32⟩ : BufTy).Contents (Elt F)),
    StableHlo.binary main_v35 main_v40 main_v41 (mulf : (⟨S100000x256, .f32⟩ : BufTy).Contents (Elt F) → (⟨S100000x256, .f32⟩ : BufTy).Contents (Elt F) → (⟨S100000x256, .f32⟩ : BufTy).Contents (Elt F)),
    StableHlo.unary main_arg7 main_v42 (broadcastInDim S1x256 ![1] bcast_S256_S1x256_1 : (⟨S256, .f32⟩ : BufTy).Contents (Elt F) → (⟨S1x256, .f32⟩ : BufTy).Contents (Elt F)),
    StableHlo.unary main_v42 main_v43 (broadcastInDim S100000x256 ![0, 1] bcast_S1x256_S100000x256_0_1 : (⟨S1x256, .f32⟩ : BufTy).Contents (Elt F) → (⟨S100000x256, .f32⟩ : BufTy).Contents (Elt F)),
    StableHlo.binary main_v41 main_v43 main_v44 (mulf : (⟨S100000x256, .f32⟩ : BufTy).Contents (Elt F) → (⟨S100000x256, .f32⟩ : BufTy).Contents (Elt F) → (⟨S100000x256, .f32⟩ : BufTy).Contents (Elt F)),
    StableHlo.unary main_arg8 main_v45 (broadcastInDim S1x256 ![1] bcast_S256_S1x256_1 : (⟨S256, .f32⟩ : BufTy).Contents (Elt F) → (⟨S1x256, .f32⟩ : BufTy).Contents (Elt F)),
    StableHlo.unary main_v45 main_v46 (broadcastInDim S100000x256 ![0, 1] bcast_S1x256_S100000x256_0_1 : (⟨S1x256, .f32⟩ : BufTy).Contents (Elt F) → (⟨S100000x256, .f32⟩ : BufTy).Contents (Elt F)),
    StableHlo.binary main_v44 main_v46 main_v47 (addf : (⟨S100000x256, .f32⟩ : BufTy).Contents (Elt F) → (⟨S100000x256, .f32⟩ : BufTy).Contents (Elt F) → (⟨S100000x256, .f32⟩ : BufTy).Contents (Elt F)),
    StableHlo.binary main_v47 main_arg9 main_v48 ((fun l r => Host.dotGeneral dot_S100000x256_S256x160_S100000x160_1_0_0_1_n_n none l r) : (⟨S100000x256, .f32⟩ : BufTy).Contents (Elt F) → (⟨S256x160, .f32⟩ : BufTy).Contents (Elt F) → (⟨S100000x160, .f32⟩ : BufTy).Contents (Elt F)),
    StableHlo.unary main_arg10 main_v49 (broadcastInDim S1x160 ![1] bcast_S160_S1x160_1 : (⟨S160, .f32⟩ : BufTy).Contents (Elt F) → (⟨S1x160, .f32⟩ : BufTy).Contents (Elt F)),
    StableHlo.unary main_v49 main_v50 (broadcastInDim S100000x160 ![0, 1] bcast_S1x160_S100000x160_0_1 : (⟨S1x160, .f32⟩ : BufTy).Contents (Elt F) → (⟨S100000x160, .f32⟩ : BufTy).Contents (Elt F)),
    StableHlo.binary main_v48 main_v50 main_v51 (addf : (⟨S100000x160, .f32⟩ : BufTy).Contents (Elt F) → (⟨S100000x160, .f32⟩ : BufTy).Contents (Elt F) → (⟨S100000x160, .f32⟩ : BufTy).Contents (Elt F)) ]

set_option maxHeartbeats 4000000 in
/-- The program is that straight line: the two windows and the functions' bodies unfold to it, sequencing
    reassociating by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., unary_bufs_sub .., binary_bufs_sub .., binary_bufs_sub .., binary_bufs_sub ..,
    binary_bufs_sub .., unary_bufs_sub .., unary_bufs_sub .., binary_bufs_sub .., nullary_bufs_sub .., unary_bufs_sub ..,
    binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., binary_bufs_sub .., unary_bufs_sub .., unary_bufs_sub ..,
    binary_bufs_sub ..⟩

/-! ## The result, in stages -/

/-- The mean of the neighbours' features: each edge gathers its source row (a negative source index wrapped once by the
    row count), scales it by the edge weight, the rows are summed into their destination rows, and each row is divided
    by the number of edges arriving at it, or by one if there are none. -/
def neigh
    (a0 : (⟨S100000x128, .f32⟩ : BufTy).Contents (Elt F))
    (a1 : (⟨S1600000, .i32⟩ : BufTy).Contents (Elt F))
    (a2 : (⟨S1600000, .i32⟩ : BufTy).Contents (Elt F))
    (a3 : (⟨S1600000, .f32⟩ : BufTy).Contents (Elt F)) :
    (⟨S100000x128, .f32⟩ : BufTy).Contents (Elt F) :=
  Host.divf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 a2) (mulf (Host.gather gather_S100000x128_S1600000x1_S1600000x128_1_0_n_n_0_1_1128 a0 (broadcastInDim S1600000x1 ![0] bcast_S1600000_S1600000x1_0 (select (cmpi .slt a1 (broadcastInDim S1600000 ![] bcast_S_S1600000 (constantI S_ 32 0#32))) (addi a1 (broadcastInDim S1600000 ![] bcast_S_S1600000 (constantI S_ 32 100000#32))) a1))) (broadcastInDim S1600000x128 ![0, 1] bcast_S1600000x1_S1600000x128_0_1 (broadcastInDim S1600000x1 ![0] bcast_S1600000_S1600000x1_0 a3)))) (broadcastInDim S100000x128 ![0, 1] bcast_S100000x1_S100000x128_0_1 (broadcastInDim S100000x1 ![0] bcast_S100000_S100000x1_0 (maximumf (Host.scatterAdd scatter_S100000_S1600000x1_S1600000_n_0_0_1 (broadcastInDim S100000 ![] bcast_S_S100000 (constant S_ .f32 0x00000000#32)) (broadcastInDim S1600000x1 ![0] bcast_S1600000_S1600000x1_0 a2) (broadcastInDim S1600000 ![] bcast_S_S1600000 (constant S_ .f32 0x3F800000#32))) (broadcastInDim S100000 ![] bcast_S_S100000 (constant S_ .f32 0x3F800000#32)))))

/-- The activations: the features times the first weights plus the neighbours' mean `n` times the second, plus the bias
    along the rows, and the maximum of that with zero. -/
def act
    (a0 : (⟨S100000x128, .f32⟩ : BufTy).Contents (Elt F))
    (n : (⟨S100000x128, .f32⟩ : BufTy).Contents (Elt F))
    (a4 : (⟨S128x256, .f32⟩ : BufTy).Contents (Elt F))
    (a5 : (⟨S128x256, .f32⟩ : BufTy).Contents (Elt F))
    (a6 : (⟨S256, .f32⟩ : BufTy).Contents (Elt F)) :
    (⟨S100000x256, .f32⟩ : BufTy).Contents (Elt F) :=
  maximumf (addf (addf (Host.dotGeneral dot_S100000x128_S128x256_S100000x256_1_0_0_1_n_n none a0 a4) (Host.dotGeneral dot_S100000x128_S128x256_S100000x256_1_0_0_1_n_n none n a5)) (broadcastInDim S100000x256 ![0, 1] bcast_S1x256_S100000x256_0_1 (broadcastInDim S1x256 ![1] bcast_S256_S1x256_1 a6))) (broadcastInDim S100000x256 ![] bcast_S_S100000x256 (constant S_ .f32 0x00000000#32))

/-- The column means: the sum over the rows from zero, divided by the number of rows. -/
def mu (r : (⟨S100000x256, .f32⟩ : BufTy).Contents (Elt F)) : (⟨S256, .f32⟩ : BufTy).Contents (Elt F) :=
  Host.divf (Host.reduceAdd r (constant S_ .f32 0x00000000#32) reducesTo_S100000x256_S256_d0 h_S_) (broadcastInDim S256 ![] bcast_S_S256 (constant S_ .f32 0x47C35000#32))

/-- The column variances: the sum over the rows of the squared differences from the column mean, divided by the number
    of rows less a correction of zero, kept where that divisor is positive and the not-a-number constant elsewhere. -/
def vr (r : (⟨S100000x256, .f32⟩ : BufTy).Contents (Elt F)) : (⟨S256, .f32⟩ : BufTy).Contents (Elt F) :=
  select (broadcastInDim S256 ![] bcast_S_S256 (cmpf (F := F) .ogt (subf (constant S_ .f32 0x47C35000#32) (sitofp .f32 (constantI S_ 32 0#32))) (constant S_ .f32 0x00000000#32))) (Host.divf (Host.reduceAdd (mulf (subf r (broadcastInDim S100000x256 ![0, 1] bcast_S1x256_S100000x256_0_1 (Host.divf (broadcastInDim S1x256 ![1] bcast_S256_S1x256_1 (Host.reduceAdd r (constant S_ .f32 0x00000000#32) reducesTo_S100000x256_S256_d0 h_S_)) (broadcastInDim S1x256 ![] bcast_S_S1x256 (constant S_ .f32 0x47C35000#32))))) (subf r (broadcastInDim S100000x256 ![0, 1] bcast_S1x256_S100000x256_0_1 (Host.divf (broadcastInDim S1x256 ![1] bcast_S256_S1x256_1 (Host.reduceAdd r (constant S_ .f32 0x00000000#32) reducesTo_S100000x256_S256_d0 h_S_)) (broadcastInDim S1x256 ![] bcast_S_S1x256 (constant S_ .f32 0x47C35000#32)))))) (constant S_ .f32 0x00000000#32) reducesTo_S100000x256_S256_d0 h_S_) (broadcastInDim S256 ![] bcast_S_S256 (subf (constant S_ .f32 0x47C35000#32) (sitofp .f32 (constantI S_ 32 0#32))))) (broadcastInDim S256 ![] bcast_S_S256 (id (constant S_ .f32 0x7FC00000#32)))

/-- The output: the activations less the mean, times the reciprocal square root of the variance plus the small constant,
    times the scale and plus the shift along the rows; that times the last weights, plus the last bias along the rows. -/
def fin (r : (⟨S100000x256, .f32⟩ : BufTy).Contents (Elt F)) (mean var : (⟨S256, .f32⟩ : BufTy).Contents (Elt F))
    (a7 : (⟨S256, .f32⟩ : BufTy).Contents (Elt F))
    (a8 : (⟨S256, .f32⟩ : BufTy).Contents (Elt F))
    (a9 : (⟨S256x160, .f32⟩ : BufTy).Contents (Elt F))
    (a10 : (⟨S160, .f32⟩ : BufTy).Contents (Elt F)) :
    (⟨S100000x160, .f32⟩ : BufTy).Contents (Elt F) :=
  addf (Host.dotGeneral dot_S100000x256_S256x160_S100000x160_1_0_0_1_n_n none (addf (mulf (mulf (subf r (broadcastInDim S100000x256 ![0, 1] bcast_S1x256_S100000x256_0_1 (broadcastInDim S1x256 ![1] bcast_S256_S1x256_1 mean))) (broadcastInDim S100000x256 ![0, 1] bcast_S1x256_S100000x256_0_1 (broadcastInDim S1x256 ![1] bcast_S256_S1x256_1 (Host.rsqrt (addf var (broadcastInDim S256 ![] bcast_S_S256 (constant S_ .f32 0x3727C5AC#32))))))) (broadcastInDim S100000x256 ![0, 1] bcast_S1x256_S100000x256_0_1 (broadcastInDim S1x256 ![1] bcast_S256_S1x256_1 a7))) (broadcastInDim S100000x256 ![0, 1] bcast_S1x256_S100000x256_0_1 (broadcastInDim S1x256 ![1] bcast_S256_S1x256_1 a8))) a9) (broadcastInDim S100000x160 ![0, 1] bcast_S1x160_S100000x160_0_1 (broadcastInDim S1x160 ![1] bcast_S160_S1x160_1 a10))

/-- The whole result as a function of the eleven arguments. -/
def refOut
    (a0 : (⟨S100000x128, .f32⟩ : BufTy).Contents (Elt F))
    (a1 : (⟨S1600000, .i32⟩ : BufTy).Contents (Elt F))
    (a2 : (⟨S1600000, .i32⟩ : BufTy).Contents (Elt F))
    (a3 : (⟨S1600000, .f32⟩ : BufTy).Contents (Elt F))
    (a4 : (⟨S128x256, .f32⟩ : BufTy).Contents (Elt F))
    (a5 : (⟨S128x256, .f32⟩ : BufTy).Contents (Elt F))
    (a6 : (⟨S256, .f32⟩ : BufTy).Contents (Elt F))
    (a7 : (⟨S256, .f32⟩ : BufTy).Contents (Elt F))
    (a8 : (⟨S256, .f32⟩ : BufTy).Contents (Elt F))
    (a9 : (⟨S256x160, .f32⟩ : BufTy).Contents (Elt F))
    (a10 : (⟨S160, .f32⟩ : BufTy).Contents (Elt F)) :
    (⟨S100000x160, .f32⟩ : BufTy).Contents (Elt F) :=
  fin (act a0 (neigh a0 a1 a2 a3) a4 a5 a6) (mu (act a0 (neigh a0 a1 a2 a3) a4 a5 a6))
    (vr (act a0 (neigh a0 a1 a2 a3) a4 a5 a6)) a7 a8 a9 a10

/-! ## What the buffers hold after the operations -/

set_option maxHeartbeats 1000000 in
/-- The result buffer after the operations, from any contents: the stages' composition of the arguments' contents. -/
theorem out_eq (V : Valuation τ sig (Elt F)) :
    after ops V (main_v51 : DevRef τ sig)
      = refOut (V (main_arg0 : DevRef τ sig))
          (V (main_arg1 : DevRef τ sig))
          (V (main_arg2 : DevRef τ sig))
          (V (main_arg3 : DevRef τ sig))
          (V (main_arg4 : DevRef τ sig))
          (V (main_arg5 : DevRef τ sig))
          (V (main_arg6 : DevRef τ sig))
          (V (main_arg7 : DevRef τ sig))
          (V (main_arg8 : DevRef τ sig))
          (V (main_arg9 : DevRef τ sig))
          (V (main_arg10 : DevRef τ sig)) := by
  after_results_simp
  simp only [cast_eq]
  simp only [refOut, fin, vr, mu, act, neigh]

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem arg8_eq (V : Valuation τ sig (Elt F)) :
    after ops V (main_arg8 : DevRef τ sig) = V (main_arg8 : DevRef τ sig) := by
  after_results_simp

theorem arg9_eq (V : Valuation τ sig (Elt F)) :
    after ops V (main_arg9 : DevRef τ sig) = V (main_arg9 : DevRef τ sig) := by
  after_results_simp

theorem arg10_eq (V : Valuation τ sig (Elt F)) :
    after ops V (main_arg10 : DevRef τ sig) = V (main_arg10 : DevRef τ sig) := by
  after_results_simp

/-- On every device, for any float values, from any memory with zero counters: every weakly fair execution of the
    program terminates with the result at the stages' composition of the arguments, and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v51) = refOut
        (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c main_v51).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _)⟩)
    (run_seq scopedRefs_eq scopedSems_eq defs main (fun _ => ops) main_eq (fun _ => ops_sub) m ρ)

/-- info: 'Cert.ReferenceIdeal.RefRun.run' depends on axioms: [propext, Classical.choice, Quot.sound] -/
#guard_msgs in #print axioms run

end Cert.ReferenceIdeal.RefRun

end
-- ==== Proof.RefSpec.lean ====
/- The reference's stages read entry by entry at the ideal values: each stage of the reference's result, at an index
   given by its coordinates, is the corresponding entrywise function of the specification over the extended reals. -/
import proofs.«134907_j57415122812990_1_alg».proof.Proof.RefRun
import proofs.«134907_j57415122812990_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost
import Idealize.ShloMosaic.Lib.StackMember

noncomputable section

namespace Cert.ReferenceIdeal.RefSpec

open Cert.ReferenceIdeal Cert.ReferenceIdeal.Gen Cert.ReferenceIdeal.RefRun Idealize.ShloMosaic Idealize.ShloMosaic.ValueIdx
open scoped BigOperators

/-! ## The layout operations at an index -/

/-- A scalar broadcast to any shape reads the scalar. -/
theorem bcScalar_apply {T : Shape} {α : Type} (h : (⟨0, ![]⟩ : Shape).BroadcastsInDim T ![])
    (x : (⟨0, ![]⟩ : Shape).Idx → α) (j : T.Idx) : broadcastInDim T (no_index ![]) h x j = x ix0 :=
  broadcastInDim_scalar_apply h x j

/-- A one-row array broadcast along 100000 rows reads its one row. -/
theorem bcRows256_apply {α : Type} (y : S1x256.Idx → α) (i : Fin 100000) (k : Fin 256) :
    broadcastInDim S100000x256 (no_index ![0, 1]) bcast_S1x256_S100000x256_0_1 y (ix2 i k) = y (ix2 (0 : Fin 1) k) :=
  broadcastInDim_apply ![0, 1] bcast_S1x256_S100000x256_0_1 y (ix2 i k) (ix2 (0 : Fin 1) k)
    (fun a => by match a with | ⟨0, _⟩ => rfl | ⟨1, _⟩ => rfl)

/-- A vector laid out as one row reads the vector. -/
theorem bcKeep256_apply {α : Type} (x : S256.Idx → α) (k : Fin 256) :
    broadcastInDim S1x256 (no_index ![1]) bcast_S256_S1x256_1 x (ix2 (0 : Fin 1) k) = x (ix1 k) :=
  broadcastInDim_apply ![1] bcast_S256_S1x256_1 x (ix2 (0 : Fin 1) k) (ix1 k)
    (fun a => by match a with | ⟨0, _⟩ => rfl)

/-- A vector broadcast along the rows, through its one-row layout, reads the vector at the column. -/
theorem bcRow256_apply {α : Type} (x : S256.Idx → α) (i : Fin 100000) (k : Fin 256) :
    broadcastInDim S100000x256 (no_index ![0, 1]) bcast_S1x256_S100000x256_0_1
        (broadcastInDim S1x256 (no_index ![1]) bcast_S256_S1x256_1 x) (ix2 i k)
      = x (ix1 k) := by
  rw [bcRows256_apply, bcKeep256_apply]

/-- The same for the 160 output columns. -/
theorem bcRow160_apply {α : Type} (x : S160.Idx → α) (i : Fin 100000) (j : Fin 160) :
    broadcastInDim S100000x160 (no_index ![0, 1]) bcast_S1x160_S100000x160_0_1
        (broadcastInDim S1x160 (no_index ![1]) bcast_S160_S1x160_1 x) (ix2 i j)
      = x (ix1 j) := by
  rw [broadcastInDim_apply ![0, 1] bcast_S1x160_S100000x160_0_1 _ (ix2 i j) (ix2 (0 : Fin 1) j)
        (fun a => by match a with | ⟨0, _⟩ => rfl | ⟨1, _⟩ => rfl),
      broadcastInDim_apply ![1] bcast_S160_S1x160_1 x (ix2 (0 : Fin 1) j) (ix1 j)
        (fun a => by match a with | ⟨0, _⟩ => rfl)]

/-! ## The contractions and the column sum at an index -/

theorem dot_128_256_eq : dot_S100000x128_S128x256_S100000x256_1_0_0_1_n_n = DotDims.plain 100000 128 256 := rfl
theorem dot_256_160_eq : dot_S100000x256_S256x160_S100000x160_1_0_0_1_n_n = DotDims.plain 100000 256 160 := rfl

/-- The product with a 128 × 256 matrix at an entry: the sum over the 128 contracted coordinates. -/
theorem dot_128_256_apply (A : FVec Ideal S100000x128 .f32) (B : FVec Ideal S128x256 .f32) (i : Fin 100000) (k : Fin 256) :
    Host.dotGeneral dot_S100000x128_S128x256_S100000x256_1_0_0_1_n_n none A B (ix2 i k)
      = ∑ a : Fin 128, A (ix2 i a) * B (ix2 a k) := by
  rw [dot_128_256_eq]; exact StackMember.dotGeneral_plain_apply none A B i k

/-- The product with the 256 × 160 matrix at an entry: the sum over the 256 contracted coordinates. -/
theorem dot_256_160_apply (A : FVec Ideal S100000x256 .f32) (B : FVec Ideal S256x160 .f32) (i : Fin 100000) (j : Fin 160) :
    Host.dotGeneral dot_S100000x256_S256x160_S100000x160_1_0_0_1_n_n none A B (ix2 i j)
      = ∑ k : Fin 256, A (ix2 i k) * B (ix2 k j) := by
  rw [dot_256_160_eq]; exact StackMember.dotGeneral_plain_apply none A B i j

theorem reduces_rows : S100000x256.Reduces [0] S256 := by decide

/-- The sum over the rows from the zero word, at a column: the sum of that column's 100000 entries. -/
theorem colSum_apply (r : FVec Ideal S100000x256 .f32) (k : Fin 256) :
    Host.reduceAdd r (constant (F := Ideal) S_ .f32 0x00000000#32) reducesTo_S100000x256_S256_d0 h_S_ (ix1 k)
      = ∑ i : Fin 100000, r (ix2 i k) := by
  rw [hostReduceAdd_apply, Ideal.hostReduceAdd_single reducesTo_S100000x256_S256_d0 reduces_rows, constant_apply,
    Ideal.ofBits_zero_f32, zero_add]
  exact Finset.sum_congr rfl fun i _ => congrArg r (funext fun a => Fin.ext (by match a with | ⟨0, _⟩ => rfl | ⟨1, _⟩ => rfl))

/-! ## The stages -/

/-- The activations at an entry. -/
theorem act_apply (a0 n : (⟨S100000x128, .f32⟩ : BufTy).Contents (Elt Ideal)) (a4 a5 : (⟨S128x256, .f32⟩ : BufTy).Contents (Elt Ideal))
    (a6 : (⟨S256, .f32⟩ : BufTy).Contents (Elt Ideal)) (i : Fin 100000) (k : Fin 256) :
    act (F := Ideal) a0 n a4 a5 a6 (ix2 i k)
      = Cert.Spec.rst (fun i a => a0 (ix2 i a)) (fun i a => n (ix2 i a)) (fun a k => a4 (ix2 a k)) (fun a k => a5 (ix2 a k))
          (fun k => a6 (ix1 k)) i k := by
  unfold act Cert.Spec.rst
  rw [maximumf_apply, addf_apply, addf_apply, dot_128_256_apply, dot_128_256_apply, bcRow256_apply,
    broadcastInDim_scalar_apply, constant_apply, Ideal.ofBits_zero_f32]

/-- The column means at a column. -/
theorem mu_apply (r : (⟨S100000x256, .f32⟩ : BufTy).Contents (Elt Ideal)) (k : Fin 256) :
    mu (F := Ideal) r (ix1 k) = Cert.Spec.mean (fun i k => r (ix2 i k)) k := by
  unfold mu Cert.Spec.mean
  rw [hostDivf_apply, colSum_apply, broadcastInDim_scalar_apply, constant_apply]

/-! ## The divisor word, and the variance -/

/-- The word `0x47C35000` denotes the real 100000. -/
theorem rowCount_eq : Ideal.ofBits .f32 0x47C35000#32 = ((100000 : ℝ) : EReal) := by
  simp [Ideal.ofBits, Ideal.ieee, -EReal.coe_mul]; norm_num

/-- It is positive. -/
theorem rowCount_pos : (0 : EReal) < Ideal.ofBits .f32 0x47C35000#32 := by
  rw [rowCount_eq]; exact EReal.coe_pos.mpr (by norm_num)

/-- The integer zero converted is the float zero. -/
theorem sitofp_zero_word : (FloatOps.sitofp (F := Ideal) .f32 (0#32 : BitVec 32) : Ideal .f32) = 0 := by
  show ((((0#32 : BitVec 32).toInt : ℤ) : ℝ) : EReal) = 0
  simp

theorem constantI_apply {s : Shape} {w : Nat} (b : BitVec w) (i : s.Idx) : constantI s w b i = b := rfl

/-- The row count exceeds zero: the comparison's bit is set. -/
theorem cmp_rowCount_zero : Ideal.cmp .ogt (Ideal.ofBits .f32 0x47C35000#32) 0 = 1#1 := by
  simp [Ideal.cmp, rowCount_pos]

theorem hostRsqrt_apply {s : Shape} {φ : FTy} (a : FVec Ideal s φ) (i : s.Idx) : Host.rsqrt a i = Ideal.rsqrt (a i) := rfl

/-- The column variances at a column: the divisor is the row count less the converted zero, which is the row count and
    is positive, so the selection takes the quotient. -/
theorem vr_apply (r : (⟨S100000x256, .f32⟩ : BufTy).Contents (Elt Ideal)) (k : Fin 256) :
    vr (F := Ideal) r (ix1 k) = Cert.Spec.varR (fun i k => r (ix2 i k)) k := by
  simp only [vr, Cert.Spec.varR, Cert.Spec.mean, select_apply, bcScalar_apply, cmpf_apply, subf_apply, mulf_apply,
    constant_apply, sitofp_apply, constantI_apply, sitofp_zero_word, sub_zero, Ideal.ofBits_zero_f32, Ideal.cmpf_def,
    cmp_rowCount_zero, select_one, hostDivf_apply, colSum_apply, bcRows256_apply, bcKeep256_apply]

/-- The output at an entry. -/
theorem fin_apply (r : (⟨S100000x256, .f32⟩ : BufTy).Contents (Elt Ideal)) (mean var a7 a8 : (⟨S256, .f32⟩ : BufTy).Contents (Elt Ideal))
    (a9 : (⟨S256x160, .f32⟩ : BufTy).Contents (Elt Ideal)) (a10 : (⟨S160, .f32⟩ : BufTy).Contents (Elt Ideal)) (i : Fin 100000) (j : Fin 160) :
    fin (F := Ideal) r mean var a7 a8 a9 a10 (ix2 i j)
      = Cert.Spec.out (fun i k => r (ix2 i k)) (fun k => mean (ix1 k)) (fun k => var (ix1 k)) (fun k => a7 (ix1 k))
          (fun k => a8 (ix1 k)) (fun k j => a9 (ix2 k j)) (fun j => a10 (ix1 j)) i j := by
  simp only [fin, Cert.Spec.out, addf_apply, mulf_apply, subf_apply, dot_256_160_apply, bcRow160_apply, bcRow256_apply,
    hostRsqrt_apply, bcScalar_apply, constant_apply]

/-! ## The whole result -/

/-- The activations of the arguments, entry by entry: the specification's activation of the features, the neighbours' mean
    (kept as the reference computes it), the two weight matrices and the bias. -/
abbrev rstOf (a0 : (⟨S100000x128, .f32⟩ : BufTy).Contents (Elt Ideal)) (a1 a2 : (⟨S1600000, .i32⟩ : BufTy).Contents (Elt Ideal)) (a3 : (⟨S1600000, .f32⟩ : BufTy).Contents (Elt Ideal))
    (a4 a5 : (⟨S128x256, .f32⟩ : BufTy).Contents (Elt Ideal)) (a6 : (⟨S256, .f32⟩ : BufTy).Contents (Elt Ideal)) : Fin 100000 → Fin 256 → EReal :=
  Cert.Spec.rst (fun i a => a0 (ix2 i a)) (fun i a => neigh (F := Ideal) a0 a1 a2 a3 (ix2 i a)) (fun a k => a4 (ix2 a k))
    (fun a k => a5 (ix2 a k)) (fun k => a6 (ix1 k))

/-- The reference's result at an entry: the specification's output of the activations, their column means and variances,
    the scale, the shift, the last weights and the last bias. -/
theorem refOut_apply (a0 : (⟨S100000x128, .f32⟩ : BufTy).Contents (Elt Ideal)) (a1 a2 : (⟨S1600000, .i32⟩ : BufTy).Contents (Elt Ideal)) (a3 : (⟨S1600000, .f32⟩ : BufTy).Contents (Elt Ideal))
    (a4 a5 : (⟨S128x256, .f32⟩ : BufTy).Contents (Elt Ideal)) (a6 a7 a8 : (⟨S256, .f32⟩ : BufTy).Contents (Elt Ideal)) (a9 : (⟨S256x160, .f32⟩ : BufTy).Contents (Elt Ideal))
    (a10 : (⟨S160, .f32⟩ : BufTy).Contents (Elt Ideal)) (i : Fin 100000) (j : Fin 160) :
    refOut (F := Ideal) a0 a1 a2 a3 a4 a5 a6 a7 a8 a9 a10 (ix2 i j)
      = Cert.Spec.out (rstOf a0 a1 a2 a3 a4 a5 a6) (Cert.Spec.mean (rstOf a0 a1 a2 a3 a4 a5 a6))
          (Cert.Spec.varR (rstOf a0 a1 a2 a3 a4 a5 a6)) (fun k => a7 (ix1 k)) (fun k => a8 (ix1 k)) (fun k j => a9 (ix2 k j))
          (fun j => a10 (ix1 j)) i j := by
  have hR : (fun i k => act (F := Ideal) a0 (neigh a0 a1 a2 a3) a4 a5 a6 (ix2 i k)) = rstOf a0 a1 a2 a3 a4 a5 a6 :=
    funext fun i => funext fun k => act_apply a0 _ a4 a5 a6 i k
  have hM : (fun k => mu (F := Ideal) (act a0 (neigh a0 a1 a2 a3) a4 a5 a6) (ix1 k)) = Cert.Spec.mean (rstOf a0 a1 a2 a3 a4 a5 a6) :=
    funext fun k => (mu_apply _ k).trans (congrArg (fun R => Cert.Spec.mean R k) hR)
  have hV : (fun k => vr (F := Ideal) (act a0 (neigh a0 a1 a2 a3) a4 a5 a6) (ix1 k)) = Cert.Spec.varR (rstOf a0 a1 a2 a3 a4 a5 a6) :=
    funext fun k => (vr_apply _ k).trans (congrArg (fun R => Cert.Spec.varR R k) hR)
  unfold refOut
  rw [fin_apply, hR, hM, hV]

end Cert.ReferenceIdeal.RefSpec

end
-- ==== Proof.NeighEq.lean ====
/- The neighbours' mean is one term in the two programs: what the idealized kernel program's host operations leave in
   the buffer of the mean, before its first region, is the reference's stage `neigh` of the same four arguments. -/
import proofs.«134907_j57415122812990_1_alg».proof.Proof.KI.Run
import proofs.«134907_j57415122812990_1_alg».proof.Proof.RefRun
import proofs.«134907_j57415122812990_1_alg».proof.Proof.Gen.KernelIdeal
import proofs.«134907_j57415122812990_1_alg».proof.Proof.Gen.ReferenceIdeal
import Idealize.ShloMosaic.Lib.StableHlo.Run
import Idealize.ShloMosaic.PureOps.Ideal

noncomputable section

namespace Cert.NeighEq

open Idealize.ShloMosaic Idealize.ShloMosaic.TcCoe Idealize.SL.Sem Idealize.ShloMosaic.StableHlo

set_option maxHeartbeats 1000000 in
/-- The host operations before the first region compute the mean of the neighbours' features by the reference's own
    operations, in the reference's order, over shape names and dimension records that are the reference's by
    unfolding. -/
theorem neigh_eq (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    (Cert.KernelIdeal.Frame.V1 m ρ c Cert.KernelIdeal.main_v21 : Cert.KernelIdeal.S100000x128.Idx → EReal)
      = Cert.ReferenceIdeal.RefRun.neigh (F := Ideal) (m ((c : Thread Cert.KernelIdeal.nD Cert.KernelIdeal.τ).loc Cert.KernelIdeal.main_arg0)) (m ((c : Thread Cert.KernelIdeal.nD Cert.KernelIdeal.τ).loc Cert.KernelIdeal.main_arg1))
          (m ((c : Thread Cert.KernelIdeal.nD Cert.KernelIdeal.τ).loc Cert.KernelIdeal.main_arg2)) (m ((c : Thread Cert.KernelIdeal.nD Cert.KernelIdeal.τ).loc Cert.KernelIdeal.main_arg3)) := by
  show StableHlo.after Cert.KernelIdeal.Gen.hostOps0 (Cert.KernelIdeal.Frame.W0 m ρ c) (Proc.devRef .tc Cert.KernelIdeal.main_v21) = _
  after_results_simp
  unfold Cert.ReferenceIdeal.RefRun.neigh
  rfl

end Cert.NeighEq

end
-- ==== Proof.Real.lean ====
/-
  Real entries through the layer: the mean of the neighbours' features is real when the features and the edge weights
  are (a gather selects entries, an accumulating scatter adds finitely many, and the divisor `max (degree) 1` is a real
  number at least one); the activation is real when its operands are; and on real activations the two formulas of the
  column variance agree.
-/
import proofs.«134907_j57415122812990_1_alg».proof.Proof.RefRun
import proofs.«134907_j57415122812990_1_alg».proof.Proof.Gen.ReferenceIdeal
import proofs.«134907_j57415122812990_1_alg».proof.Proof.Alg
import proofs.«134907_j57415122812990_1_alg».proof.Proof.Spec
import Idealize.ShloMosaic.Lib.ValueIdx
import Idealize.ShloMosaic.Lib.IdealHost

noncomputable section

namespace Cert.Real

open Idealize.ShloMosaic Idealize.ShloMosaic.ValueIdx
open Cert.ReferenceIdeal Cert.Alg

attribute [local instance] Cert.ReferenceIdeal.Gen.facts

/-- A broadcast only repeats entries of its operand. -/
theorem broadcastInDim_isReal {s t : Shape} (dims : Fin s.rank → Fin t.rank) (h : s.BroadcastsInDim t dims)
    (x : s.Idx → EReal) (hx : ∀ j, IsReal (x j)) (i : t.Idx) : IsReal (broadcastInDim t dims h x i) :=
  hx _

/-- A property of every entry of the operand holds of every entry of its broadcast. -/
theorem broadcastInDim_forall {α : Type} {s t : Shape} (P : α → Prop) (dims : Fin s.rank → Fin t.rank)
    (h : s.BroadcastsInDim t dims) (x : s.Idx → α) (hx : ∀ j, P (x j)) (i : t.Idx) : P (broadcastInDim t dims h x i) :=
  hx _

/-- `y` is `max d 1` for a real `d`: a real number at least one. -/
def IsMaxOne (y : EReal) : Prop := ∃ d, IsReal d ∧ y = max d 1

/-- The quotient of a real by such a number is real. -/
theorem isReal_div_of_isMaxOne {x y : EReal} (hx : IsReal x) (hy : IsMaxOne y) : IsReal (Ideal.div x y) := by
  obtain ⟨d, hd, rfl⟩ := hy
  exact hx.div_max_one hd

/-- The entrywise maximum of a real array and an array of ones. -/
theorem isMaxOne_maximumf {s : Shape} (D O : FVec Ideal s .f32) (j : s.Idx) (hD : IsReal (D j)) (hO : O j = 1) :
    IsMaxOne (maximumf D O j) :=
  ⟨D j, hD, by rw [maximumf_apply, hO]⟩

/-- The mean of the neighbours' features has real entries when the features and the edge weights do. -/
theorem neigh_isReal
    (a0 : (⟨S100000x128, .f32⟩ : BufTy).Contents (Elt Ideal))
    (a1 : (⟨S1600000, .i32⟩ : BufTy).Contents (Elt Ideal))
    (a2 : (⟨S1600000, .i32⟩ : BufTy).Contents (Elt Ideal))
    (a3 : (⟨S1600000, .f32⟩ : BufTy).Contents (Elt Ideal))
    (h0 : ∀ i, IsReal (a0 i)) (h3 : ∀ i, IsReal (a3 i)) :
    ∀ i, IsReal (Cert.ReferenceIdeal.RefRun.neigh (F := Ideal) a0 a1 a2 a3 i) := by
  intro i
  have hzero : ∀ j : S_.Idx, IsReal (constant (F := Ideal) S_ .f32 0x00000000#32 j) := fun _ => isReal_ofBits_zero
  have hone : ∀ j : S_.Idx, IsReal (constant (F := Ideal) S_ .f32 0x3F800000#32 j) := fun _ => isReal_ofBits_one
  unfold Cert.ReferenceIdeal.RefRun.neigh
  rw [hostDivf_apply]
  refine isReal_div_of_isMaxOne ?_ ?_
  · refine scatterAdd_isReal _ _ _ _ (fun j => broadcastInDim_isReal _ _ _ hzero j) (fun j => ?_) i
    rw [mulf_apply]
    exact (gather_isReal _ _ _ h0 j).mul
      (broadcastInDim_isReal _ _ _ (fun j' => broadcastInDim_isReal _ _ _ h3 j') j)
  · refine broadcastInDim_forall IsMaxOne _ _ _ (fun j1 => ?_) i
    refine broadcastInDim_forall IsMaxOne _ _ _ (fun j2 => ?_) j1
    refine isMaxOne_maximumf _ _ j2 ?_ ?_
    · exact scatterAdd_isReal _ _ _ _ (fun j => broadcastInDim_isReal _ _ _ hzero j)
        (fun j => broadcastInDim_isReal _ _ _ hone j) j2
    · rw [broadcastInDim_scalar_apply, constant_apply, ofBits_one]

/-- The activation is real when the features, the neighbours' means, the two weight matrices and the bias are. -/
theorem rst_isReal (x nb : Fin 100000 → Fin 128 → EReal) (ws wn : Fin 128 → Fin 256 → EReal) (b : Fin 256 → EReal)
    (hx : ∀ i a, IsReal (x i a)) (hnb : ∀ i a, IsReal (nb i a)) (hws : ∀ a k, IsReal (ws a k))
    (hwn : ∀ a k, IsReal (wn a k)) (hb : ∀ k, IsReal (b k)) (i : Fin 100000) (k : Fin 256) :
    IsReal (Cert.Spec.rst x nb ws wn b i k) := by
  unfold Cert.Spec.rst
  exact isReal_relu3 (isReal_dot _ _ (fun a => hx i a) (fun a => hws a k))
    (isReal_dot _ _ (fun a => hnb i a) (fun a => hwn a k)) (hb k)

/-- On real activations the mean of squares minus the squared mean is the mean squared deviation, column by column. -/
theorem varK_eq_varR (r : Fin 100000 → Fin 256 → EReal) (hr : ∀ i k, IsReal (r i k)) (k : Fin 256) :
    Cert.Spec.varK r k = Cert.Spec.varR r k := by
  unfold Cert.Spec.varK Cert.Spec.varR Cert.Spec.mean
  simp only [Cert.Spec.Nw, Nw_eq]
  exact var_identity (fun i => r i k) (fun i => hr i k)

end Cert.Real

end
-- ==== Proof.PreReal.lean ====
/-
  From the precondition to real entries. The precondition says, of each float argument, that every entry's absolute
  value is below `+∞`; on the extended reals `max x (-x) < ⊤` holds exactly when `x` is neither infinity, that is,
  when `x` is a real number.
-/
import proofs.«134907_j57415122812990_1_alg».proof.Pre_finite_inputs
import proofs.«134907_j57415122812990_1_alg».proof.Proof.Gen.Pre_finite_inputs
import proofs.«134907_j57415122812990_1_alg».proof.Proof.Alg
import Idealize.ShloMosaic.Lib.ReduceAll
import Idealize.ShloMosaic.Lib.ValueIdx

noncomputable section

namespace Cert.PreReal

open Idealize.ShloMosaic Idealize.ShloMosaic.ValueIdx
open Cert.Pre_finite_inputs Cert.Alg

/-- The scalar shape has one index. -/
instance subsingleton_scalar_idx : Subsingleton S_.Idx := ⟨fun a b => funext fun d => d.elim0⟩

/-- The word of `+∞` denotes `⊤`. -/
theorem ofBits_inf : Ideal.ofBits .f32 0x7F800000#32 = ⊤ := by
  simp [Ideal.ofBits, Ideal.ieee]

/-- A comparison "less than" that answers 1 is the order's. -/
theorem lt_of_cmp_olt {a b : EReal} (h : Ideal.cmp .olt a b = 1#1) : a < b := by
  by_contra hn
  simp [Ideal.cmp, hn] at h

/-- An extended real whose absolute value is below `+∞` is a real number. -/
theorem isReal_of_abs_lt_inf (x : EReal)
    (h : FloatOps.cmpf (F := Ideal) (φ := .f32) .olt (FloatOps.hostAbsf (F := Ideal) (φ := .f32) x)
      (FloatOps.ofBits (F := Ideal) .f32 0x7F800000#32) = 1#1) : IsReal x := by
  have h' : Ideal.cmp .olt (max x (-x)) (Ideal.ofBits .f32 0x7F800000#32) = 1#1 := h
  rw [ofBits_inf] at h'
  have hlt := lt_of_cmp_olt h'
  refine isReal_iff.2 ⟨fun e => ?_, fun e => ?_⟩
  · subst e; simp at hlt
  · subst e; simp at hlt

/-- One argument's conjunct: if "every entry's absolute value is below `+∞`" reduces to 1, every entry is real. -/
theorem all_isReal {s : Shape} {axes : List (Fin s.rank)} (x : FVec Ideal s .f32) (dims : Fin S_.rank → Fin s.rank)
    (hb : S_.BroadcastsInDim s dims) (h : s.ReducesTo axes S_) (hu : 0 < S_.numel)
    (e : Host.reduce IntOp.andi
        (cmpf .olt (Host.absf x) (broadcastInDim s dims hb (constant (F := Ideal) S_ .f32 0x7F800000#32)))
        (constantI S_ 1 1#1) h hu ix0 = 1#1) (i : s.Idx) : IsReal (x i) :=
  isReal_of_abs_lt_inf (x i) (Host.reduce_andi_all _ _ h hu ix0 e i)

attribute [local instance] Cert.Pre_finite_inputs.Gen.facts

/-- Under the precondition every float argument has real entries. -/
theorem pre_isReal_all (a0 : FVec Ideal S100000x128 .f32) (a1 a2 : IVec S1600000 32) (a3 : FVec Ideal S1600000 .f32)
    (a4 a5 : FVec Ideal S128x256 .f32) (a6 a7 a8 : FVec Ideal S256 .f32) (a9 : FVec Ideal S256x160 .f32)
    (a10 : FVec Ideal S160 .f32)
    (h : Cert.Pre_finite_inputs.fn (F := Ideal) a0 a1 a2 a3 a4 a5 a6 a7 a8 a9 a10 = fun _ => 1#1) :
    (∀ i, IsReal (a0 i)) ∧ (∀ i, IsReal (a3 i)) ∧ (∀ i, IsReal (a4 i)) ∧ (∀ i, IsReal (a5 i)) ∧ (∀ i, IsReal (a6 i))
      ∧ (∀ i, IsReal (a7 i)) ∧ (∀ i, IsReal (a8 i)) ∧ (∀ i, IsReal (a9 i)) ∧ (∀ i, IsReal (a10 i)) := by
  have h0 := congrFun h ix0
  dsimp only [fn, fn_part1, fn_part2, andi] at h0
  simp only [IntOp.andi_eq_one] at h0
  obtain ⟨⟨⟨⟨⟨⟨⟨⟨e0, e3⟩, e4⟩, e5⟩, e6⟩, e7⟩, e8⟩, e9⟩, e10⟩ := h0
  exact ⟨all_isReal a0 _ _ _ _ e0, all_isReal a3 _ _ _ _ e3, all_isReal a4 _ _ _ _ e4, all_isReal a5 _ _ _ _ e5,
    all_isReal a6 _ _ _ _ e6, all_isReal a7 _ _ _ _ e7, all_isReal a8 _ _ _ _ e8, all_isReal a9 _ _ _ _ e9,
    all_isReal a10 _ _ _ _ e10⟩

/-- Under the precondition the features, the edge weights, the two weight matrices and the bias have real entries. -/
theorem pre_isReal (a0 : FVec Ideal S100000x128 .f32) (a1 a2 : IVec S1600000 32) (a3 : FVec Ideal S1600000 .f32)
    (a4 a5 : FVec Ideal S128x256 .f32) (a6 a7 a8 : FVec Ideal S256 .f32) (a9 : FVec Ideal S256x160 .f32)
    (a10 : FVec Ideal S160 .f32)
    (h : Cert.Pre_finite_inputs.fn (F := Ideal) a0 a1 a2 a3 a4 a5 a6 a7 a8 a9 a10 = fun _ => 1#1) :
    (∀ i, IsReal (a0 i)) ∧ (∀ i, IsReal (a3 i)) ∧ (∀ i, IsReal (a4 i)) ∧ (∀ i, IsReal (a5 i)) ∧ (∀ i, IsReal (a6 i)) := by
  obtain ⟨r0, r3, r4, r5, r6, _⟩ := pre_isReal_all a0 a1 a2 a3 a4 a5 a6 a7 a8 a9 a10 h
  exact ⟨r0, r3, r4, r5, r6⟩

end Cert.PreReal

end
-- ==== Proof.lean ====
/- The certificate: the word-level kernel and both idealized programs run to the end without a fault and leave their
   argument arrays unchanged; the ideal pass rewrote nothing; and at the ideal instance the idealized kernel and the
   idealized reference, run from memories agreeing on the arguments, end with equal results.

   The mathematics of the last claim. Both programs compute neighbourhood means `n` by the same gather, weighting,
   scatter-add and division, then the activation `r = max (x · W_self + n · W_neigh + b) 0` of every one of the 100000
   rows, then normalise each column of `r` by its mean and variance over the rows, scale, shift, and project. The
   kernel obtains the column sums of `r` and of `r²` tile by tile (50 tiles of 2000 rows, accumulated in two rows
   carried from one grid point to the next) and uses mean = Σ r / N and variance = Σ r² / N − mean²; the reference uses
   mean = Σ r / N and variance = Σ (r − mean)² / N. On the extended reals these two variances agree when every entry of
   `r` is a real number, which follows from the precondition (every float argument finite): the gathered rows, their
   weighted sums, the degree (a sum of ones), the quotient by max (degree, 1) ≥ 1, the products with the weights and the
   maximum with zero are all reals. Everything else is the same function of the same arrays, entry by entry. -/
import proofs.«134907_j57415122812990_1_alg».proof.Defs
import proofs.«134907_j57415122812990_1_alg».proof.Proof.Gen.Kernel
import proofs.«134907_j57415122812990_1_alg».proof.Proof.Gen.KernelIdeal
import proofs.«134907_j57415122812990_1_alg».proof.Proof.Gen.ReferenceIdeal
import proofs.«134907_j57415122812990_1_alg».proof.Proof.Gen.Pre_finite_inputs
import proofs.«134907_j57415122812990_1_alg».proof.Proof.KB.Run
import proofs.«134907_j57415122812990_1_alg».proof.Proof.KI.Result
import proofs.«134907_j57415122812990_1_alg».proof.Proof.RefRun
import proofs.«134907_j57415122812990_1_alg».proof.Proof.RefSpec
import proofs.«134907_j57415122812990_1_alg».proof.Proof.NeighEq
import proofs.«134907_j57415122812990_1_alg».proof.Proof.Real
import proofs.«134907_j57415122812990_1_alg».proof.Proof.PreReal

set_option maxRecDepth 16384

noncomputable section

namespace Cert.Proof

open Idealize.ShloMosaic Idealize.ShloMosaic.TcCoe Idealize.SL.Sem Idealize.ShloMosaic.ValueIdx

theorem frame_k : Cert.frame_Kernel := fun m ρ _ => Cert.Kernel.Frame.frame (F := Bits) m ρ
theorem frame_ki : Cert.frame_KernelIdeal := fun m ρ _ => Cert.KernelIdeal.Frame.frame (F := Ideal) m ρ
theorem frame_ri : Cert.frame_ReferenceIdeal := fun m ρ _ =>
  (θ_run Cert.ReferenceIdeal.defs _ _).mono (fun _ h c => (h c).2) (Cert.ReferenceIdeal.RefRun.run (F := Ideal) m ρ)

/-- Under the precondition every entry of the activation is a real number. -/
theorem act_isReal (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) (i : Fin 100000) (k : Fin 256) :
    Cert.Alg.IsReal (Cert.KernelIdeal.Frame.Rm m ρ c i k) := by
  obtain ⟨h0, h3, h4, h5, h6⟩ := Cert.PreReal.pre_isReal _ _ _ _ _ _ _ _ _ _ _ (hpre c)
  refine Cert.Real.rst_isReal _ _ _ _ _ (fun i a => h0 _) (fun i a => ?_) (fun a k => h4 _) (fun a k => h5 _) (fun k => h6 _) i k
  show Cert.Alg.IsReal ((Cert.KernelIdeal.Frame.V1 m ρ c Cert.KernelIdeal.main_v21 : Cert.KernelIdeal.S100000x128.Idx → EReal) (ix2 i a))
  rw [Cert.NeighEq.neigh_eq m ρ c]
  exact Cert.Real.neigh_isReal _ _ _ _ h0 h3 _

theorem algebraic : Cert.algebraic_KernelIdeal_ReferenceIdeal := by
  intro m ρ m' ρ' hpre hagree
  refine ⟨fun c => (Cert.KernelIdeal.Frame.dat1 (Cert.KernelIdeal.Frame.V3 m ρ) c).arrAt 11 Cert.KernelIdeal.cfg1.N,
    Cert.KernelIdeal.Frame.run_value m ρ, ?_⟩
  refine (θ_run Cert.ReferenceIdeal.defs _ _).mono (fun r h c => ⟨(h c).1.trans ?_, (h c).2⟩)
    (Cert.ReferenceIdeal.RefRun.run (F := Ideal) m' ρ')
  obtain ⟨e0, e1, e2, e3, e4, e5, e6, e7, e8, e9, e10⟩ := hagree c
  rw [e0, e1, e2, e3, e4, e5, e6, e7, e8, e9, e10]
  funext idx
  rw [eq_ix2 idx]
  refine (Cert.ReferenceIdeal.RefSpec.refOut_apply _ _ _ _ _ _ _ _ _ _ _ (idx 0) (idx 1)).trans ?_
  refine Eq.trans ?_ (Cert.KernelIdeal.Frame.K_value m ρ c (idx 0) (idx 1)).symm
  have hR : Cert.ReferenceIdeal.RefSpec.rstOf (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6))
      = Cert.KernelIdeal.Frame.Rm m ρ c := by
    show Cert.Spec.rst _ _ _ _ _ = Cert.Spec.rst _ _ _ _ _
    refine congrArg (fun nb => Cert.Spec.rst _ nb _ _ _) ?_
    funext i a
    show _ = (Cert.KernelIdeal.Frame.V1 m ρ c Cert.KernelIdeal.main_v21 : Cert.KernelIdeal.S100000x128.Idx → EReal) (ix2 i a)
    rw [Cert.NeighEq.neigh_eq m ρ c]
  rw [hR]
  have hv : Cert.Spec.varR (Cert.KernelIdeal.Frame.Rm m ρ c) = Cert.Spec.varK (Cert.KernelIdeal.Frame.Rm m ρ c) :=
    funext fun k => (Cert.Real.varK_eq_varR _ (fun i k => act_isReal m ρ hpre c i k) k).symm
  rw [hv]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
